-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S1x1024 : Shape := ⟨2, ![1, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 27
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S4x2048x1024, .bf16⟩
  | .hbm, ⟨24, _⟩ => ⟨S4x2048x1024, .bf16⟩
  | .hbm, ⟨25, _⟩ => ⟨S4x2048x1024, .bf16⟩
  | .hbm, ⟨26, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_26 : BitVec 32 := 0#32
  let v43 : BitVec 1 := Scalar.cmpi .ne v42 c0_i32_26
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  bcast_S_S1024x1024 : S_.BroadcastsInDim S1024x1024 (![] : Fin 0 → Fin S1024x1024.rank)
  bcast_S_S1024 : S_.BroadcastsInDim S1024 (![] : Fin 0 → Fin S1024.rank)
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_0_0_1_n_n_wf : DotDims.WF S512x1024 S1024x1024 S512x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Region0Bits.lean ====
/-
  Region 0 of the program: the three projections.  At grid point t the body reads rows 512·t … 512·t+511 of the
  flattened input (window 0) and the whole of each weight matrix and bias row (windows 1–6, the same block at
  every point), and writes the same 512 rows of the three results (windows 7–9): for each of them the product of
  the row block with the weight matrix, plus the bias row repeated down the block.  Nothing is carried from one
  point to the next.  This module states what each result buffer holds after the body as a function of the seven
  blocks read, runs the body once against that statement, and packages it as the pipeline's proof data at any
  contents V of the arrays at the region's entry.
-/
import proofs.«152240_j4922032521509_2_alg».proof.Proof.Gen.Kernel.Launch
import proofs.«152240_j4922032521509_2_alg».proof.Proof.Gen.Kernel.Skeleton
import proofs.«152240_j4922032521509_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, whether the block was fetched there or was already in place
    (the weights and biases are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body reads and writes through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the three result buffers hold after the body: each one whole-buffer store of its projection of the blocks read. -/
def outQ (x0 : Vec F S512x1024 .f32) (w : Vec F S1024x1024 .bf16) (b : Vec F S1x1024 .f32) : Vec F S512x1024 .bf16 :=
  View.canon [⟨rX, k0_pay2 (View.ld x0 rX) (View.ld w rW) (View.ld b rB)⟩]
def outK (x0 : Vec F S512x1024 .f32) (w : Vec F S1024x1024 .bf16) (b : Vec F S1x1024 .f32) : Vec F S512x1024 .bf16 :=
  View.canon [⟨rX, k0_pay3 (View.ld x0 rX) (View.ld w rW) (View.ld b rB)⟩]
def outV (x0 : Vec F S512x1024 .f32) (w : Vec F S1024x1024 .bf16) (b : Vec F S1x1024 .f32) : Vec F S512x1024 .bf16 :=
  View.canon [⟨rX, k0_pay4 (View.ld x0 rX) (View.ld w rW) (View.ld b rB)⟩]

/-- One whole-buffer store covers the buffer. -/
theorem cover0 (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

set_option maxHeartbeats 4000000 in
/-- The body on whole buffers: the seven inputs at what was read, the three results at anything, runs to the inputs
    as they were and each result at its projection. -/
theorem body0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outQ x0 x1 x2) ∗ owns (c : Thread nD τ) arg9 fullShare (outK x0 x3 x4)
            ∗ owns (c : Thread nD τ) arg10 fullShare (outV x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The proof data of the projections' pipeline -/

/-- The arrays as the region finds them; after the body each input's buffer still at its block and each result's at
    its projection of the blocks read; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => outQ (blk0 V c 0 t) (blk0 V c 1 t) (blk0 V c 2 t)
    | ⟨8, _⟩ => outK (blk0 V c 0 t) (blk0 V c 3 t) (blk0 V c 4 t)
    | ⟨9, _⟩ => outV (blk0 V c 0 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = outQ (blk0 V c 0 t) (blk0 V c 1 t) (blk0 V c 2 t) := by dsimp only [dat0]
theorem after0_8 (c : Dev nD) (t : Fin cfg0.N) : (dat0 V c).after 8 t = outK (blk0 V c 0 t) (blk0 V c 3 t) (blk0 V c 4 t) := by dsimp only [dat0]
theorem after0_9 (c : Dev nD) (t : Fin cfg0.N) : (dat0 V c).after 9 t = outV (blk0 V c 0 t) (blk0 V c 5 t) (blk0 V c 6 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: every input buffer holds its block, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body0 c Set.univ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.AttnStepBits.lean ====
/-
  One key tile of the streaming attention body, as pure functions of what the body reads.

  The body keeps, per query row of its 1024-row block, the largest score seen (m, a column [1024,1]), the
  normaliser (l, a column) and the unnormalised output rows (a, [1024,1024]).  Given the query block q, one key
  block k and value block v (512 rows each) and the three kept arrays, it leaves
      m' = max m (row maxima of q·kᵀ),   l' = exp (m - m') * l + row sums of exp (q·kᵀ - m'),
      a' = exp (m - m') * a + exp (q·kᵀ - m') · v,
  starting at the first key tile from m = -∞, l = 0, a = 0, and at the last key tile writes a' / l' as its output
  block.  The functions below name these values by composing the body's own arithmetic terms.
-/
import proofs.«152240_j4922032521509_2_alg».proof.Proof.Gen.Kernel.Skeleton

noncomputable section

namespace Cert.Kernel.Hand

open Cert.Kernel Cert.Kernel.Gen
open Idealize.ShloMosaic

variable {F : FTy → Type} [FloatOps F]

/-- The kept arrays before the first key tile: -∞, 0, 0. -/
def initM : Vec F S1024x1 .f32 := k1_pay4 (F := F)
def initL : Vec F S1024x1 .f32 := k1_pay5 (F := F)
def initA : Vec F S1024x1024 .f32 := k1_pay6 (F := F)

/-- The new running maximum. -/
def stepM (q : Vec F S1x1024x1024 .bf16) (k : Vec F S1x512x1024 .bf16) (m0 : Vec F S1024x1 .f32) : Vec F S1024x1 .f32 :=
  k1_pay2 (k1_pay9 q k m0)

/-- The new normaliser. -/
def stepL (q : Vec F S1x1024x1024 .bf16) (k : Vec F S1x512x1024 .bf16) (m0 l0 : Vec F S1024x1 .f32) : Vec F S1024x1 .f32 :=
  k1_pay12 q k m0 m0 l0

/-- The new unnormalised output rows. -/
def stepA (q : Vec F S1x1024x1024 .bf16) (k v : Vec F S1x512x1024 .bf16) (m0 : Vec F S1024x1 .f32)
    (a0 : Vec F S1024x1024 .f32) : Vec F S1024x1024 .f32 :=
  k1_pay1 (k1_pay7 v) (k1_pay11 q k m0) a0 (k1_pay13 q k m0 m0)

/-- The output block written at the last key tile: the unnormalised rows divided by the normaliser. -/
def outO (a : Vec F S1024x1024 .f32) (l : Vec F S1024x1 .f32) : Vec F S1x1024x1024 .f32 := k1_pay3 a l

end Cert.Kernel.Hand

end
-- ==== Proof.Region1TriplesBits.lean ====
import proofs.«152240_j4922032521509_2_alg».proof.Proof.Gen.Kernel.Launch
import proofs.«152240_j4922032521509_2_alg».proof.Proof.Gen.Kernel.Skeleton
import proofs.«152240_j4922032521509_2_alg».proof.Proof.Gen.Kernel.Points
import proofs.«152240_j4922032521509_2_alg».proof.Proof.AttnStepBits
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 of the program: streaming attention.  The grid is (batch, query tile, key tile) = (4, 2, 4); the key
    tile runs fastest.  At a point the body reads the query block (1024 rows), one key block and one value block
    (512 rows each) and three arrays it keeps between points — the running row maxima, the normalisers and the
    unnormalised output rows.  At the first key tile it first resets the kept arrays to -∞, 0, 0; at every tile it
    replaces them by the tile's update; at the last key tile it also writes the output block, kept rows divided by
    normalisers.  This module runs the body once per control case against those statements. -/

/-- The condition of the first conditional: this is the first key tile. -/
abbrev condFirst (i : grid1.Coords) : Prop := (Scalar.cmpi .ne (Scalar.extui (Scalar.cmpi .eq (BitVec.ofNat 32 (i 2).val) 0#32)) 0#32) = 1#1
/-- The condition of the second conditional: this is the last key tile. -/
abbrev condLast (i : grid1.Coords) : Prop := k1_cond2 i = 1#1

/-- Over the grid: the first key tile is the points ≡ 0 (mod 4), the last the points ≡ 3 (mod 4). -/
theorem hcondFirst : ∀ t : Fin cfg1.N, condFirst (grid1.coords t) ↔ t.val % 4 = 0 :=
  (by decide +kernel : ∀ t : Fin grid1.N, condFirst (grid1.coords t) ↔ t.val % 4 = 0)
theorem hcondLast : ∀ t : Fin cfg1.N, condLast (grid1.coords t) ↔ t.val % 4 = 3 :=
  (by decide +kernel : ∀ t : Fin grid1.N, condLast (grid1.coords t) ↔ t.val % 4 = 3)

theorem hz2 : (![0, 0] : Fin 2 → Nat) = fun _ => 0 := by funext a; fin_cases a <;> rfl
theorem hz3 : (![0, 0, 0] : Fin 3 → Nat) = fun _ => 0 := by funext a; fin_cases a <;> rfl

/-- After stores the last of which fills the whole buffer, the buffer reads that store's value. -/
theorem read_writes_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.Mem.head _, View.mem_set_unit_zero hz inb y⟩)).trans
    (View.canon_cons_unit_zero hz inb w L)

/-- A load of the whole buffer reads its contents. -/
theorem readAt_whole {κ : Kind} {sp : Space} {S : Shape} {e : EltTy} (v : View sig κ sp S e) (f : v.ty.Contents (Elt F))
    {off : Fin S.rank → Nat} (hz : off = fun _ => 0) (inb : ∀ a, off a + S.size a ≤ S.size a) :
    View.readAt (Elt F) v (Rect.unit off S.size inb).toLoadRect f = v.read (Elt F) f :=
  (View.readAt_eq_ld v f _).trans (View.ld_unit_zero hz inb _)

set_option maxHeartbeats 4000000 in
/-- A middle key tile: the kept arrays at (m0, l0, a0) are replaced by the tile's update; the output buffer is not touched. -/
theorem bodyMid (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i)
    (q : Vec F S1x1024x1024 .bf16) (k v : Vec F S1x512x1024 .bf16) (o : Vec F S1x1024x1024 .f32) (m0 l0 : Vec F S1024x1 .f32) (a0 : Vec F S1024x1024 .f32)
    (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare m0 ∗ owns (c : Thread nD τ) arg8 fullShare l0 ∗ owns (c : Thread nD τ) arg9 fullShare a0
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare (stepM q k m0) ∗ owns (c : Thread nD τ) arg8 fullShare (stepL q k m0 l0) ∗ owns (c : Thread nD τ) arg9 fullShare (stepA q k v m0 a0)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3 hf4 hf5 hf6 hf7 hf8 hf9
  sl_exec (disch := first | exact hc0 | exact hc1)
  sl_step
  dsimp only
  sl_unfold_words
  have e3 := readAt_whole (F := F) (S := S1x1024x1024) arg3.view f3 hz3 inb_S1x1024x1024_S1x1024x1024_0_0_0
  have e4 := readAt_whole (F := F) (S := S1x512x1024) arg4.view f4 hz3 inb_S1x512x1024_S1x512x1024_0_0_0
  have e5 := readAt_whole (F := F) (S := S1x512x1024) arg5.view f5 hz3 inb_S1x512x1024_S1x512x1024_0_0_0
  have e7 := readAt_whole (F := F) (S := S1024x1) arg7.view f7 hz2 inb_S1024x1_S1024x1_0_0
  have e8 := readAt_whole (F := F) (S := S1024x1) arg8.view f8 hz2 inb_S1024x1_S1024x1_0_0
  have e9 := readAt_whole (F := F) (S := S1024x1024) arg9.view f9 hz2 inb_S1024x1024_S1024x1024_0_0
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_whole (S := S1024x1) _ _ hz2 _ _ _).trans ?_
    rw [e3, e4, e7]
    rfl
  isplitl [H8]
  · iexists _; isplitr
    swap; · iexact H8
    ipureintro
    refine (read_writes_whole (S := S1024x1) _ _ hz2 _ _ _).trans ?_
    rw [e3, e4, e7, e8]
    rfl
  iexists _; isplitr
  swap; · iexact H9
  ipureintro
  refine (read_writes_whole (S := S1024x1024) _ _ hz2 _ _ _).trans ?_
  rw [e3, e4, e5, e7, e9]
  rfl

set_option maxHeartbeats 4000000 in
/-- The first key tile: whatever the kept arrays held, they are reset to (-∞, 0, 0) and then replaced by the tile's
    update of those; the output buffer is not touched. -/
theorem bodyFirst (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i)
    (q : Vec F S1x1024x1024 .bf16) (k v : Vec F S1x512x1024 .bf16) (o : Vec F S1x1024x1024 .f32)
    (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare (stepM q k initM) ∗ owns (c : Thread nD τ) arg8 fullShare (stepL q k initM initL) ∗ owns (c : Thread nD τ) arg9 fullShare (stepA q k v initM initA)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3 hf4 hf5 hf6
  sl_exec (disch := first | exact hc0 | exact hc1)
  sl_step
  dsimp only
  sl_unfold_words
  have e3 := readAt_whole (F := F) (S := S1x1024x1024) arg3.view f3 hz3 inb_S1x1024x1024_S1x1024x1024_0_0_0
  have e4 := readAt_whole (F := F) (S := S1x512x1024) arg4.view f4 hz3 inb_S1x512x1024_S1x512x1024_0_0_0
  have e5 := readAt_whole (F := F) (S := S1x512x1024) arg5.view f5 hz3 inb_S1x512x1024_S1x512x1024_0_0_0
  have c7 := View.readCov_unit_zero (Val := Elt F) (S := S1024x1) arg7.view hz2 inb_S1024x1_S1024x1_0_0 (k1_pay4 (F := F))
  have c8 := View.readCov_unit_zero (Val := Elt F) (S := S1024x1) arg8.view hz2 inb_S1024x1_S1024x1_0_0 (k1_pay5 (F := F))
  have c9 := View.readCov_unit_zero (Val := Elt F) (S := S1024x1024) arg9.view hz2 inb_S1024x1024_S1024x1024_0_0 (k1_pay6 (F := F))
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_whole (S := S1024x1) _ _ hz2 _ _ _).trans ?_
    rw [e3, e4, c7]
    rfl
  isplitl [H8]
  · iexists _; isplitr
    swap; · iexact H8
    ipureintro
    refine (read_writes_whole (S := S1024x1) _ _ hz2 _ _ _).trans ?_
    rw [e3, e4, c7, c8]
    rfl
  iexists _; isplitr
  swap; · iexact H9
  ipureintro
  refine (read_writes_whole (S := S1024x1024) _ _ hz2 _ _ _).trans ?_
  rw [e3, e4, e5, c7, c9]
  rfl

set_option maxHeartbeats 4000000 in
/-- The last key tile: the kept arrays at (m0, l0, a0) are replaced by the tile's update, and the output buffer,
    whatever it held, is filled with the new rows divided by the new normalisers. -/
theorem bodyLast (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i)
    (q : Vec F S1x1024x1024 .bf16) (k v : Vec F S1x512x1024 .bf16) (m0 l0 : Vec F S1024x1 .f32) (a0 : Vec F S1024x1024 .f32)
    (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d) ∗ owns (c : Thread nD τ) arg7 fullShare m0 ∗ owns (c : Thread nD τ) arg8 fullShare l0 ∗ owns (c : Thread nD τ) arg9 fullShare a0
        ∗ (iprop(owns (c : Thread nD τ) arg3 fullShare q ∗ owns (c : Thread nD τ) arg4 fullShare k ∗ owns (c : Thread nD τ) arg5 fullShare v ∗ owns (c : Thread nD τ) arg6 fullShare (outO (stepA q k v m0 a0) (stepL q k m0 l0)) ∗ owns (c : Thread nD τ) arg7 fullShare (stepM q k m0) ∗ owns (c : Thread nD τ) arg8 fullShare (stepL q k m0 l0) ∗ owns (c : Thread nD τ) arg9 fullShare (stepA q k v m0 a0)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1)
  sl_step
  dsimp only
  sl_unfold_words
  have e3 := readAt_whole (F := F) (S := S1x1024x1024) arg3.view f3 hz3 inb_S1x1024x1024_S1x1024x1024_0_0_0
  have e4 := readAt_whole (F := F) (S := S1x512x1024) arg4.view f4 hz3 inb_S1x512x1024_S1x512x1024_0_0_0
  have e5 := readAt_whole (F := F) (S := S1x512x1024) arg5.view f5 hz3 inb_S1x512x1024_S1x512x1024_0_0_0
  have e7 := readAt_whole (F := F) (S := S1024x1) arg7.view f7 hz2 inb_S1024x1_S1024x1_0_0
  have e8 := readAt_whole (F := F) (S := S1024x1) arg8.view f8 hz2 inb_S1024x1_S1024x1_0_0
  have e9 := readAt_whole (F := F) (S := S1024x1024) arg9.view f9 hz2 inb_S1024x1024_S1024x1024_0_0
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_whole (S := S1x1024x1024) _ _ hz3 _ _ _).trans ?_
    rw [View.readCov_unit_zero (Val := Elt F) (S := S1024x1024) arg9.view hz2 inb_S1024x1024_S1024x1024_0_0,
      View.readCov_unit_zero (Val := Elt F) (S := S1024x1) arg8.view hz2 inb_S1024x1_S1024x1_0_0, e3, e4, e5, e7, e8, e9]
    rfl
  isplitl [H7]
  · iexists _; isplitr
    swap; · iexact H7
    ipureintro
    refine (read_writes_whole (S := S1024x1) _ _ hz2 _ _ _).trans ?_
    rw [e3, e4, e7]
    rfl
  isplitl [H8]
  · iexists _; isplitr
    swap; · iexact H8
    ipureintro
    refine (read_writes_whole (S := S1024x1) _ _ hz2 _ _ _).trans ?_
    rw [e3, e4, e7, e8]
    rfl
  iexists _; isplitr
  swap; · iexact H9
  ipureintro
  refine (read_writes_whole (S := S1024x1024) _ _ hz2 _ _ _).trans ?_
  rw [e3, e4, e5, e7, e9]
  rfl

end Cert.Kernel.Hand

end
-- ==== Proof.Region1Bits.lean ====
import proofs.«152240_j4922032521509_2_alg».proof.Proof.Gen.Kernel.Launch
import proofs.«152240_j4922032521509_2_alg».proof.Proof.Gen.Kernel.Skeleton
import proofs.«152240_j4922032521509_2_alg».proof.Proof.Gen.Kernel.Points
import proofs.«152240_j4922032521509_2_alg».proof.Proof.Region1TriplesBits
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1's proof data.  What the three kept arrays hold after each grid point is defined by recursion on the
    point: at a first key tile the update of (-∞, 0, 0), elsewhere the update of what the point before left.  The
    region's invariant carries the kept arrays at exactly those contents from one point to the next (and, beside them,
    the other scoped buffers and the generator register, untouched).  The output window is written only at the last
    key tile of each (batch, query tile); at the other points its buffer is handed back as found. -/

variable (V : (c : Dev nD) → (b : Ref sig .tc) → Buf (Elt F) ((c : Thread nD τ).loc b))

/-- The block of window w at grid point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! Facts decided over the grid. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem liveAt1_3 : ∀ t : Fin cfg1.N, condLast (grid1.coords t) → cfg1.idle 3 (grid1.coords t) = false := by decide +kernel

/-- The three kept arrays as whole scoped buffers. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

/-- What the kept arrays (maxima, normalisers, rows) hold after the body at position n. -/
def keptAt (c : Dev nD) : (n : ℕ) → n < cfg1.N → Vec F S1024x1 .f32 × Vec F S1024x1 .f32 × Vec F S1024x1024 .f32
  | 0, hn => (stepM (blk1 V c 0 ⟨0, hn⟩) (blk1 V c 1 ⟨0, hn⟩) initM, stepL (blk1 V c 0 ⟨0, hn⟩) (blk1 V c 1 ⟨0, hn⟩) initM initL, stepA (blk1 V c 0 ⟨0, hn⟩) (blk1 V c 1 ⟨0, hn⟩) (blk1 V c 2 ⟨0, hn⟩) initM initA)
  | n + 1, hn =>
    if (n + 1) % 4 = 0 then (stepM (blk1 V c 0 ⟨n + 1, hn⟩) (blk1 V c 1 ⟨n + 1, hn⟩) initM, stepL (blk1 V c 0 ⟨n + 1, hn⟩) (blk1 V c 1 ⟨n + 1, hn⟩) initM initL, stepA (blk1 V c 0 ⟨n + 1, hn⟩) (blk1 V c 1 ⟨n + 1, hn⟩) (blk1 V c 2 ⟨n + 1, hn⟩) initM initA)
    else (stepM (blk1 V c 0 ⟨n + 1, hn⟩) (blk1 V c 1 ⟨n + 1, hn⟩) (keptAt c n (Nat.lt_of_succ_lt hn)).1, stepL (blk1 V c 0 ⟨n + 1, hn⟩) (blk1 V c 1 ⟨n + 1, hn⟩) (keptAt c n (Nat.lt_of_succ_lt hn)).1 (keptAt c n (Nat.lt_of_succ_lt hn)).2.1, stepA (blk1 V c 0 ⟨n + 1, hn⟩) (blk1 V c 1 ⟨n + 1, hn⟩) (blk1 V c 2 ⟨n + 1, hn⟩) (keptAt c n (Nat.lt_of_succ_lt hn)).1 (keptAt c n (Nat.lt_of_succ_lt hn)).2.2)

theorem keptAt_first (c : Dev nD) (t : Fin cfg1.N) (h : t.val % 4 = 0) :
    keptAt V c t.val t.isLt = (stepM (blk1 V c 0 t) (blk1 V c 1 t) initM, stepL (blk1 V c 0 t) (blk1 V c 1 t) initM initL, stepA (blk1 V c 0 t) (blk1 V c 1 t) (blk1 V c 2 t) initM initA) := by
  obtain ⟨n, hn⟩ := t
  cases n with
  | zero => rfl
  | succ n => exact (if_pos h).trans rfl

theorem keptAt_next (c : Dev nD) (t : Fin cfg1.N) (h : ¬t.val % 4 = 0) :
    keptAt V c t.val t.isLt = (stepM (blk1 V c 0 t) (blk1 V c 1 t) (keptAt V c (t.val - 1) (Nat.lt_of_le_of_lt (Nat.sub_le _ _) t.isLt)).1, stepL (blk1 V c 0 t) (blk1 V c 1 t) (keptAt V c (t.val - 1) (Nat.lt_of_le_of_lt (Nat.sub_le _ _) t.isLt)).1 (keptAt V c (t.val - 1) (Nat.lt_of_le_of_lt (Nat.sub_le _ _) t.isLt)).2.1, stepA (blk1 V c 0 t) (blk1 V c 1 t) (blk1 V c 2 t) (keptAt V c (t.val - 1) (Nat.lt_of_le_of_lt (Nat.sub_le _ _) t.isLt)).1 (keptAt V c (t.val - 1) (Nat.lt_of_le_of_lt (Nat.sub_le _ _) t.isLt)).2.2) := by
  obtain ⟨n, hn⟩ := t
  cases n with
  | zero => exact absurd (Nat.zero_mod _) h
  | succ n => exact (if_neg h).trans rfl

/-- The other scoped buffers of the core (the first region's staging buffers), each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant of this pipeline, spelt out: those buffers, the three kept arrays at anything, the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The weak form of the invariant: the kept arrays at anything. -/
def PhiW (c : Dev nD) : sProp 𝕄 :=
  iprop(other1 c ∗ (∃ d, owns (c : Thread nD τ) scM fullShare d) ∗ (∃ d, owns (c : Thread nD τ) scL fullShare d)
    ∗ (∃ d, owns (c : Thread nD τ) scA fullShare d) ∗ (∃ r, prngReg c r))

theorem PhiA1_split (c : Dev nD) : (Pipeline.ΦA spec1 c : sProp 𝕄) ⊢ PhiW c := by
  rw [PhiA1_eq]; unfold PhiW other1
  iintro ⟨⟨A0, A1, A2, A3, A4, A5, A6, A7, A8, A9, A10, A11, A12, A13, S0, S1, S2⟩, Hg⟩
  isplitl [A0 A1 A2 A3 A4 A5 A6 A7 A8 A9 A10 A11 A12 A13]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [S0]; · iexact S0
  isplitl [S1]; · iexact S1
  isplitl [S2]; · iexact S2
  iexact Hg

theorem PhiA1_join (c : Dev nD) : PhiW c ⊢ (Pipeline.ΦA spec1 c : sProp 𝕄) := by
  rw [PhiA1_eq]; unfold PhiW other1
  iintro ⟨⟨A0, A1, A2, A3, A4, A5, A6, A7, A8, A9, A10, A11, A12, A13⟩, S0, S1, S2, Hg⟩
  isplitl [A0 A1 A2 A3 A4 A5 A6 A7 A8 A9 A10 A11 A12 A13 S0 S1 S2]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [S0]; · iexact S0
    isplitl [S1]; · iexact S1
    iexact S2
  iexact Hg

/-- The region invariant before position n: before the first point the class's; afterwards the kept arrays at what the
    point before left. -/
def PhiS (c : Dev nD) : (n : ℕ) → n ≤ cfg1.N → sProp 𝕄
  | 0, _ => Pipeline.ΦA spec1 c
  | n + 1, hn => iprop(other1 c ∗ owns (c : Thread nD τ) scM fullShare (keptAt V c n hn).1
      ∗ owns (c : Thread nD τ) scL fullShare (keptAt V c n hn).2.1 ∗ owns (c : Thread nD τ) scA fullShare (keptAt V c n hn).2.2
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(other1 c ∗ owns (c : Thread nD τ) scM fullShare (keptAt V c n hn).1
      ∗ owns (c : Thread nD τ) scL fullShare (keptAt V c n hn).2.1 ∗ owns (c : Thread nD τ) scA fullShare (keptAt V c n hn).2.2
      ∗ (∃ r, prngReg c r)) := rfl

theorem PhiS_pos (c : Dev nD) (n : ℕ) (h : n ≤ cfg1.N) (hz : n ≠ 0) :
    PhiS V c n h = iprop(other1 c ∗ owns (c : Thread nD τ) scM fullShare (keptAt V c (n - 1) (by omega)).1
      ∗ owns (c : Thread nD τ) scL fullShare (keptAt V c (n - 1) (by omega)).2.1 ∗ owns (c : Thread nD τ) scA fullShare (keptAt V c (n - 1) (by omega)).2.2
      ∗ (∃ r, prngReg c r)) := by
  cases n with
  | zero => exact absurd rfl hz
  | succ n => rfl

/-- At any position the invariant yields its weak form. -/
theorem PhiS_weak (c : Dev nD) (n : ℕ) (h : n ≤ cfg1.N) : PhiS V c n h ⊢ PhiW c := by
  cases n with
  | zero => exact PhiA1_split c
  | succ n =>
    rw [PhiS_succ]; unfold PhiW
    iintro ⟨Ho, S0, S1, S2, Hg⟩
    isplitl [Ho]; · iexact Ho
    isplitl [S0]; · iexists _; iexact S0
    isplitl [S1]; · iexists _; iexact S1
    isplitl [S2]; · iexists _; iexact S2
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outO (keptAt V c t.val t.isLt).2.2 (keptAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = outO (keptAt V c t.val t.isLt).2.2 (keptAt V c t.val t.isLt).2.1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have h1 : ¬t.val % 4 = 3 := by omega
    have hc0 : condFirst (grid1.coords t) := (hcondFirst t).mpr h0
    have hc1 : ¬condLast (grid1.coords t) := fun h => h1 ((hcondLast t).mp h)
    rw [Dat.leavesExact_idle (dat1 V c) 3 t (idleAt1_3 t hc1) (noFlush1_3 t hc1)]
    rw [keptAt_first V c t h0]; dsimp only
    have hΦ := PhiS_weak V c t.val (Nat.le_of_lt t.isLt)
    rw [PhiS_castSucc V c t]
    unfold PhiW at hΦ
    iintro ⟨HΦ, Ho, ⟨%d0, H0⟩, ⟨%d1, H1⟩, ⟨%d2, H2⟩, ⟨%d3, H3⟩⟩
    ihave HΦ' := hΦ $$ HΦ
    icases HΦ' with ⟨Hoth, HS0, HS1, HS2, Hg⟩
    iapply (bodyFirst c Set.univ (grid1.coords t) _ _ _ _ _ _ _ _ _ _ _ _ _ _ hc0 hc1 (blk1 V c 0 t) (blk1 V c 1 t) (blk1 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬condFirst (grid1.coords t) := fun h => h0 ((hcondFirst t).mp h)
    rw [PhiS_castSucc V c t, PhiS_pos V c _ _ hz]
    rw [keptAt_next V c t h0]; dsimp only
    by_cases h1 : t.val % 4 = 3
    · have hc1 : condLast (grid1.coords t) := (hcondLast t).mpr h1
      rw [show (dat1 V c).leavesExact 3 t = owns (c : Thread nD τ) (st1_3 t) fullShare ((dat1 V c).after 3 t) from by
        unfold Dat.leavesExact; rw [liveAt1_3 t hc1], after1_3, keptAt_next V c t h0]
      dsimp only
      iintro ⟨⟨Hoth, HS0, HS1, HS2, Hg⟩, Ho, ⟨%d0, H0⟩, ⟨%d1, H1⟩, ⟨%d2, H2⟩, ⟨%d3, H3⟩⟩
      iapply (bodyLast c Set.univ (grid1.coords t) _ _ _ _ _ _ _ _ _ _ _ _ _ _ hc0 hc1 (blk1 V c 0 t) (blk1 V c 1 t) (blk1 V c 2 t) _ _ _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth]; · iexact Hoth
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexact H3
    · have hc1 : ¬condLast (grid1.coords t) := fun h => h1 ((hcondLast t).mp h)
      rw [Dat.leavesExact_idle (dat1 V c) 3 t (idleAt1_3 t hc1) (noFlush1_3 t hc1)]
      iintro ⟨⟨Hoth, HS0, HS1, HS2, Hg⟩, Ho, ⟨%d0, H0⟩, ⟨%d1, H1⟩, ⟨%d2, H2⟩, ⟨%d3, H3⟩⟩
      iapply (bodyMid c Set.univ (grid1.coords t) _ _ _ _ _ _ _ _ _ _ _ _ _ _ hc0 hc1 (blk1 V c 0 t) (blk1 V c 1 t) (blk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth]; · iexact Hoth
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the kept arrays' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_weak V c _ _).trans (PhiA1_join c)

end Cert.Kernel.Hand

end
-- ==== Proof.RunBits.lean ====
import proofs.«152240_j4922032521509_2_alg».proof.Proof.Gen.Kernel.Launch
import proofs.«152240_j4922032521509_2_alg».proof.Proof.Gen.Kernel.Skeleton
import proofs.«152240_j4922032521509_2_alg».proof.Proof.Gen.Kernel.Points
import proofs.«152240_j4922032521509_2_alg».proof.Proof.Gen.Kernel.Regions
import proofs.«152240_j4922032521509_2_alg».proof.Proof.Region0Bits
import proofs.«152240_j4922032521509_2_alg».proof.Proof.Region1Bits
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run.  @main is: the host operations that flatten the input and fold the scale into the query weights and
    bias, the projection region, the host operations that give its three results back their batch axis, the attention
    region.  The contents of every unscoped buffer at each boundary are a fold from the launch memory: a host stretch
    applies its operations; a region leaves its input arrays as entered and each result array at what its blocks'
    write-backs add up to.  Every weakly fair execution terminates; at the end the arguments are as launched and the
    last region's result array holds what the attention region's proof data say. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! No host operation writes an argument and no window stages one: the fold at an argument walks back to the launch. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: its invariant is entered from the class's and returned to it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- The run: termination without fault, the result array at the attention region's final contents, the arguments as launched. -/
theorem run : θ_run defs (onTc (τ := τ) (main (F := F))) ⟨m, fun _ => 0, ρ⟩ (fun r => ∀ c : Dev nD,
      r.2.mem ((c.tc : Thread nD τ).loc main_v15) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v15 (by decide))).trans (W4_arr m ρ c 3),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.Kernel.Hand

end
-- ==== Proof.Region0Ideal.lean ====
/-
  Region 0 of the program: the three projections.  At grid point t the body reads rows 512·t … 512·t+511 of the
  flattened input (window 0) and the whole of each weight matrix and bias row (windows 1–6, the same block at
  every point), and writes the same 512 rows of the three results (windows 7–9): for each of them the product of
  the row block with the weight matrix, plus the bias row repeated down the block.  Nothing is carried from one
  point to the next.  This module states what each result buffer holds after the body as a function of the seven
  blocks read, runs the body once against that statement, and packages it as the pipeline's proof data at any
  contents V of the arrays at the region's entry.
-/
import proofs.«152240_j4922032521509_2_alg».proof.Proof.Gen.KernelIdeal.Launch
import proofs.«152240_j4922032521509_2_alg».proof.Proof.Gen.KernelIdeal.Skeleton
import proofs.«152240_j4922032521509_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window w at grid point t, read off the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input's buffer holds its block at every point, whether the block was fetched there or was already in place
    (the weights and biases are fetched once: their block index never moves). -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = blk0 V c 6 t) (t : Fin cfg0.N) (d) : dat.before 6 t d = blk0 V c 6 t :=
  (dat.before_in_eq_fetched 6 rfl (fun _ => rfl) (fun _ _ _ => rfl) (fun t => by rw [hafter]; unfold Dat.blockOf blk0; rw [hA]; try rfl) t d).trans
    (by unfold Dat.fetched Dat.blockOf blk0; rw [hA]; try rfl)

/-- The whole-buffer rectangles the body reads and writes through. -/
abbrev rX : Rect S512x1024 := Rect.unit (s := S512x1024) ![0, 0] S512x1024.size inb_S512x1024_S512x1024_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- What the three result buffers hold after the body: each one whole-buffer store of its projection of the blocks read. -/
def outQ (x0 : Vec F S512x1024 .f32) (w : Vec F S1024x1024 .bf16) (b : Vec F S1x1024 .f32) : Vec F S512x1024 .bf16 :=
  View.canon [⟨rX, k0_pay2 (View.ld x0 rX) (View.ld w rW) (View.ld b rB)⟩]
def outK (x0 : Vec F S512x1024 .f32) (w : Vec F S1024x1024 .bf16) (b : Vec F S1x1024 .f32) : Vec F S512x1024 .bf16 :=
  View.canon [⟨rX, k0_pay3 (View.ld x0 rX) (View.ld w rW) (View.ld b rB)⟩]
def outV (x0 : Vec F S512x1024 .f32) (w : Vec F S1024x1024 .bf16) (b : Vec F S1x1024 .f32) : Vec F S512x1024 .bf16 :=
  View.canon [⟨rX, k0_pay4 (View.ld x0 rX) (View.ld w rW) (View.ld b rB)⟩]

/-- One whole-buffer store covers the buffer. -/
theorem cover0 (p : Vec F S512x1024 .bf16) (y : S512x1024.Idx) :
    ∃ pc ∈ ([⟨rX, p⟩] : List (View.Piece (Elt F) S512x1024 .bf16)), y ∈ pc.1.set :=
  View.cover_of_tiled [⟨rX, p⟩] S512x1024.size (by rfl) y

set_option maxHeartbeats 4000000 in
/-- The body on whole buffers: the seven inputs at what was read, the three results at anything, runs to the inputs
    as they were and each result at its projection. -/
theorem body0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (outQ x0 x1 x2) ∗ owns (c : Thread nD τ) arg9 fullShare (outK x0 x3 x4)
            ∗ owns (c : Thread nD τ) arg10 fullShare (outV x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The proof data of the projections' pipeline -/

/-- The arrays as the region finds them; after the body each input's buffer still at its block and each result's at
    its projection of the blocks read; the invariant is the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => outQ (blk0 V c 0 t) (blk0 V c 1 t) (blk0 V c 2 t)
    | ⟨8, _⟩ => outK (blk0 V c 0 t) (blk0 V c 3 t) (blk0 V c 4 t)
    | ⟨9, _⟩ => outV (blk0 V c 0 t) (blk0 V c 5 t) (blk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = blk0 V c 6 t := by dsimp only [dat0]
theorem after0_7 (c : Dev nD) (t : Fin cfg0.N) : (dat0 V c).after 7 t = outQ (blk0 V c 0 t) (blk0 V c 1 t) (blk0 V c 2 t) := by dsimp only [dat0]
theorem after0_8 (c : Dev nD) (t : Fin cfg0.N) : (dat0 V c).after 8 t = outK (blk0 V c 0 t) (blk0 V c 3 t) (blk0 V c 4 t) := by dsimp only [dat0]
theorem after0_9 (c : Dev nD) (t : Fin cfg0.N) : (dat0 V c).after 9 t = outV (blk0 V c 0 t) (blk0 V c 5 t) (blk0 V c 6 t) := by dsimp only [dat0]

theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d
theorem before0_6 (c : Dev nD) (t : Fin cfg0.N) (d) : (dat0 V c).before 6 t d = blk0 V c 6 t :=
  before0_6_of V (dat0 V c) (A_eq0 V c 6) (after0_6 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: every input buffer holds its block, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body0 c Set.univ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.AttnStepIdeal.lean ====
/-
  One key tile of the streaming attention body, as pure functions of what the body reads.

  The body keeps, per query row of its 1024-row block, the largest score seen (m, a column [1024,1]), the
  normaliser (l, a column) and the unnormalised output rows (a, [1024,1024]).  Given the query block q, one key
  block k and value block v (512 rows each) and the three kept arrays, it leaves
      m' = max m (row maxima of q·kᵀ),   l' = exp (m - m') * l + row sums of exp (q·kᵀ - m'),
      a' = exp (m - m') * a + exp (q·kᵀ - m') · v,
  starting at the first key tile from m = -∞, l = 0, a = 0, and at the last key tile writes a' / l' as its output
  block.  The functions below name these values by composing the body's own arithmetic terms.
-/
import proofs.«152240_j4922032521509_2_alg».proof.Proof.Gen.KernelIdeal.Skeleton

noncomputable section

namespace Cert.KernelIdeal.Hand

open Cert.KernelIdeal Cert.KernelIdeal.Gen
open Idealize.ShloMosaic

variable {F : FTy → Type} [FloatOps F]

/-- The kept arrays before the first key tile: -∞, 0, 0. -/
def initM : Vec F S1024x1 .f32 := k1_pay4 (F := F)
def initL : Vec F S1024x1 .f32 := k1_pay5 (F := F)
def initA : Vec F S1024x1024 .f32 := k1_pay6 (F := F)

/-- The new running maximum. -/
def stepM (q : Vec F S1x1024x1024 .bf16) (k : Vec F S1x512x1024 .bf16) (m0 : Vec F S1024x1 .f32) : Vec F S1024x1 .f32 :=
  k1_pay2 (k1_pay9 q k m0)

/-- The new normaliser. -/
def stepL (q : Vec F S1x1024x1024 .bf16) (k : Vec F S1x512x1024 .bf16) (m0 l0 : Vec F S1024x1 .f32) : Vec F S1024x1 .f32 :=
  k1_pay12 q k m0 m0 l0

/-- The new unnormalised output rows. -/
def stepA (q : Vec F S1x1024x1024 .bf16) (k v : Vec F S1x512x1024 .bf16) (m0 : Vec F S1024x1 .f32)
    (a0 : Vec F S1024x1024 .f32) : Vec F S1024x1024 .f32 :=
  k1_pay1 (k1_pay7 v) (k1_pay11 q k m0) a0 (k1_pay13 q k m0 m0)

/-- The output block written at the last key tile: the unnormalised rows divided by the normaliser. -/
def outO (a : Vec F S1024x1024 .f32) (l : Vec F S1024x1 .f32) : Vec F S1x1024x1024 .f32 := k1_pay3 a l

end Cert.KernelIdeal.Hand

end
-- ==== Proof.Region1TriplesIdeal.lean ====
import proofs.«152240_j4922032521509_2_alg».proof.Proof.Gen.KernelIdeal.Launch
import proofs.«152240_j4922032521509_2_alg».proof.Proof.Gen.KernelIdeal.Skeleton
import proofs.«152240_j4922032521509_2_alg».proof.Proof.Gen.KernelIdeal.Points
import proofs.«152240_j4922032521509_2_alg».proof.Proof.AttnStepIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1 of the program: streaming attention.  The grid is (batch, query tile, key tile) = (4, 2, 4); the key
    tile runs fastest.  At a point the body reads the query block (1024 rows), one key block and one value block
    (512 rows each) and three arrays it keeps between points — the running row maxima, the normalisers and the
    unnormalised output rows.  At the first key tile it first resets the kept arrays to -∞, 0, 0; at every tile it
    replaces them by the tile's update; at the last key tile it also writes the output block, kept rows divided by
    normalisers.  This module runs the body once per control case against those statements. -/

/-- The condition of the first conditional: this is the first key tile. -/
abbrev condFirst (i : grid1.Coords) : Prop := (Scalar.cmpi .ne (Scalar.extui (Scalar.cmpi .eq (BitVec.ofNat 32 (i 2).val) 0#32)) 0#32) = 1#1
/-- The condition of the second conditional: this is the last key tile. -/
abbrev condLast (i : grid1.Coords) : Prop := k1_cond2 i = 1#1

/-- Over the grid: the first key tile is the points ≡ 0 (mod 4), the last the points ≡ 3 (mod 4). -/
theorem hcondFirst : ∀ t : Fin cfg1.N, condFirst (grid1.coords t) ↔ t.val % 4 = 0 :=
  (by decide +kernel : ∀ t : Fin grid1.N, condFirst (grid1.coords t) ↔ t.val % 4 = 0)
theorem hcondLast : ∀ t : Fin cfg1.N, condLast (grid1.coords t) ↔ t.val % 4 = 3 :=
  (by decide +kernel : ∀ t : Fin grid1.N, condLast (grid1.coords t) ↔ t.val % 4 = 3)

theorem hz2 : (![0, 0] : Fin 2 → Nat) = fun _ => 0 := by funext a; fin_cases a <;> rfl
theorem hz3 : (![0, 0, 0] : Fin 3 → Nat) = fun _ => 0 := by funext a; fin_cases a <;> rfl

/-- After stores the last of which fills the whole buffer, the buffer reads that store's value. -/
theorem read_writes_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.Mem.head _, View.mem_set_unit_zero hz inb y⟩)).trans
    (View.canon_cons_unit_zero hz inb w L)

/-- A load of the whole buffer reads its contents. -/
theorem readAt_whole {κ : Kind} {sp : Space} {S : Shape} {e : EltTy} (v : View sig κ sp S e) (f : v.ty.Contents (Elt F))
    {off : Fin S.rank → Nat} (hz : off = fun _ => 0) (inb : ∀ a, off a + S.size a ≤ S.size a) :
    View.readAt (Elt F) v (Rect.unit off S.size inb).toLoadRect f = v.read (Elt F) f :=
  (View.readAt_eq_ld v f _).trans (View.ld_unit_zero hz inb _)

set_option maxHeartbeats 4000000 in
/-- A middle key tile: the kept arrays at (m0, l0, a0) are replaced by the tile's update; the output buffer is not touched. -/
theorem bodyMid (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : ¬condLast i)
    (q : Vec F S1x1024x1024 .bf16) (k v : Vec F S1x512x1024 .bf16) (o : Vec F S1x1024x1024 .f32) (m0 l0 : Vec F S1024x1 .f32) (a0 : Vec F S1024x1024 .f32)
    (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare m0 ∗ owns (c : Thread nD τ) arg8 fullShare l0 ∗ owns (c : Thread nD τ) arg9 fullShare a0
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare (stepM q k m0) ∗ owns (c : Thread nD τ) arg8 fullShare (stepL q k m0 l0) ∗ owns (c : Thread nD τ) arg9 fullShare (stepA q k v m0 a0)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf3 hf4 hf5 hf6 hf7 hf8 hf9
  sl_exec (disch := first | exact hc0 | exact hc1)
  sl_step
  dsimp only
  sl_unfold_words
  have e3 := readAt_whole (F := F) (S := S1x1024x1024) arg3.view f3 hz3 inb_S1x1024x1024_S1x1024x1024_0_0_0
  have e4 := readAt_whole (F := F) (S := S1x512x1024) arg4.view f4 hz3 inb_S1x512x1024_S1x512x1024_0_0_0
  have e5 := readAt_whole (F := F) (S := S1x512x1024) arg5.view f5 hz3 inb_S1x512x1024_S1x512x1024_0_0_0
  have e7 := readAt_whole (F := F) (S := S1024x1) arg7.view f7 hz2 inb_S1024x1_S1024x1_0_0
  have e8 := readAt_whole (F := F) (S := S1024x1) arg8.view f8 hz2 inb_S1024x1_S1024x1_0_0
  have e9 := readAt_whole (F := F) (S := S1024x1024) arg9.view f9 hz2 inb_S1024x1024_S1024x1024_0_0
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_whole (S := S1024x1) _ _ hz2 _ _ _).trans ?_
    rw [e3, e4, e7]
    rfl
  isplitl [H8]
  · iexists _; isplitr
    swap; · iexact H8
    ipureintro
    refine (read_writes_whole (S := S1024x1) _ _ hz2 _ _ _).trans ?_
    rw [e3, e4, e7, e8]
    rfl
  iexists _; isplitr
  swap; · iexact H9
  ipureintro
  refine (read_writes_whole (S := S1024x1024) _ _ hz2 _ _ _).trans ?_
  rw [e3, e4, e5, e7, e9]
  rfl

set_option maxHeartbeats 4000000 in
/-- The first key tile: whatever the kept arrays held, they are reset to (-∞, 0, 0) and then replaced by the tile's
    update of those; the output buffer is not touched. -/
theorem bodyFirst (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : condFirst i) (hc1 : ¬condLast i)
    (q : Vec F S1x1024x1024 .bf16) (k v : Vec F S1x512x1024 .bf16) (o : Vec F S1x1024x1024 .f32)
    (K : PUnit → sProp 𝕄) :
    iprop(owns (c : Thread nD τ) arg3 fullShare q ∗ owns (c : Thread nD τ) arg4 fullShare k ∗ owns (c : Thread nD τ) arg5 fullShare v ∗ owns (c : Thread nD τ) arg6 fullShare o ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare o ∗ owns (c : Thread nD τ) arg7 fullShare (stepM q k initM) ∗ owns (c : Thread nD τ) arg8 fullShare (stepL q k initM initL) ∗ owns (c : Thread nD τ) arg9 fullShare (stepA q k v initM initA)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3 hf4 hf5 hf6
  sl_exec (disch := first | exact hc0 | exact hc1)
  sl_step
  dsimp only
  sl_unfold_words
  have e3 := readAt_whole (F := F) (S := S1x1024x1024) arg3.view f3 hz3 inb_S1x1024x1024_S1x1024x1024_0_0_0
  have e4 := readAt_whole (F := F) (S := S1x512x1024) arg4.view f4 hz3 inb_S1x512x1024_S1x512x1024_0_0_0
  have e5 := readAt_whole (F := F) (S := S1x512x1024) arg5.view f5 hz3 inb_S1x512x1024_S1x512x1024_0_0_0
  have c7 := View.readCov_unit_zero (Val := Elt F) (S := S1024x1) arg7.view hz2 inb_S1024x1_S1024x1_0_0 (k1_pay4 (F := F))
  have c8 := View.readCov_unit_zero (Val := Elt F) (S := S1024x1) arg8.view hz2 inb_S1024x1_S1024x1_0_0 (k1_pay5 (F := F))
  have c9 := View.readCov_unit_zero (Val := Elt F) (S := S1024x1024) arg9.view hz2 inb_S1024x1024_S1024x1024_0_0 (k1_pay6 (F := F))
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_whole (S := S1024x1) _ _ hz2 _ _ _).trans ?_
    rw [e3, e4, c7]
    rfl
  isplitl [H8]
  · iexists _; isplitr
    swap; · iexact H8
    ipureintro
    refine (read_writes_whole (S := S1024x1) _ _ hz2 _ _ _).trans ?_
    rw [e3, e4, c7, c8]
    rfl
  iexists _; isplitr
  swap; · iexact H9
  ipureintro
  refine (read_writes_whole (S := S1024x1024) _ _ hz2 _ _ _).trans ?_
  rw [e3, e4, e5, c7, c9]
  rfl

set_option maxHeartbeats 4000000 in
/-- The last key tile: the kept arrays at (m0, l0, a0) are replaced by the tile's update, and the output buffer,
    whatever it held, is filled with the new rows divided by the new normalisers. -/
theorem bodyLast (c : Dev nD) (E : Set ℕ) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬condFirst i) (hc1 : condLast i)
    (q : Vec F S1x1024x1024 .bf16) (k v : Vec F S1x512x1024 .bf16) (m0 l0 : Vec F S1024x1 .f32) (a0 : Vec F S1024x1024 .f32)
    (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d) ∗ owns (c : Thread nD τ) arg7 fullShare m0 ∗ owns (c : Thread nD τ) arg8 fullShare l0 ∗ owns (c : Thread nD τ) arg9 fullShare a0
        ∗ (iprop(owns (c : Thread nD τ) arg3 fullShare q ∗ owns (c : Thread nD τ) arg4 fullShare k ∗ owns (c : Thread nD τ) arg5 fullShare v ∗ owns (c : Thread nD τ) arg6 fullShare (outO (stepA q k v m0 a0) (stepL q k m0 l0)) ∗ owns (c : Thread nD τ) arg7 fullShare (stepM q k m0) ∗ owns (c : Thread nD τ) arg8 fullShare (stepL q k m0 l0) ∗ owns (c : Thread nD τ) arg9 fullShare (stepA q k v m0 a0)) -∗ K ⟨⟩))
      ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  subst hf3 hf4 hf5 hf7 hf8 hf9
  sl_exec (disch := first | exact hc0 | exact hc1)
  sl_step
  dsimp only
  sl_unfold_words
  have e3 := readAt_whole (F := F) (S := S1x1024x1024) arg3.view f3 hz3 inb_S1x1024x1024_S1x1024x1024_0_0_0
  have e4 := readAt_whole (F := F) (S := S1x512x1024) arg4.view f4 hz3 inb_S1x512x1024_S1x512x1024_0_0_0
  have e5 := readAt_whole (F := F) (S := S1x512x1024) arg5.view f5 hz3 inb_S1x512x1024_S1x512x1024_0_0_0
  have e7 := readAt_whole (F := F) (S := S1024x1) arg7.view f7 hz2 inb_S1024x1_S1024x1_0_0
  have e8 := readAt_whole (F := F) (S := S1024x1) arg8.view f8 hz2 inb_S1024x1_S1024x1_0_0
  have e9 := readAt_whole (F := F) (S := S1024x1024) arg9.view f9 hz2 inb_S1024x1024_S1024x1024_0_0
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_writes_whole (S := S1x1024x1024) _ _ hz3 _ _ _).trans ?_
    rw [View.readCov_unit_zero (Val := Elt F) (S := S1024x1024) arg9.view hz2 inb_S1024x1024_S1024x1024_0_0,
      View.readCov_unit_zero (Val := Elt F) (S := S1024x1) arg8.view hz2 inb_S1024x1_S1024x1_0_0, e3, e4, e5, e7, e8, e9]
    rfl
  isplitl [H7]
  · iexists _; isplitr
    swap; · iexact H7
    ipureintro
    refine (read_writes_whole (S := S1024x1) _ _ hz2 _ _ _).trans ?_
    rw [e3, e4, e7]
    rfl
  isplitl [H8]
  · iexists _; isplitr
    swap; · iexact H8
    ipureintro
    refine (read_writes_whole (S := S1024x1) _ _ hz2 _ _ _).trans ?_
    rw [e3, e4, e7, e8]
    rfl
  iexists _; isplitr
  swap; · iexact H9
  ipureintro
  refine (read_writes_whole (S := S1024x1024) _ _ hz2 _ _ _).trans ?_
  rw [e3, e4, e5, e7, e9]
  rfl

end Cert.KernelIdeal.Hand

end
-- ==== Proof.Region1Ideal.lean ====
import proofs.«152240_j4922032521509_2_alg».proof.Proof.Gen.KernelIdeal.Launch
import proofs.«152240_j4922032521509_2_alg».proof.Proof.Gen.KernelIdeal.Skeleton
import proofs.«152240_j4922032521509_2_alg».proof.Proof.Gen.KernelIdeal.Points
import proofs.«152240_j4922032521509_2_alg».proof.Proof.Region1TriplesIdeal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1's proof data.  What the three kept arrays hold after each grid point is defined by recursion on the
    point: at a first key tile the update of (-∞, 0, 0), elsewhere the update of what the point before left.  The
    region's invariant carries the kept arrays at exactly those contents from one point to the next (and, beside them,
    the other scoped buffers and the generator register, untouched).  The output window is written only at the last
    key tile of each (batch, query tile); at the other points its buffer is handed back as found. -/

variable (V : (c : Dev nD) → (b : Ref sig .tc) → Buf (Elt F) ((c : Thread nD τ).loc b))

/-- The block of window w at grid point t, read off the window's array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! Facts decided over the grid. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬condLast (grid1.coords t) → cfg1.idle 3 (grid1.coords t) = true := by decide +kernel
theorem noFlush1_3 : ∀ t : Fin cfg1.N, ¬condLast (grid1.coords t) → (cfg1.win 3).flush t = false := by decide +kernel
theorem liveAt1_3 : ∀ t : Fin cfg1.N, condLast (grid1.coords t) → cfg1.idle 3 (grid1.coords t) = false := by decide +kernel

/-- The three kept arrays as whole scoped buffers. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2

/-- What the kept arrays (maxima, normalisers, rows) hold after the body at position n. -/
def keptAt (c : Dev nD) : (n : ℕ) → n < cfg1.N → Vec F S1024x1 .f32 × Vec F S1024x1 .f32 × Vec F S1024x1024 .f32
  | 0, hn => (stepM (blk1 V c 0 ⟨0, hn⟩) (blk1 V c 1 ⟨0, hn⟩) initM, stepL (blk1 V c 0 ⟨0, hn⟩) (blk1 V c 1 ⟨0, hn⟩) initM initL, stepA (blk1 V c 0 ⟨0, hn⟩) (blk1 V c 1 ⟨0, hn⟩) (blk1 V c 2 ⟨0, hn⟩) initM initA)
  | n + 1, hn =>
    if (n + 1) % 4 = 0 then (stepM (blk1 V c 0 ⟨n + 1, hn⟩) (blk1 V c 1 ⟨n + 1, hn⟩) initM, stepL (blk1 V c 0 ⟨n + 1, hn⟩) (blk1 V c 1 ⟨n + 1, hn⟩) initM initL, stepA (blk1 V c 0 ⟨n + 1, hn⟩) (blk1 V c 1 ⟨n + 1, hn⟩) (blk1 V c 2 ⟨n + 1, hn⟩) initM initA)
    else (stepM (blk1 V c 0 ⟨n + 1, hn⟩) (blk1 V c 1 ⟨n + 1, hn⟩) (keptAt c n (Nat.lt_of_succ_lt hn)).1, stepL (blk1 V c 0 ⟨n + 1, hn⟩) (blk1 V c 1 ⟨n + 1, hn⟩) (keptAt c n (Nat.lt_of_succ_lt hn)).1 (keptAt c n (Nat.lt_of_succ_lt hn)).2.1, stepA (blk1 V c 0 ⟨n + 1, hn⟩) (blk1 V c 1 ⟨n + 1, hn⟩) (blk1 V c 2 ⟨n + 1, hn⟩) (keptAt c n (Nat.lt_of_succ_lt hn)).1 (keptAt c n (Nat.lt_of_succ_lt hn)).2.2)

theorem keptAt_first (c : Dev nD) (t : Fin cfg1.N) (h : t.val % 4 = 0) :
    keptAt V c t.val t.isLt = (stepM (blk1 V c 0 t) (blk1 V c 1 t) initM, stepL (blk1 V c 0 t) (blk1 V c 1 t) initM initL, stepA (blk1 V c 0 t) (blk1 V c 1 t) (blk1 V c 2 t) initM initA) := by
  obtain ⟨n, hn⟩ := t
  cases n with
  | zero => rfl
  | succ n => exact (if_pos h).trans rfl

theorem keptAt_next (c : Dev nD) (t : Fin cfg1.N) (h : ¬t.val % 4 = 0) :
    keptAt V c t.val t.isLt = (stepM (blk1 V c 0 t) (blk1 V c 1 t) (keptAt V c (t.val - 1) (Nat.lt_of_le_of_lt (Nat.sub_le _ _) t.isLt)).1, stepL (blk1 V c 0 t) (blk1 V c 1 t) (keptAt V c (t.val - 1) (Nat.lt_of_le_of_lt (Nat.sub_le _ _) t.isLt)).1 (keptAt V c (t.val - 1) (Nat.lt_of_le_of_lt (Nat.sub_le _ _) t.isLt)).2.1, stepA (blk1 V c 0 t) (blk1 V c 1 t) (blk1 V c 2 t) (keptAt V c (t.val - 1) (Nat.lt_of_le_of_lt (Nat.sub_le _ _) t.isLt)).1 (keptAt V c (t.val - 1) (Nat.lt_of_le_of_lt (Nat.sub_le _ _) t.isLt)).2.2) := by
  obtain ⟨n, hn⟩ := t
  cases n with
  | zero => exact absurd (Nat.zero_mod _) h
  | succ n => exact (if_neg h).trans rfl

/-- The other scoped buffers of the core (the first region's staging buffers), each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

/-- The class invariant of this pipeline, spelt out: those buffers, the three kept arrays at anything, the generator
    register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The weak form of the invariant: the kept arrays at anything. -/
def PhiW (c : Dev nD) : sProp 𝕄 :=
  iprop(other1 c ∗ (∃ d, owns (c : Thread nD τ) scM fullShare d) ∗ (∃ d, owns (c : Thread nD τ) scL fullShare d)
    ∗ (∃ d, owns (c : Thread nD τ) scA fullShare d) ∗ (∃ r, prngReg c r))

theorem PhiA1_split (c : Dev nD) : (Pipeline.ΦA spec1 c : sProp 𝕄) ⊢ PhiW c := by
  rw [PhiA1_eq]; unfold PhiW other1
  iintro ⟨⟨A0, A1, A2, A3, A4, A5, A6, A7, A8, A9, A10, A11, A12, A13, S0, S1, S2⟩, Hg⟩
  isplitl [A0 A1 A2 A3 A4 A5 A6 A7 A8 A9 A10 A11 A12 A13]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [S0]; · iexact S0
  isplitl [S1]; · iexact S1
  isplitl [S2]; · iexact S2
  iexact Hg

theorem PhiA1_join (c : Dev nD) : PhiW c ⊢ (Pipeline.ΦA spec1 c : sProp 𝕄) := by
  rw [PhiA1_eq]; unfold PhiW other1
  iintro ⟨⟨A0, A1, A2, A3, A4, A5, A6, A7, A8, A9, A10, A11, A12, A13⟩, S0, S1, S2, Hg⟩
  isplitl [A0 A1 A2 A3 A4 A5 A6 A7 A8 A9 A10 A11 A12 A13 S0 S1 S2]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [S0]; · iexact S0
    isplitl [S1]; · iexact S1
    iexact S2
  iexact Hg

/-- The region invariant before position n: before the first point the class's; afterwards the kept arrays at what the
    point before left. -/
def PhiS (c : Dev nD) : (n : ℕ) → n ≤ cfg1.N → sProp 𝕄
  | 0, _ => Pipeline.ΦA spec1 c
  | n + 1, hn => iprop(other1 c ∗ owns (c : Thread nD τ) scM fullShare (keptAt V c n hn).1
      ∗ owns (c : Thread nD τ) scL fullShare (keptAt V c n hn).2.1 ∗ owns (c : Thread nD τ) scA fullShare (keptAt V c n hn).2.2
      ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(other1 c ∗ owns (c : Thread nD τ) scM fullShare (keptAt V c n hn).1
      ∗ owns (c : Thread nD τ) scL fullShare (keptAt V c n hn).2.1 ∗ owns (c : Thread nD τ) scA fullShare (keptAt V c n hn).2.2
      ∗ (∃ r, prngReg c r)) := rfl

theorem PhiS_pos (c : Dev nD) (n : ℕ) (h : n ≤ cfg1.N) (hz : n ≠ 0) :
    PhiS V c n h = iprop(other1 c ∗ owns (c : Thread nD τ) scM fullShare (keptAt V c (n - 1) (by omega)).1
      ∗ owns (c : Thread nD τ) scL fullShare (keptAt V c (n - 1) (by omega)).2.1 ∗ owns (c : Thread nD τ) scA fullShare (keptAt V c (n - 1) (by omega)).2.2
      ∗ (∃ r, prngReg c r)) := by
  cases n with
  | zero => exact absurd rfl hz
  | succ n => rfl

/-- At any position the invariant yields its weak form. -/
theorem PhiS_weak (c : Dev nD) (n : ℕ) (h : n ≤ cfg1.N) : PhiS V c n h ⊢ PhiW c := by
  cases n with
  | zero => exact PhiA1_split c
  | succ n =>
    rw [PhiS_succ]; unfold PhiW
    iintro ⟨Ho, S0, S1, S2, Hg⟩
    isplitl [Ho]; · iexact Ho
    isplitl [S0]; · iexists _; iexact S0
    isplitl [S1]; · iexists _; iexact S1
    isplitl [S2]; · iexists _; iexact S2
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outO (keptAt V c t.val t.isLt).2.2 (keptAt V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = outO (keptAt V c t.val t.isLt).2.2 (keptAt V c t.val t.isLt).2.1 := by dsimp only [dat1]

theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · have h1 : ¬t.val % 4 = 3 := by omega
    have hc0 : condFirst (grid1.coords t) := (hcondFirst t).mpr h0
    have hc1 : ¬condLast (grid1.coords t) := fun h => h1 ((hcondLast t).mp h)
    rw [Dat.leavesExact_idle (dat1 V c) 3 t (idleAt1_3 t hc1) (noFlush1_3 t hc1)]
    rw [keptAt_first V c t h0]; dsimp only
    have hΦ := PhiS_weak V c t.val (Nat.le_of_lt t.isLt)
    rw [PhiS_castSucc V c t]
    unfold PhiW at hΦ
    iintro ⟨HΦ, Ho, ⟨%d0, H0⟩, ⟨%d1, H1⟩, ⟨%d2, H2⟩, ⟨%d3, H3⟩⟩
    ihave HΦ' := hΦ $$ HΦ
    icases HΦ' with ⟨Hoth, HS0, HS1, HS2, Hg⟩
    iapply (bodyFirst c Set.univ (grid1.coords t) _ _ _ _ _ _ _ _ _ _ _ _ _ _ hc0 hc1 (blk1 V c 0 t) (blk1 V c 1 t) (blk1 V c 2 t) _ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [Hoth HS0 HS1 HS2 Hg]
    · isplitl [Hoth]; · iexact Hoth
      isplitl [HS0]; · iexact HS0
      isplitl [HS1]; · iexact HS1
      isplitl [HS2]; · iexact HS2
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬condFirst (grid1.coords t) := fun h => h0 ((hcondFirst t).mp h)
    rw [PhiS_castSucc V c t, PhiS_pos V c _ _ hz]
    rw [keptAt_next V c t h0]; dsimp only
    by_cases h1 : t.val % 4 = 3
    · have hc1 : condLast (grid1.coords t) := (hcondLast t).mpr h1
      rw [show (dat1 V c).leavesExact 3 t = owns (c : Thread nD τ) (st1_3 t) fullShare ((dat1 V c).after 3 t) from by
        unfold Dat.leavesExact; rw [liveAt1_3 t hc1], after1_3, keptAt_next V c t h0]
      dsimp only
      iintro ⟨⟨Hoth, HS0, HS1, HS2, Hg⟩, Ho, ⟨%d0, H0⟩, ⟨%d1, H1⟩, ⟨%d2, H2⟩, ⟨%d3, H3⟩⟩
      iapply (bodyLast c Set.univ (grid1.coords t) _ _ _ _ _ _ _ _ _ _ _ _ _ _ hc0 hc1 (blk1 V c 0 t) (blk1 V c 1 t) (blk1 V c 2 t) _ _ _ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth]; · iexact Hoth
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexact H3
    · have hc1 : ¬condLast (grid1.coords t) := fun h => h1 ((hcondLast t).mp h)
      rw [Dat.leavesExact_idle (dat1 V c) 3 t (idleAt1_3 t hc1) (noFlush1_3 t hc1)]
      iintro ⟨⟨Hoth, HS0, HS1, HS2, Hg⟩, Ho, ⟨%d0, H0⟩, ⟨%d1, H1⟩, ⟨%d2, H2⟩, ⟨%d3, H3⟩⟩
      iapply (bodyMid c Set.univ (grid1.coords t) _ _ _ _ _ _ _ _ _ _ _ _ _ _ hc0 hc1 (blk1 V c 0 t) (blk1 V c 1 t) (blk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth]; · iexact Hoth
        isplitl [HS0]; · iexact HS0
        isplitl [HS1]; · iexact HS1
        isplitl [HS2]; · iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the kept arrays' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_weak V c _ _).trans (PhiA1_join c)

end Cert.KernelIdeal.Hand

end
-- ==== Proof.RunIdeal.lean ====
import proofs.«152240_j4922032521509_2_alg».proof.Proof.Gen.KernelIdeal.Launch
import proofs.«152240_j4922032521509_2_alg».proof.Proof.Gen.KernelIdeal.Skeleton
import proofs.«152240_j4922032521509_2_alg».proof.Proof.Gen.KernelIdeal.Points
import proofs.«152240_j4922032521509_2_alg».proof.Proof.Gen.KernelIdeal.Regions
import proofs.«152240_j4922032521509_2_alg».proof.Proof.Region0Ideal
import proofs.«152240_j4922032521509_2_alg».proof.Proof.Region1Ideal
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run.  @main is: the host operations that flatten the input and fold the scale into the query weights and
    bias, the projection region, the host operations that give its three results back their batch axis, the attention
    region.  The contents of every unscoped buffer at each boundary are a fold from the launch memory: a host stretch
    applies its operations; a region leaves its input arrays as entered and each result array at what its blocks'
    write-backs add up to.  Every weakly fair execution terminates; at the end the arguments are as launched and the
    last region's result array holds what the attention region's proof data say. -/

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! No host operation writes an argument and no window stages one: the fold at an argument walks back to the launch. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
/-- The projection region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: its invariant is entered from the class's and returned to it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- The run: termination without fault, the result array at the attention region's final contents, the arguments as launched. -/
theorem run : θ_run defs (onTc (τ := τ) (main (F := F))) ⟨m, fun _ => 0, ρ⟩ (fun r => ∀ c : Dev nD,
      r.2.mem ((c.tc : Thread nD τ).loc main_v15) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v15 (by decide))).trans (W4_arr m ρ c 3),
        (h c _ (mem_uc main_arg0 (by decide))).trans (W4_main_arg0 m ρ c),
        (h c _ (mem_uc main_arg1 (by decide))).trans (W4_main_arg1 m ρ c),
        (h c _ (mem_uc main_arg2 (by decide))).trans (W4_main_arg2 m ρ c),
        (h c _ (mem_uc main_arg3 (by decide))).trans (W4_main_arg3 m ρ c),
        (h c _ (mem_uc main_arg4 (by decide))).trans (W4_main_arg4 m ρ c),
        (h c _ (mem_uc main_arg5 (by decide))).trans (W4_main_arg5 m ρ c),
        (h c _ (mem_uc main_arg6 (by decide))).trans (W4_main_arg6 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run m ρ)

end Cert.KernelIdeal.Hand

end
-- ==== Proof.Region0ValuePay.lean ====
/-
  The projection region's three results at an index of the block, at the ideal instance.

  Each result is a matrix product into a zero accumulator (the 512×1024 row block times a 1024×1024 weight
  matrix, contracting the block's columns against the matrix's rows) plus a bias row repeated down the block;
  the two format narrowings are the identity on extended reals.  So at row r and column f of the block the
  result is  (0 + Σ_d x r d * w d f) + b 0 f.
-/
import proofs.«152240_j4922032521509_2_alg».proof.Proof.Region0Ideal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue0

open Cert.KernelIdeal Cert.KernelIdeal.Gen
open Idealize.ShloMosaic Idealize.ShloMosaic.ValueIdx

/-! ## The product's operand indices -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_col (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_row (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, at row r and column f: the sum over the contracted coordinate. -/
theorem matmul_zero_at (a : FVec Ideal S512x1024 .bf16) (w : FVec Ideal S1024x1024 .bf16) (r : Fin 512) (f : Fin 1024) :
    (matmul dot_S512x1024_S1024x1024_S512x1024_1_0_0_1_n_n none a w (constant (F := Ideal) S512x1024 .f32 0x00000000#32) : FVec Ideal S512x1024 .f32) (ix2 r f)
      = ∑ d : Fin 1024, a (ix2 r d) * w (ix2 d f) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r f) ((ValueIdx.contrEquiv1 dot_S512x1024_S1024x1024_S512x1024_1_0_0_1_n_n 1024 rfl rfl).symm k) = ix2 r k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 r f) ((ValueIdx.contrEquiv1 dot_S512x1024_S1024x1024_S512x1024_1_0_0_1_n_n 1024 rfl rfl).symm k) = ix2 k f := funext fun a => Fin.ext (by
    match a with
    | ⟨0, _⟩ => exact (rhs_row _ _).trans hk
    | ⟨1, _⟩ => exact rhs_col _ _)
  rw [el, er]

/-- The bias row repeated down the block, at row r and column f. -/
theorem bias_at (b : FVec Ideal S1x1024 .f32) (r : Fin 512) (f : Fin 1024) :
    (broadcastTo S512x1024 b broadcasts_S1x1024_S512x1024 : FVec Ideal S512x1024 .f32) (ix2 r f) = b (ix2 0 f) :=
  broadcastTo_apply b broadcasts_S1x1024_S512x1024 (ix2 r f) (ix2 0 f) (fun a => match a with
    | ⟨0, _⟩ => by show (0 : Nat) = if (1 : Nat) = 1 then 0 else r.val; rw [if_pos rfl]
    | ⟨1, _⟩ => by show f.val = if (1024 : Nat) = 1 then 0 else f.val; rw [if_neg (by decide)])

/-- The narrowed row block is the row block. -/
theorem pay1_eq (x0 : Vec Ideal S512x1024 .f32) : k0_pay1 (F := Ideal) x0 = x0 := by
  unfold k0_pay1
  rw [shapeCast_self]
  rfl

/-! ## The three results at an index -/

theorem pay2_at (x0 : Vec Ideal S512x1024 .f32) (w : Vec Ideal S1024x1024 .bf16) (b : Vec Ideal S1x1024 .f32) (r : Fin 512) (f : Fin 1024) :
    k0_pay2 (F := Ideal) x0 w b (ix2 r f) = (0 + ∑ d : Fin 1024, x0 (ix2 r d) * w (ix2 d f)) + b (ix2 0 f) := by
  unfold k0_pay2
  rw [pay1_eq, shapeCast_self, shapeCast_self, truncf_apply, addf_apply, matmul_zero_at, bias_at, zero_add]

theorem pay3_at (x0 : Vec Ideal S512x1024 .f32) (w : Vec Ideal S1024x1024 .bf16) (b : Vec Ideal S1x1024 .f32) (r : Fin 512) (f : Fin 1024) :
    k0_pay3 (F := Ideal) x0 w b (ix2 r f) = (0 + ∑ d : Fin 1024, x0 (ix2 r d) * w (ix2 d f)) + b (ix2 0 f) := by
  unfold k0_pay3
  rw [pay1_eq, shapeCast_self, shapeCast_self, truncf_apply, addf_apply, matmul_zero_at, bias_at, zero_add]

theorem pay4_at (x0 : Vec Ideal S512x1024 .f32) (w : Vec Ideal S1024x1024 .bf16) (b : Vec Ideal S1x1024 .f32) (r : Fin 512) (f : Fin 1024) :
    k0_pay4 (F := Ideal) x0 w b (ix2 r f) = (0 + ∑ d : Fin 1024, x0 (ix2 r d) * w (ix2 d f)) + b (ix2 0 f) := by
  unfold k0_pay4
  rw [pay1_eq, shapeCast_self, shapeCast_self, truncf_apply, addf_apply, matmul_zero_at, bias_at, zero_add]

end Cert.KernelIdeal.HandValue0

end
-- ==== Proof.Region0ValueArr.lean ====
/-
  From the projection region's blocks to its three result arrays, at the ideal instance, for any contents V of the
  arrays at the region's entry.

  Grid point t reads rows 512·t … 512·t+511 of the flattened input and the whole of a weight matrix and a bias row,
  and writes the same rows of a result; each entry written is (0 + Σ_d x r d * w d f) + b 0 f.  A block's coordinate
  is its block index times the block's size plus the coordinate inside the block, so point t's block of a result is
  the block of one whole-array function, the projection  i ↦ (0 + Σ_d X (i 0) d * W d (i 1)) + b 0 (i 1);  row R is
  covered by point R / 512; hence the result array after the region is that function.
-/
import proofs.«152240_j4922032521509_2_alg».proof.Proof.Region0Ideal
import proofs.«152240_j4922032521509_2_alg».proof.Proof.Region0ValuePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A projection of the whole input: row i 0 of the flattened input against column i 1 of a weight matrix, plus the
    bias row's entry i 1. -/
def proj (X2 : S8192x1024.Idx → EReal) (Wm : S1024x1024.Idx → EReal) (br : S1x1024.Idx → EReal) : S8192x1024.Idx → EReal :=
  fun i => (0 + ∑ d : Fin 1024, X2 (ix2 (i 0) d) * Wm (ix2 d (i 1))) + br (ix2 0 (i 1))

/-- The projection read at row R and column f. -/
theorem proj_at (X2 : S8192x1024.Idx → EReal) (Wm : S1024x1024.Idx → EReal) (br : S1x1024.Idx → EReal) (R : Fin 8192) (f : Fin 1024) :
    proj X2 Wm br (ix2 R f) = (0 + ∑ d : Fin 1024, X2 (ix2 R d) * Wm (ix2 d f)) + br (ix2 0 f) := rfl

/-- The printed index maps over the grid: the input's and the results' row blocks are the point's, everything else
    is block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- One point, over plain blocks: if the row block is rows n·512 … of X2 and the weight and bias blocks are the whole
    of Wm and br, a result block whose entry (r, f) is (0 + Σ_d x0 r d * w d f) + b 0 f is, at j, the projection at
    row n·512 + j 0 and column j 1. -/
theorem point_eq (pay : Vec Ideal S512x1024 .f32 → Vec Ideal S1024x1024 .bf16 → Vec Ideal S1x1024 .f32 → FVec Ideal S512x1024 .bf16)
    (hpay : ∀ x0 w b (r : Fin 512) (f : Fin 1024), pay x0 w b (ix2 r f) = (0 + ∑ d : Fin 1024, x0 (ix2 r d) * w (ix2 d f)) + b (ix2 0 f))
    (X2 : S8192x1024.Idx → EReal) (Wm : S1024x1024.Idx → EReal) (br : S1x1024.Idx → EReal)
    (x0 : Vec Ideal S512x1024 .f32) (w : Vec Ideal S1024x1024 .bf16) (b : Vec Ideal S1x1024 .f32) (n : Nat)
    (hx : ∀ (r : Fin 512) (d : Fin 1024) (R : Fin 8192), R.val = n * 512 + r.val → x0 (ix2 r d) = X2 (ix2 R d))
    (hw : ∀ (d f : Fin 1024), w (ix2 d f) = Wm (ix2 d f)) (hb : ∀ f : Fin 1024, b (ix2 0 f) = br (ix2 0 f))
    (j : S512x1024.Idx) (i : S8192x1024.Idx) (h0 : (i 0).val = n * 512 + (j 0).val) (h1 : (i 1).val = (j 1).val) :
    pay x0 w b j = proj X2 Wm br i := by
  obtain ⟨r, f, rfl⟩ : ∃ (r : Fin 512) (f : Fin 1024), j = ix2 r f := ⟨j 0, j 1, eq_ix2 j⟩
  obtain ⟨R, f', rfl⟩ : ∃ (R : Fin 8192) (f' : Fin 1024), i = ix2 R f' := ⟨i 0, i 1, eq_ix2 i⟩
  have hf : f' = f := Fin.ext h1
  subst hf
  rw [hpay]
  unfold proj
  show _ = (0 + ∑ d : Fin 1024, X2 (ix2 R d) * Wm (ix2 d f')) + br (ix2 0 f')
  rw [hb]
  congr 2
  exact Finset.sum_congr rfl fun d _ => by rw [hx r d R h0, hw]

/-! ## Result window 7 -/

/-- What point t writes back is block t of the projection of the arrays as the region finds them. -/
theorem flushed7_eq (c : Dev nD) (t : Fin cfg0.N) :
    (dat0 V c).flushed 7 t = ((cfg0.win 7).blk t).view.read (Elt Ideal) (proj (V c main_v0) (V c main_v5) (V c main_v8)) := by
  show (cfg0.win 7).cut (grid0.coords t) ((dat0 V c).after 7 t) = _
  rw [after0_7]
  unfold outQ
  rw [View.canon_unit_zero hz]
  simp only [View.ld_unit_zero (S := S512x1024) hz, View.ld_unit_zero (S := S1024x1024) hz, View.ld_unit_zero (S := S1x1024) hz]
  obtain ⟨e00, e01, e10, e11, e20, e21, e30, e31, e40, e41, e50, e51, e60, e61, e70, e71, e80, e81, e90, e91⟩ := idx_facts t
  funext j
  show k0_pay2 (F := Ideal) (blk0 V c 0 t) (blk0 V c 1 t) (blk0 V c 2 t) j = proj (V c main_v0) (V c main_v5) (V c main_v8) (((cfg0.win 7).blk t).view.emb j)
  refine point_eq k0_pay2 pay2_at (V c main_v0) (V c main_v5) (V c main_v8) _ _ _ t.val ?_ ?_ ?_ j _ ?_ ?_
  · intro r d R hR
    show V c main_v0 (((cfg0.win 0).blk t).view.emb (ix2 r d)) = V c main_v0 (ix2 R d)
    refine congrArg _ (funext fun a => Fin.ext ?_)
    match a with
    | ⟨0, _⟩ => show win0_0.index t (0 : Fin 2) * 512 + 1 * r.val = R.val; omega
    | ⟨1, _⟩ => show win0_0.index t (1 : Fin 2) * 1024 + 1 * d.val = d.val; omega
  · intro d f
    show V c main_v5 (((cfg0.win 1).blk t).view.emb (ix2 d f)) = V c main_v5 (ix2 d f)
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * f.val = f.val; omega
  · intro f
    show V c main_v8 (((cfg0.win 2).blk t).view.emb (ix2 0 f)) = V c main_v8 (ix2 0 f)
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * f.val = f.val; omega
  · show win0_7.index t (0 : Fin 2) * 512 + 1 * (j 0).val = t.val * 512 + (j 0).val; omega
  · show win0_7.index t (1 : Fin 2) * 1024 + 1 * (j 1).val = (j 1).val; omega

/-- An index of the result array is in point t's block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11_0).slice (win0_7.rect t)).set ↔ _
  rw [View.set_slice_whole, Rect.mem_set_unit]
  exact Iff.rfl

/-- Row R of the result is written by point R / 512. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 512 < grid0.N := by rw [N_0]; omega
  obtain ⟨t, ht⟩ : ∃ t : Fin cfg0.N, t.val = (i 0).val / 512 := ⟨⟨(i 0).val / 512, hN⟩, rfl⟩
  obtain ⟨e00, e01, e10, e11, e20, e21, e30, e31, e40, e41, e50, e51, e60, e61, e70, e71, e80, e81, e90, e91⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The result array after the region: the projection of the arrays as the region finds them. -/
theorem final7 (c : Dev nD) : (dat0 V c).arrAt 7 cfg0.N = proj (V c main_v0) (V c main_v5) (V c main_v8) :=
  (dat0 V c).arrAt_eq_of_cover 7 (proj (V c main_v0) (V c main_v5) (V c main_v8)) (fun t _ => flushed7_eq V c t) cover7

/-! ## Result window 8 -/

/-- What point t writes back is block t of the projection of the arrays as the region finds them. -/
theorem flushed8_eq (c : Dev nD) (t : Fin cfg0.N) :
    (dat0 V c).flushed 8 t = ((cfg0.win 8).blk t).view.read (Elt Ideal) (proj (V c main_v0) (V c main_v6) (V c main_v9)) := by
  show (cfg0.win 8).cut (grid0.coords t) ((dat0 V c).after 8 t) = _
  rw [after0_8]
  unfold outK
  rw [View.canon_unit_zero hz]
  simp only [View.ld_unit_zero (S := S512x1024) hz, View.ld_unit_zero (S := S1024x1024) hz, View.ld_unit_zero (S := S1x1024) hz]
  obtain ⟨e00, e01, e10, e11, e20, e21, e30, e31, e40, e41, e50, e51, e60, e61, e70, e71, e80, e81, e90, e91⟩ := idx_facts t
  funext j
  show k0_pay3 (F := Ideal) (blk0 V c 0 t) (blk0 V c 3 t) (blk0 V c 4 t) j = proj (V c main_v0) (V c main_v6) (V c main_v9) (((cfg0.win 8).blk t).view.emb j)
  refine point_eq k0_pay3 pay3_at (V c main_v0) (V c main_v6) (V c main_v9) _ _ _ t.val ?_ ?_ ?_ j _ ?_ ?_
  · intro r d R hR
    show V c main_v0 (((cfg0.win 0).blk t).view.emb (ix2 r d)) = V c main_v0 (ix2 R d)
    refine congrArg _ (funext fun a => Fin.ext ?_)
    match a with
    | ⟨0, _⟩ => show win0_0.index t (0 : Fin 2) * 512 + 1 * r.val = R.val; omega
    | ⟨1, _⟩ => show win0_0.index t (1 : Fin 2) * 1024 + 1 * d.val = d.val; omega
  · intro d f
    show V c main_v6 (((cfg0.win 3).blk t).view.emb (ix2 d f)) = V c main_v6 (ix2 d f)
    refine congrArg _ (funext fun a => Fin.ext ?_)
    match a with
    | ⟨0, _⟩ => show win0_3.index t (0 : Fin 2) * 1024 + 1 * d.val = d.val; omega
    | ⟨1, _⟩ => show win0_3.index t (1 : Fin 2) * 1024 + 1 * f.val = f.val; omega
  · intro f
    show V c main_v9 (((cfg0.win 4).blk t).view.emb (ix2 0 f)) = V c main_v9 (ix2 0 f)
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * f.val = f.val; omega
  · show win0_8.index t (0 : Fin 2) * 512 + 1 * (j 0).val = t.val * 512 + (j 0).val; omega
  · show win0_8.index t (1 : Fin 2) * 1024 + 1 * (j 1).val = (j 1).val; omega

/-- An index of the result array is in point t's block iff each coordinate is in the block's range on its axis. -/
theorem mem_blk8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v11_1).slice (win0_8.rect t)).set ↔ _
  rw [View.set_slice_whole, Rect.mem_set_unit]
  exact Iff.rfl

/-- Row R of the result is written by point R / 512. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : (i 0).val / 512 < grid0.N := by rw [N_0]; omega
  obtain ⟨t, ht⟩ : ∃ t : Fin cfg0.N, t.val = (i 0).val / 512 := ⟨⟨(i 0).val / 512, hN⟩, rfl⟩
  obtain ⟨e00, e01, e10, e11, e20, e21, e30, e31, e40, e41, e50, e51, e60, e61, e70, e71, e80, e81, e90, e91⟩ := idx_facts t
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The result array after the region: the projection of the arrays as the region finds them. -/
theorem final8 (c : Dev nD) : (dat0 V c).arrAt 8 cfg0.N = proj (V c main_v0) (V c main_v6) (V c main_v9) :=
  (dat0 V c).arrAt_eq_of_cover 8 (proj (V c main_v0) (V c main_v6) (V c main_v9)) (fun t _ => flushed8_eq V c t) cover8

/-! ## Result window 9 -/

/-- What point t writes back is block t of the projection of the arrays as the region finds them. -/
theorem flushed9_eq (c : Dev nD) (t : Fin cfg0.N) :
    (dat0 V c).flushed 9 t = ((cfg0.win 9).blk t).view.read (Elt Ideal) (proj (V c main_v0) (V c main_v7) (V c main_v10)) := by
  show (cfg0.win 9).cut (grid0.coords t) ((dat0 V c).after 9 t) = _
  rw [after0_9]
  unfold outV
  rw [View.canon_unit_zero hz]
  simp only [View.ld_unit_zero (S := S512x1024) hz, View.ld_unit_zero (S := S1024x1024) hz, View.ld_unit_zero (S := S1x1024) hz]
  obtain ⟨e00, e01, e10, e11, e20, e21, e30, e31, e40, e41, e50, e51, e60, e61, e70, e71, e80, e81, e90, e91⟩ := idx_facts t
  funext j
  show k0_pay4 (F := Ideal) (blk0 V c 0 t) (blk0 V c 5 t) (blk0 V c 6 t) j = proj (V c main_v0) (V c main_v7) (V c main_v10) (((cfg0.win 9).blk t).view.emb j)
  refine point_eq k0_pay4 pay4_at (V c main_v0) (V c main_v7) (V c main_v10) _ _ _ t.val ?_ ?_ ?_ j _ ?_ ?_
  · intro r d R hR
    show V c main_v0 (((cfg0.win 0).blk t).view.emb (ix2 r d)) = V c main_v0 (ix2 R d)
    refine congrArg _ (funext fun a => Fin.ext ?_)
    match a with
    | ⟨0, _⟩ => show win0_0.index t (0 : Fin 2) * 512 + 1 * r.val = R.val; omega
    | ⟨1, _⟩ => show win0_0.index t (1 : Fin 2) * 1024 + 1 * d.val = d.val; omega
  · intro d f
    show V c main_v7 (((cfg0.win 5).blk t).view.emb (ix2 d f)) = V c main_v7 (ix2 d f)
    refine congrArg _ (funext fun a => Fin.ext ?_)
    match a with
    | ⟨0, _⟩ => show win0_5.index t (0 : Fin 2) * 1024 + 1 * d.val = d.val; omega
    | ⟨1, _⟩ => show win0_5.index t (1 : Fin 2) * 1024 + 1 * f.val = f.val; omega
  · intro f
    show V c main_v10 (((cfg0.win 6).blk t).view.emb (ix2 0 f)) = V c main_v10 (ix2 0 f)
    refine congrArg _ (funext fun a => Fin.ext ?_)
    match a with
    | ⟨0, _⟩ => show win0_6.index t (0 : Fin 2) * 1 + 1 * 0 = 0; omega
    | ⟨1, _⟩ => show win0_6.index t (1 : Fin 2) * 1024 + 1 * f.val = f.val; omega
  · show win0_9.index t (0 : Fin 2) * 512 + 1 * (j 0).val = t.val * 512 + (j 0).val; omega
  · show win0_9.index t (1 : Fin 2) * 1024 + 1 * (j 1).val = (j 1).val; omega

/-- An index of the result array is in point t's block iff each coordinate is in the block's range on its axis. -/
theorem mem_blk9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v11_2).slice (win0_9.rect t)).set ↔ _
  rw [View.set_slice_whole, Rect.mem_set_unit]
  exact Iff.rfl

/-- Row R of the result is written by point R / 512. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : (i 0).val / 512 < grid0.N := by rw [N_0]; omega
  obtain ⟨t, ht⟩ : ∃ t : Fin cfg0.N, t.val = (i 0).val / 512 := ⟨⟨(i 0).val / 512, hN⟩, rfl⟩
  obtain ⟨e00, e01, e10, e11, e20, e21, e30, e31, e40, e41, e50, e51, e60, e61, e70, e71, e80, e81, e90, e91⟩ := idx_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The result array after the region: the projection of the arrays as the region finds them. -/
theorem final9 (c : Dev nD) : (dat0 V c).arrAt 9 cfg0.N = proj (V c main_v0) (V c main_v7) (V c main_v10) :=
  (dat0 V c).arrAt_eq_of_cover 9 (proj (V c main_v0) (V c main_v7) (V c main_v10)) (fun t _ => flushed9_eq V c t) cover9

end Cert.KernelIdeal.HandValue0

end
-- ==== Proof.AttentionSpec.lean ====
/-
  What both programs compute, over the reals.

  From an input x of shape [4, 2048, 1024], three weight matrices [1024, 1024] and three bias vectors [1024]:
      Q = x·Wq + bq,  K = x·Wk + bk,  V = x·Wv + bv            (per batch b: [2048, 1024] each)
      score b q k = (Σ_f Q b q f * K b k f) * (1/32)            (1/32 = 1/√1024, the attention scale)
      out b q f   = Σ_k softmax_k (score b q ·) k * V b k f,
  softmax written with the row's largest score subtracted before the exponential.  The streaming program folds
  the scale into the query projection, Qs = x·(Wq·(1/32)) + bq·(1/32), and uses scoreK b q k = Σ_f Qs b q f * K b k f,
  which is the same number (scoreK_eq: the scale moves out of both sums).
-/
import Idealize.ShloMosaic.PureOps.Ideal
import Idealize.ShloMosaic.Lib.ValueIdx

noncomputable section

open Idealize.ShloMosaic

namespace Cert.Spec

/-- Real-valued arguments of the two programs. -/
structure Inputs where
  X : Fin 4 → Fin 2048 → Fin 1024 → ℝ
  Wq : Fin 1024 → Fin 1024 → ℝ
  bq : Fin 1024 → ℝ
  Wk : Fin 1024 → Fin 1024 → ℝ
  bk : Fin 1024 → ℝ
  Wv : Fin 1024 → Fin 1024 → ℝ
  bv : Fin 1024 → ℝ

/-- A real function of coordinates as an array of extended reals over the shape's index set. -/
def arr1 {a : Nat} (f : Fin a → ℝ) : (⟨1, ![a]⟩ : Shape).Idx → EReal := fun i => ((f (i 0) : ℝ) : EReal)
def arr2 {a b : Nat} (f : Fin a → Fin b → ℝ) : (⟨2, ![a, b]⟩ : Shape).Idx → EReal :=
  fun i => ((f (i 0) (i 1) : ℝ) : EReal)
def arr3 {a b c : Nat} (f : Fin a → Fin b → Fin c → ℝ) : (⟨3, ![a, b, c]⟩ : Shape).Idx → EReal :=
  fun i => ((f (i 0) (i 1) (i 2) : ℝ) : EReal)

variable (I : Inputs)

/-- The three projections. -/
def Q (b : Fin 4) (s : Fin 2048) (f : Fin 1024) : ℝ := (∑ d, I.X b s d * I.Wq d f) + I.bq f
def K (b : Fin 4) (s : Fin 2048) (f : Fin 1024) : ℝ := (∑ d, I.X b s d * I.Wk d f) + I.bk f
def Vl (b : Fin 4) (s : Fin 2048) (f : Fin 1024) : ℝ := (∑ d, I.X b s d * I.Wv d f) + I.bv f

/-- The scaled score of query row q against key row k in batch b. -/
def score (b : Fin 4) (q k : Fin 2048) : ℝ := (∑ f, Q I b q f * K I b k f) * (1 / 32)

/-- The largest score of a query row. -/
def rowMax (b : Fin 4) (q : Fin 2048) : ℝ := Finset.univ.sup' Finset.univ_nonempty (score I b q)

/-- The row's normaliser. -/
def norm (b : Fin 4) (q : Fin 2048) : ℝ := ∑ k, Real.exp (score I b q k - rowMax I b q)

/-- The attention output. -/
def out (b : Fin 4) (q : Fin 2048) (f : Fin 1024) : ℝ :=
  ∑ k, Real.exp (score I b q k - rowMax I b q) / norm I b q * Vl I b k f

/-- The result array both programs end with. -/
def G : (⟨3, ![4, 2048, 1024]⟩ : Shape).Idx → EReal := arr3 (out I)

/-- The query projection with the scale folded into weights and bias. -/
def Qs (b : Fin 4) (s : Fin 2048) (f : Fin 1024) : ℝ := (∑ d, I.X b s d * (I.Wq d f * (1 / 32))) + I.bq f * (1 / 32)

/-- The score as the streaming program forms it. -/
def scoreK (b : Fin 4) (q k : Fin 2048) : ℝ := ∑ f, Qs I b q f * K I b k f

/-- Folding the scale into the query projection does not change the score. -/
theorem scoreK_eq (b : Fin 4) (q k : Fin 2048) : scoreK I b q k = score I b q k := by
  unfold scoreK score Qs Q
  rw [Finset.sum_mul]
  refine Finset.sum_congr rfl fun f _ => ?_
  have h : (∑ d, I.X b q d * (I.Wq d f * (1 / 32))) = (∑ d, I.X b q d * I.Wq d f) * (1 / 32) := by
    rw [Finset.sum_mul]; exact Finset.sum_congr rfl fun d _ => by ring
  rw [h]; ring

end Cert.Spec

end
-- ==== Proof.Region0ValueHost.lean ====
/-
  The host operations before the projection region, read at an index, for real inputs.

  Before the region the host flattens the input [4, 2048, 1024] to [8192, 1024] (row R of the flat array is row
  R % 2048 of batch R / 2048), multiplies the query weights and the query bias by the constant 1/32 (the word
  0x3D000000), narrows the three weight matrices (the identity on extended reals) and turns each bias vector
  [1024] into a row [1, 1024].  With the seven arguments the arrays of real inputs, each array the region reads
  is therefore the array of a real function, given here entry by entry.
-/
import proofs.«152240_j4922032521509_2_alg».proof.Proof.Gen.KernelIdeal.Regions
import proofs.«152240_j4922032521509_2_alg».proof.Proof.AttentionSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HandValue0

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The arrays as the projection region finds them: the launch contents after the host operations before it. -/
abbrev V1 (c : Dev nD) (b : Ref sig .tc) : Buf (Elt Ideal) ((c : Thread nD τ).loc b) :=
  StableHlo.after hostOps0 (fun b => m (c, b)) (Proc.devRef .tc b)

/-- The word 0x3D000000 is the real number 1/32. -/
theorem ofBits_inv32 : Ideal.ofBits .f32 0x3D000000#32 = ((1 / 32 : ℝ) : EReal) := by
  simp [Ideal.ofBits, Ideal.ieee]
  rw [← EReal.coe_mul]
  norm_num

/-! ## Each array as a term of the launch contents -/

theorem V1_v0 (c : Dev nD) : (V1 m c main_v0 : S8192x1024.Idx → EReal)
    = shapeCast S8192x1024 (m ((c : Thread nD τ).loc main_arg0) : S4x2048x1024.Idx → EReal) shapeCasts_S4x2048x1024_S8192x1024 := by
  dsimp only [V1, hostOps0]; after_results; try rfl

theorem V1_v5 (c : Dev nD) : (V1 m c main_v5 : S1024x1024.Idx → EReal)
    = truncf .bf16 (mulf (m ((c : Thread nD τ).loc main_arg1) : FVec Ideal S1024x1024 .f32)
        (broadcastInDim S1024x1024 ![] bcast_S_S1024x1024 (constant (F := Ideal) S_ .f32 0x3D000000#32))) bitsLt_bf16_f32 := by
  dsimp only [V1, hostOps0]; after_results; try rfl

theorem V1_v8 (c : Dev nD) : (V1 m c main_v8 : S1x1024.Idx → EReal)
    = shapeCast S1x1024 (mulf (m ((c : Thread nD τ).loc main_arg2) : FVec Ideal S1024 .f32)
        (broadcastInDim S1024 ![] bcast_S_S1024 (constant (F := Ideal) S_ .f32 0x3D000000#32))) shapeCasts_S1024_S1x1024 := by
  dsimp only [V1, hostOps0]; after_results; try rfl

theorem V1_v6 (c : Dev nD) : (V1 m c main_v6 : S1024x1024.Idx → EReal)
    = (truncf .bf16 (m ((c : Thread nD τ).loc main_arg3) : FVec Ideal S1024x1024 .f32) bitsLt_bf16_f32 : FVec Ideal S1024x1024 .bf16) := by
  dsimp only [V1, hostOps0]; after_results; try rfl

theorem V1_v7 (c : Dev nD) : (V1 m c main_v7 : S1024x1024.Idx → EReal)
    = (truncf .bf16 (m ((c : Thread nD τ).loc main_arg5) : FVec Ideal S1024x1024 .f32) bitsLt_bf16_f32 : FVec Ideal S1024x1024 .bf16) := by
  dsimp only [V1, hostOps0]; after_results; try rfl

theorem V1_v9 (c : Dev nD) : (V1 m c main_v9 : S1x1024.Idx → EReal)
    = shapeCast S1x1024 (m ((c : Thread nD τ).loc main_arg4) : S1024.Idx → EReal) shapeCasts_S1024_S1x1024 := by
  dsimp only [V1, hostOps0]; after_results; try rfl

theorem V1_v10 (c : Dev nD) : (V1 m c main_v10 : S1x1024.Idx → EReal)
    = shapeCast S1x1024 (m ((c : Thread nD τ).loc main_arg6) : S1024.Idx → EReal) shapeCasts_S1024_S1x1024 := by
  dsimp only [V1, hostOps0]; after_results; try rfl

/-! ## Layout operations at an index, over plain arrays -/

/-- The flattened input at row R, column d: batch R / 2048, row R % 2048. -/
theorem flat_at (x : S4x2048x1024.Idx → EReal) (R : Fin 8192) (d : Fin 1024) :
    shapeCast S8192x1024 x shapeCasts_S4x2048x1024_S8192x1024 (ix2 R d)
      = x (ix3 (⟨R.val / 2048, by have := R.isLt; omega⟩ : Fin 4) (⟨R.val % 2048, Nat.mod_lt _ (by decide)⟩ : Fin 2048) d) := by
  refine shapeCast_apply x shapeCasts_S4x2048x1024_S8192x1024 (ix2 R d) _ ?_
  rw [Shape.rowMajor_val_three, Shape.rowMajor_val_two]
  show (R.val / 2048 * 2048 + R.val % 2048) * 1024 + d.val = R.val * 1024 + d.val
  have := Nat.div_add_mod R.val 2048
  omega

/-- A vector turned into a row, at column f. -/
theorem row_at (x : S1024.Idx → EReal) (f : Fin 1024) :
    shapeCast S1x1024 x shapeCasts_S1024_S1x1024 (ix2 (0 : Fin 1) f) = x (ix1 f) := by
  refine shapeCast_apply x shapeCasts_S1024_S1x1024 (ix2 (0 : Fin 1) f) _ ?_
  rw [Shape.rowMajor_val_one, Shape.rowMajor_val_two]
  show f.val = 0 * 1024 + f.val
  omega

/-- The constant spread over a matrix, at an index. -/
theorem splat2_at (i : S1024x1024.Idx) :
    broadcastInDim S1024x1024 ![] bcast_S_S1024x1024 (constant (F := Ideal) S_ .f32 0x3D000000#32) i = ((1 / 32 : ℝ) : EReal) := by
  rw [broadcastInDim_apply ![] bcast_S_S1024x1024 _ i ix0 (fun a => a.elim0), constant_apply, ofBits_inv32]

/-- The constant spread over a vector, at an index. -/
theorem splat1_at (i : S1024.Idx) :
    broadcastInDim S1024 ![] bcast_S_S1024 (constant (F := Ideal) S_ .f32 0x3D000000#32) i = ((1 / 32 : ℝ) : EReal) := by
  rw [broadcastInDim_apply ![] bcast_S_S1024 _ i ix0 (fun a => a.elim0), constant_apply, ofBits_inv32]

/-! ## The seven arrays at an index, for real inputs -/

variable (I : Cert.Spec.Inputs)

theorem V1_v0_at (c : Dev nD) (hX : (m ((c : Thread nD τ).loc main_arg0) : S4x2048x1024.Idx → EReal) = Cert.Spec.arr3 I.X)
    (R : Fin 8192) (d : Fin 1024) :
    (V1 m c main_v0 : S8192x1024.Idx → EReal) (ix2 R d)
      = ((I.X (⟨R.val / 2048, by have := R.isLt; omega⟩ : Fin 4) (⟨R.val % 2048, Nat.mod_lt _ (by decide)⟩ : Fin 2048) d : ℝ) : EReal) := by
  rw [V1_v0, hX, flat_at]; rfl

theorem V1_v5_at (c : Dev nD) (hWq : (m ((c : Thread nD τ).loc main_arg1) : S1024x1024.Idx → EReal) = Cert.Spec.arr2 I.Wq)
    (d f : Fin 1024) :
    (V1 m c main_v5 : S1024x1024.Idx → EReal) (ix2 d f) = ((I.Wq d f * (1 / 32) : ℝ) : EReal) := by
  rw [V1_v5, hWq, truncf_apply, mulf_apply, splat2_at, EReal.coe_mul]; rfl

theorem V1_v8_at (c : Dev nD) (hbq : (m ((c : Thread nD τ).loc main_arg2) : S1024.Idx → EReal) = Cert.Spec.arr1 I.bq)
    (f : Fin 1024) :
    (V1 m c main_v8 : S1x1024.Idx → EReal) (ix2 (0 : Fin 1) f) = ((I.bq f * (1 / 32) : ℝ) : EReal) := by
  rw [V1_v8, hbq, row_at, mulf_apply, splat1_at, EReal.coe_mul]; rfl

theorem V1_v6_at (c : Dev nD) (hWk : (m ((c : Thread nD τ).loc main_arg3) : S1024x1024.Idx → EReal) = Cert.Spec.arr2 I.Wk)
    (d f : Fin 1024) :
    (V1 m c main_v6 : S1024x1024.Idx → EReal) (ix2 d f) = ((I.Wk d f : ℝ) : EReal) := by
  rw [V1_v6, hWk, truncf_apply]; rfl

theorem V1_v7_at (c : Dev nD) (hWv : (m ((c : Thread nD τ).loc main_arg5) : S1024x1024.Idx → EReal) = Cert.Spec.arr2 I.Wv)
    (d f : Fin 1024) :
    (V1 m c main_v7 : S1024x1024.Idx → EReal) (ix2 d f) = ((I.Wv d f : ℝ) : EReal) := by
  rw [V1_v7, hWv, truncf_apply]; rfl

theorem V1_v9_at (c : Dev nD) (hbk : (m ((c : Thread nD τ).loc main_arg4) : S1024.Idx → EReal) = Cert.Spec.arr1 I.bk)
    (f : Fin 1024) :
    (V1 m c main_v9 : S1x1024.Idx → EReal) (ix2 (0 : Fin 1) f) = ((I.bk f : ℝ) : EReal) := by
  rw [V1_v9, hbk, row_at]; rfl

theorem V1_v10_at (c : Dev nD) (hbv : (m ((c : Thread nD τ).loc main_arg6) : S1024.Idx → EReal) = Cert.Spec.arr1 I.bv)
    (f : Fin 1024) :
    (V1 m c main_v10 : S1x1024.Idx → EReal) (ix2 (0 : Fin 1) f) = ((I.bv f : ℝ) : EReal) := by
  rw [V1_v10, hbv, row_at]; rfl

end Cert.KernelIdeal.HandValue0

end
-- ==== Proof.LibOnlineSoftmax.lean ====
/-
  The streaming softmax recurrence, read at the ideal instance.

  A row of real scores σ over a key set arrives tile by tile; beside it a column of real values w.  A streaming
  evaluation keeps three numbers: the largest score seen so far (m), the sum of exp (σ i - m) over the keys
  seen so far (l), and the sum of exp (σ i - m) * w i over them (a).  A new tile with largest score m' updates
      m ← max m m',   l ← exp (m - max m m') * l + Σ_tile exp (σ j - max m m'),   a ← likewise with the values,
  starting from (-∞, 0, 0), and the answer is a / l.  This file proves that after any set S of keys has been
  absorbed the three numbers are exactly  max_S σ,  Σ_S exp (σ i - max_S σ),  Σ_S exp (σ i - max_S σ) * w i,
  and that a / l is the softmax-weighted sum  Σ_S (exp (σ i - M) / Σ_S exp (σ - M)) * w i  — the form in which a
  reference that materialises the whole row computes it.

  The facts used: exp (M - M') * exp (x - M) = exp (x - M') (changing the reference point of the partial sums
  multiplies them by one common factor), additivity of a finite sum over a disjoint union, and on the extended
  reals exp (-∞) = 0, so the first tile's factor exp (-∞ - m') annihilates the (zero) initial sums.  Everything is
  stated twice: on ℝ, and for the extended-real operations of the ideal instance applied to real entries
  (subtraction, Ideal.exp, product, sum, maximum, supremum over a tile, Ideal.div), which is how a kernel's
  body and a host program spell them.
-/
import Idealize.ShloMosaic.PureOps.Ideal

noncomputable section

open Idealize.ShloMosaic

namespace Cert.Lib.OnlineSoftmax

variable {J ι : Type*}

/-! ## On the reals -/

/-- The partial normaliser: the sum over the keys in S of exp (σ i - M). -/
def lsum (S : Finset J) (σ : J → ℝ) (M : ℝ) : ℝ := ∑ i ∈ S, Real.exp (σ i - M)

/-- The partial weighted sum: the sum over the keys in S of exp (σ i - M) * w i. -/
def asum (S : Finset J) (σ w : J → ℝ) (M : ℝ) : ℝ := ∑ i ∈ S, Real.exp (σ i - M) * w i

/-- Moving the reference point from M to M' multiplies the normaliser by exp (M - M'). -/
theorem lsum_rebase (S : Finset J) (σ : J → ℝ) (M M' : ℝ) :
    Real.exp (M - M') * lsum S σ M = lsum S σ M' := by
  unfold lsum
  rw [Finset.mul_sum]
  refine Finset.sum_congr rfl fun i _ => ?_
  rw [← Real.exp_add]; congr 1; ring

/-- Moving the reference point from M to M' multiplies the weighted sum by the same factor. -/
theorem asum_rebase (S : Finset J) (σ w : J → ℝ) (M M' : ℝ) :
    Real.exp (M - M') * asum S σ w M = asum S σ w M' := by
  unfold asum
  rw [Finset.mul_sum]
  refine Finset.sum_congr rfl fun i _ => ?_
  rw [← mul_assoc, ← Real.exp_add]; congr 2; ring

theorem lsum_empty (σ : J → ℝ) (M : ℝ) : lsum (∅ : Finset J) σ M = 0 := Finset.sum_empty
theorem asum_empty (σ w : J → ℝ) (M : ℝ) : asum (∅ : Finset J) σ w M = 0 := Finset.sum_empty

theorem lsum_union [DecidableEq J] {S T : Finset J} (h : Disjoint S T) (σ : J → ℝ) (M : ℝ) :
    lsum (S ∪ T) σ M = lsum S σ M + lsum T σ M := Finset.sum_union h

theorem asum_union [DecidableEq J] {S T : Finset J} (h : Disjoint S T) (σ w : J → ℝ) (M : ℝ) :
    asum (S ∪ T) σ w M = asum S σ w M + asum T σ w M := Finset.sum_union h

/-- The normaliser of a nonempty key set is positive, whatever the reference point. -/
theorem lsum_pos {S : Finset J} (hS : S.Nonempty) (σ : J → ℝ) (M : ℝ) : 0 < lsum S σ M :=
  Finset.sum_pos (fun _ _ => Real.exp_pos _) hS

/-- The quotient of the two partial sums is the softmax-weighted sum of the values. -/
theorem quotient_eq_weighted (S : Finset J) (σ w : J → ℝ) (M : ℝ) :
    asum S σ w M / lsum S σ M = ∑ i ∈ S, Real.exp (σ i - M) / lsum S σ M * w i := by
  unfold asum
  rw [Finset.sum_div]
  exact Finset.sum_congr rfl fun i _ => by ring

/-- The quotient does not depend on the reference point (softmax is invariant under a common shift). -/
theorem quotient_rebase {S : Finset J} (σ w : J → ℝ) (M M' : ℝ) :
    asum S σ w M / lsum S σ M = asum S σ w M' / lsum S σ M' := by
  rw [← asum_rebase S σ w M M', ← lsum_rebase S σ M M', mul_div_mul_left _ _ (Real.exp_pos _).ne']

/-- The largest score of a union is the larger of the two largest scores. -/
theorem max_union [DecidableEq J] {S T : Finset J} (hS : S.Nonempty) (hT : T.Nonempty) (σ : J → ℝ) :
    max (S.sup' hS σ) (T.sup' hT σ) = (S ∪ T).sup' (hS.mono Finset.subset_union_left) σ :=
  (Finset.sup'_union hS hT σ).symm

/-! ## On the extended reals, for real entries -/

/-- The coercion of a finite sum of reals is the sum of the coercions. -/
theorem coe_sum {α : Type*} (t : Finset α) (f : α → ℝ) :
    ((∑ a ∈ t, f a : ℝ) : EReal) = ∑ a ∈ t, (f a : EReal) := by
  classical
  induction t using Finset.induction_on with
  | empty => simp
  | insert a t ha ih => rw [Finset.sum_insert ha, Finset.sum_insert ha, EReal.coe_add, ih]

/-- The ideal exponential of a difference of reals. -/
theorem exp_sub_coe (a b : ℝ) : Ideal.exp ((a : EReal) - (b : EReal)) = ((Real.exp (a - b) : ℝ) : EReal) := by
  rw [← EReal.coe_sub]; rfl

/-- From the initial state: exp (-∞ - M) is zero. -/
theorem exp_bot_sub (x : EReal) : Ideal.exp ((⊥ : EReal) - x) = 0 := by
  rw [EReal.bot_sub]; rfl

/-- The supremum over a whole (nonempty) tile of coerced reals is the coercion of their largest. -/
theorem sup_coe [Fintype ι] [Nonempty ι] (s : ι → ℝ) :
    (Finset.univ.sup fun j => (s j : EReal)) = ((Finset.univ.sup' Finset.univ_nonempty s : ℝ) : EReal) := by
  rw [← Finset.sup'_eq_sup Finset.univ_nonempty]
  exact (Finset.comp_sup'_eq_sup'_comp Finset.univ_nonempty (fun x : ℝ => (x : EReal))
    (fun x y => EReal.coe_strictMono.monotone.map_sup x y)).symm

/-- The same through an embedding of the tile into the key set. -/
theorem sup_coe_map [Fintype ι] [Nonempty ι] (e : ι ↪ J) (σ : J → ℝ) :
    (Finset.univ.sup fun j => (σ (e j) : EReal))
      = (((Finset.univ.map e).sup' (Finset.univ_nonempty.map) σ : ℝ) : EReal) := by
  rw [sup_coe (fun j => σ (e j)), Finset.sup'_map]; rfl

/-- The running maximum, first tile: the larger of -∞ and the tile's supremum. -/
theorem max_first [Fintype ι] [Nonempty ι] (e : ι ↪ J) (σ : J → ℝ) :
    max (⊥ : EReal) (Finset.univ.sup fun j => (σ (e j) : EReal))
      = (((Finset.univ.map e).sup' (Finset.univ_nonempty.map) σ : ℝ) : EReal) := by
  rw [sup_coe_map, max_eq_right bot_le]

/-- The running maximum, a later tile. -/
theorem max_next [DecidableEq J] [Fintype ι] [Nonempty ι] {S : Finset J} (hS : S.Nonempty) (e : ι ↪ J) (σ : J → ℝ) :
    max ((S.sup' hS σ : ℝ) : EReal) (Finset.univ.sup fun j => (σ (e j) : EReal))
      = (((S ∪ Finset.univ.map e).sup' (hS.mono Finset.subset_union_left) σ : ℝ) : EReal) := by
  rw [sup_coe_map, ← max_union hS (Finset.univ_nonempty.map) σ]
  exact (EReal.coe_strictMono.monotone.map_max).symm

/-- The tile's own sum of exponentials is the partial normaliser of the tile's keys. -/
theorem tile_lsum [Fintype ι] (e : ι ↪ J) (σ : J → ℝ) (M : ℝ) :
    ∑ j, Ideal.exp ((σ (e j) : EReal) - (M : EReal)) = ((lsum (Finset.univ.map e) σ M : ℝ) : EReal) := by
  rw [lsum, Finset.sum_map, coe_sum]
  exact Finset.sum_congr rfl fun j _ => exp_sub_coe _ _

/-- The tile's own weighted sum is the partial weighted sum of the tile's keys. -/
theorem tile_asum [Fintype ι] (e : ι ↪ J) (σ w : J → ℝ) (M : ℝ) :
    ∑ j, Ideal.exp ((σ (e j) : EReal) - (M : EReal)) * (w (e j) : EReal)
      = ((asum (Finset.univ.map e) σ w M : ℝ) : EReal) := by
  rw [asum, Finset.sum_map, coe_sum]
  exact Finset.sum_congr rfl fun j _ => by rw [exp_sub_coe, EReal.coe_mul]

/-- First tile, the normaliser: from (-∞, 0) the update leaves the tile's partial normaliser. -/
theorem lsum_first [Fintype ι] (e : ι ↪ J) (σ : J → ℝ) (M : ℝ) :
    Ideal.exp ((⊥ : EReal) - (M : EReal)) * 0 + ∑ j, Ideal.exp ((σ (e j) : EReal) - (M : EReal))
      = ((lsum (Finset.univ.map e) σ M : ℝ) : EReal) := by
  rw [mul_zero, zero_add, tile_lsum]

/-- First tile, the weighted sum. -/
theorem asum_first [Fintype ι] (e : ι ↪ J) (σ w : J → ℝ) (M : ℝ) :
    Ideal.exp ((⊥ : EReal) - (M : EReal)) * 0 + ∑ j, Ideal.exp ((σ (e j) : EReal) - (M : EReal)) * (w (e j) : EReal)
      = ((asum (Finset.univ.map e) σ w M : ℝ) : EReal) := by
  rw [mul_zero, zero_add, tile_asum]

/-- A later tile, the normaliser: rescale what was kept to the new reference point and add the tile's share. -/
theorem lsum_next [DecidableEq J] [Fintype ι] (S : Finset J) (e : ι ↪ J) (h : Disjoint S (Finset.univ.map e))
    (σ : J → ℝ) (M M' : ℝ) :
    Ideal.exp ((M : EReal) - (M' : EReal)) * ((lsum S σ M : ℝ) : EReal)
        + ∑ j, Ideal.exp ((σ (e j) : EReal) - (M' : EReal))
      = ((lsum (S ∪ Finset.univ.map e) σ M' : ℝ) : EReal) := by
  rw [lsum_union h, ← lsum_rebase S σ M M', EReal.coe_add, EReal.coe_mul, exp_sub_coe, tile_lsum]

/-- A later tile, the weighted sum. -/
theorem asum_next [DecidableEq J] [Fintype ι] (S : Finset J) (e : ι ↪ J) (h : Disjoint S (Finset.univ.map e))
    (σ w : J → ℝ) (M M' : ℝ) :
    Ideal.exp ((M : EReal) - (M' : EReal)) * ((asum S σ w M : ℝ) : EReal)
        + ∑ j, Ideal.exp ((σ (e j) : EReal) - (M' : EReal)) * (w (e j) : EReal)
      = ((asum (S ∪ Finset.univ.map e) σ w M' : ℝ) : EReal) := by
  rw [asum_union h, ← asum_rebase S σ w M M', EReal.coe_add, EReal.coe_mul, exp_sub_coe, tile_asum]

/-- The closing division: the ideal quotient of the two kept numbers is the softmax-weighted sum. -/
theorem div_eq_weighted {S : Finset J} (hS : S.Nonempty) (σ w : J → ℝ) (M : ℝ) :
    Ideal.div ((asum S σ w M : ℝ) : EReal) ((lsum S σ M : ℝ) : EReal)
      = ((∑ i ∈ S, Real.exp (σ i - M) / lsum S σ M * w i : ℝ) : EReal) := by
  rw [Ideal.div_coe (lsum_pos hS σ M).ne', ← EReal.coe_mul, mul_one_div, quotient_eq_weighted]

/-- The whole-row form: each exponential divided by the normaliser, then the product with the value, summed. -/
theorem weighted_row {S : Finset J} (hS : S.Nonempty) (σ w : J → ℝ) (M : ℝ) :
    ∑ i ∈ S, Ideal.div (Ideal.exp ((σ i : EReal) - (M : EReal))) ((lsum S σ M : ℝ) : EReal) * (w i : EReal)
      = ((∑ i ∈ S, Real.exp (σ i - M) / lsum S σ M * w i : ℝ) : EReal) := by
  rw [coe_sum]
  refine Finset.sum_congr rfl fun i _ => ?_
  rw [exp_sub_coe, Ideal.div_coe (lsum_pos hS σ M).ne', ← EReal.coe_mul, ← EReal.coe_mul, mul_one_div]

/-- Streaming evaluation and whole-row evaluation of one output entry agree. -/
theorem streaming_eq_row {S : Finset J} (hS : S.Nonempty) (σ w : J → ℝ) (M : ℝ) :
    Ideal.div ((asum S σ w M : ℝ) : EReal) ((lsum S σ M : ℝ) : EReal)
      = ∑ i ∈ S, Ideal.div (Ideal.exp ((σ i : EReal) - (M : EReal))) ((lsum S σ M : ℝ) : EReal) * (w i : EReal) :=
  (div_eq_weighted hS σ w M).trans (weighted_row hS σ w M).symm

end Cert.Lib.OnlineSoftmax

end
-- ==== Proof.Region0Value.lean ====
/-
  What the projection region leaves, for real inputs, at the ideal instance.

  The three result arrays are the projections of the arrays the region finds (a product of the flattened input
  with a weight matrix plus a bias row), and those arrays are the host's reshapes, scalings by 1/32 and format
  narrowings of the real inputs.  A finite sum and a product of reals are the same in the extended reals, so row R
  and column f of the three results are the real numbers Qs, K and V of the specification at batch R / 2048 and
  row R % 2048: the query projection with the attention scale folded in, the key projection and the value
  projection.
-/
import proofs.«152240_j4922032521509_2_alg».proof.Proof.Region0ValueArr
import proofs.«152240_j4922032521509_2_alg».proof.Proof.Region0ValueHost
import proofs.«152240_j4922032521509_2_alg».proof.Proof.AttentionSpec
import proofs.«152240_j4922032521509_2_alg».proof.Proof.LibOnlineSoftmax

set_option maxRecDepth 16384

noncomputable section

namespace Cert.KernelIdeal.HandValue0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (I : Cert.Spec.Inputs)

/-- The scaled query projection. -/
theorem region0_Qs (c : Dev nD)
    (hX : (m ((c : Thread nD τ).loc main_arg0) : S4x2048x1024.Idx → EReal) = Cert.Spec.arr3 I.X)
    (hWq : (m ((c : Thread nD τ).loc main_arg1) : S1024x1024.Idx → EReal) = Cert.Spec.arr2 I.Wq)
    (hbq : (m ((c : Thread nD τ).loc main_arg2) : S1024.Idx → EReal) = Cert.Spec.arr1 I.bq)
    (R : Fin 8192) (f : Fin 1024) :
    ((dat0 (V1 m) c).arrAt 7 cfg0.N : S8192x1024.Idx → EReal) (ix2 R f)
      = ((Cert.Spec.Qs I (⟨R.val / 2048, by have := R.isLt; omega⟩ : Fin 4) (⟨R.val % 2048, Nat.mod_lt _ (by decide)⟩ : Fin 2048) f : ℝ) : EReal) := by
  rw [final7, proj_at]
  unfold Cert.Spec.Qs
  rw [zero_add, EReal.coe_add, Cert.Lib.OnlineSoftmax.coe_sum, V1_v8_at m I c hbq]
  congr 1
  refine Finset.sum_congr rfl fun d _ => ?_
  rw [V1_v0_at m I c hX, V1_v5_at m I c hWq, ← EReal.coe_mul]

/-- The key projection. -/
theorem region0_K (c : Dev nD)
    (hX : (m ((c : Thread nD τ).loc main_arg0) : S4x2048x1024.Idx → EReal) = Cert.Spec.arr3 I.X)
    (hWk : (m ((c : Thread nD τ).loc main_arg3) : S1024x1024.Idx → EReal) = Cert.Spec.arr2 I.Wk)
    (hbk : (m ((c : Thread nD τ).loc main_arg4) : S1024.Idx → EReal) = Cert.Spec.arr1 I.bk)
    (R : Fin 8192) (f : Fin 1024) :
    ((dat0 (V1 m) c).arrAt 8 cfg0.N : S8192x1024.Idx → EReal) (ix2 R f)
      = ((Cert.Spec.K I (⟨R.val / 2048, by have := R.isLt; omega⟩ : Fin 4) (⟨R.val % 2048, Nat.mod_lt _ (by decide)⟩ : Fin 2048) f : ℝ) : EReal) := by
  rw [final8, proj_at]
  unfold Cert.Spec.K
  rw [zero_add, EReal.coe_add, Cert.Lib.OnlineSoftmax.coe_sum, V1_v9_at m I c hbk]
  congr 1
  refine Finset.sum_congr rfl fun d _ => ?_
  rw [V1_v0_at m I c hX, V1_v6_at m I c hWk, ← EReal.coe_mul]

/-- The value projection. -/
theorem region0_Vl (c : Dev nD)
    (hX : (m ((c : Thread nD τ).loc main_arg0) : S4x2048x1024.Idx → EReal) = Cert.Spec.arr3 I.X)
    (hWv : (m ((c : Thread nD τ).loc main_arg5) : S1024x1024.Idx → EReal) = Cert.Spec.arr2 I.Wv)
    (hbv : (m ((c : Thread nD τ).loc main_arg6) : S1024.Idx → EReal) = Cert.Spec.arr1 I.bv)
    (R : Fin 8192) (f : Fin 1024) :
    ((dat0 (V1 m) c).arrAt 9 cfg0.N : S8192x1024.Idx → EReal) (ix2 R f)
      = ((Cert.Spec.Vl I (⟨R.val / 2048, by have := R.isLt; omega⟩ : Fin 4) (⟨R.val % 2048, Nat.mod_lt _ (by decide)⟩ : Fin 2048) f : ℝ) : EReal) := by
  rw [final9, proj_at]
  unfold Cert.Spec.Vl
  rw [zero_add, EReal.coe_add, Cert.Lib.OnlineSoftmax.coe_sum, V1_v10_at m I c hbv]
  congr 1
  refine Finset.sum_congr rfl fun d _ => ?_
  rw [V1_v0_at m I c hX, V1_v7_at m I c hWv, ← EReal.coe_mul]

end Cert.KernelIdeal.HandValue0

end
-- ==== Proof.AttnStream.lean ====
/-
  Four key tiles of the streaming softmax, over the reals.

  A row of 2048 real scores σ and a column of 2048 real values w are absorbed in four tiles of 512 keys, key
  number 512 * t + j being lane j of tile t.  One tile's update of the three kept numbers (m, l, a), for a tile
  with extended-real scores s and values v, is
      m' = max m (sup_j s j),   l' = exp (m - m') * l + Σ_j exp (s j - m'),
      a' = exp (m - m') * a + Σ_j exp (s j - m') * v j.
  Starting from (-∞, 0, 0), after the tiles 0, 1, 2, 3 the three numbers
  are the row's largest score M, Σ_k exp (σ k - M) and Σ_k exp (σ k - M) * w k, and a / l is the softmax-weighted
  sum of the values: the attention output entry.
-/
import proofs.«152240_j4922032521509_2_alg».proof.Proof.AttentionSpec
import proofs.«152240_j4922032521509_2_alg».proof.Proof.LibOnlineSoftmax

noncomputable section

open Idealize.ShloMosaic
open Cert.Lib.OnlineSoftmax

namespace Cert.KernelIdeal.HandValue

/-! ## One tile's update, for arbitrary extended-real tile data -/

variable {ι J : Type*} [Fintype ι]

/-- The new running maximum. -/
def updM (m0 : EReal) (s : ι → EReal) : EReal := max m0 (Finset.univ.sup s)

/-- The new normaliser. -/
def updL (m0 l0 : EReal) (s : ι → EReal) : EReal :=
  Ideal.exp (m0 - updM m0 s) * l0 + ∑ j, Ideal.exp (s j - updM m0 s)

/-- The new weighted sum. -/
def updA (m0 a0 : EReal) (s v : ι → EReal) : EReal :=
  Ideal.exp (m0 - updM m0 s) * a0 + ∑ j, Ideal.exp (s j - updM m0 s) * v j

/-- The three kept numbers describe the key set S: its largest score and its two partial sums about it. -/
def Inv (S : Finset J) (hS : S.Nonempty) (σ w : J → ℝ) (M L A : EReal) : Prop :=
  M = ((S.sup' hS σ : ℝ) : EReal) ∧ L = ((lsum S σ (S.sup' hS σ) : ℝ) : EReal)
    ∧ A = ((asum S σ w (S.sup' hS σ) : ℝ) : EReal)

/-- The first tile, from (-∞, 0, 0). -/
theorem upd_first [Nonempty ι] (e : ι ↪ J) (σ w : J → ℝ) :
    Inv (Finset.univ.map e) (Finset.univ_nonempty.map) σ w
      (updM ⊥ fun j => (σ (e j) : EReal))
      (updL ⊥ 0 fun j => (σ (e j) : EReal))
      (updA ⊥ 0 (fun j => (σ (e j) : EReal)) fun j => (w (e j) : EReal)) := by
  have hM : updM ⊥ (fun j => (σ (e j) : EReal))
      = (((Finset.univ.map e).sup' (Finset.univ_nonempty.map) σ : ℝ) : EReal) := max_first e σ
  refine ⟨hM, ?_, ?_⟩
  · simp only [updL, hM]; exact lsum_first e σ _
  · simp only [updA, hM]; exact asum_first e σ w _

/-- A later tile, disjoint from what has been absorbed. -/
theorem upd_next [DecidableEq J] [Nonempty ι] {S : Finset J} {hS : S.Nonempty} (e : ι ↪ J)
    (h : Disjoint S (Finset.univ.map e)) {σ w : J → ℝ} {M L A : EReal} (inv : Inv S hS σ w M L A) :
    Inv (S ∪ Finset.univ.map e) (hS.mono Finset.subset_union_left) σ w
      (updM M fun j => (σ (e j) : EReal))
      (updL M L fun j => (σ (e j) : EReal))
      (updA M A (fun j => (σ (e j) : EReal)) fun j => (w (e j) : EReal)) := by
  obtain ⟨rfl, rfl, rfl⟩ := inv
  have hM : updM ((S.sup' hS σ : ℝ) : EReal) (fun j => (σ (e j) : EReal))
      = (((S ∪ Finset.univ.map e).sup' (hS.mono Finset.subset_union_left) σ : ℝ) : EReal) := max_next hS e σ
  refine ⟨hM, ?_, ?_⟩
  · simp only [updL, hM]; exact lsum_next S e h σ _ _
  · simp only [updA, hM]; exact asum_next S e h σ w _ _

/-! ## The four tiles of 512 keys -/

/-- Lane j of tile t is key 512 * t + j. -/
def tileEmb (t : Fin 4) : Fin 512 ↪ Fin 2048 where
  toFun j := ⟨512 * t.val + j.val, by have := t.isLt; have := j.isLt; omega⟩
  inj' := by
    intro a b h
    have h' := congrArg Fin.val h
    simp only at h'
    exact Fin.ext (by omega)

theorem tileEmb_val (t : Fin 4) (j : Fin 512) : (tileEmb t j).val = 512 * t.val + j.val := rfl

/-- The keys of tile t. -/
theorem mem_tile (t : Fin 4) (x : Fin 2048) :
    x ∈ Finset.univ.map (tileEmb t) ↔ 512 * t.val ≤ x.val ∧ x.val < 512 * t.val + 512 := by
  constructor
  · intro h
    obtain ⟨j, _, rfl⟩ := Finset.mem_map.mp h
    have := j.isLt
    rw [tileEmb_val]
    omega
  · intro ⟨h1, h2⟩
    refine Finset.mem_map.mpr ⟨⟨x.val - 512 * t.val, by omega⟩, Finset.mem_univ _, ?_⟩
    apply Fin.ext
    rw [tileEmb_val]
    simp only
    omega

/-- A real row restricted to tile t, as extended reals. -/
def tileOf (σ : Fin 2048 → ℝ) (t : Fin 4) : Fin 512 → EReal := fun j => (σ (tileEmb t j) : EReal)

variable (σ w : Fin 2048 → ℝ)

/-- The kept numbers after tiles 0, 0–1, 0–2, 0–3. -/
def M1 : EReal := updM ⊥ (tileOf σ 0)
def L1 : EReal := updL ⊥ 0 (tileOf σ 0)
def A1 : EReal := updA ⊥ 0 (tileOf σ 0) (tileOf w 0)
def M2 : EReal := updM (M1 σ) (tileOf σ 1)
def L2 : EReal := updL (M1 σ) (L1 σ) (tileOf σ 1)
def A2 : EReal := updA (M1 σ) (A1 σ w) (tileOf σ 1) (tileOf w 1)
def M3 : EReal := updM (M2 σ) (tileOf σ 2)
def L3 : EReal := updL (M2 σ) (L2 σ) (tileOf σ 2)
def A3 : EReal := updA (M2 σ) (A2 σ w) (tileOf σ 2) (tileOf w 2)
def M4 : EReal := updM (M3 σ) (tileOf σ 3)
def L4 : EReal := updL (M3 σ) (L3 σ) (tileOf σ 3)
def A4 : EReal := updA (M3 σ) (A3 σ w) (tileOf σ 3) (tileOf w 3)

/-- The keys of the tiles 0 .. 3. -/
def keys1 : Finset (Fin 2048) := Finset.univ.map (tileEmb 0)
def keys2 : Finset (Fin 2048) := keys1 ∪ Finset.univ.map (tileEmb 1)
def keys3 : Finset (Fin 2048) := keys2 ∪ Finset.univ.map (tileEmb 2)
def keys4 : Finset (Fin 2048) := keys3 ∪ Finset.univ.map (tileEmb 3)

theorem mem_keys1 (x : Fin 2048) : x ∈ keys1 ↔ x.val < 512 := by
  rw [keys1, mem_tile]; simp
theorem mem_keys2 (x : Fin 2048) : x ∈ keys2 ↔ x.val < 1024 := by
  rw [keys2, Finset.mem_union, mem_keys1, mem_tile]; simp; omega
theorem mem_keys3 (x : Fin 2048) : x ∈ keys3 ↔ x.val < 1536 := by
  rw [keys3, Finset.mem_union, mem_keys2, mem_tile]; simp; omega
theorem keys4_eq : keys4 = Finset.univ := by
  ext x
  rw [keys4, Finset.mem_union, mem_keys3, mem_tile]
  have := x.isLt
  simp; omega

theorem keys1_nonempty : keys1.Nonempty := Finset.univ_nonempty.map
theorem keys2_nonempty : keys2.Nonempty := keys1_nonempty.mono Finset.subset_union_left
theorem keys3_nonempty : keys3.Nonempty := keys2_nonempty.mono Finset.subset_union_left
theorem keys4_nonempty : keys4.Nonempty := keys3_nonempty.mono Finset.subset_union_left

theorem disj2 : Disjoint keys1 (Finset.univ.map (tileEmb 1)) := by
  rw [Finset.disjoint_left]; intro x h1 h2
  rw [mem_keys1] at h1; rw [mem_tile] at h2; simp at h2; omega
theorem disj3 : Disjoint keys2 (Finset.univ.map (tileEmb 2)) := by
  rw [Finset.disjoint_left]; intro x h1 h2
  rw [mem_keys2] at h1; rw [mem_tile] at h2; simp at h2; omega
theorem disj4 : Disjoint keys3 (Finset.univ.map (tileEmb 3)) := by
  rw [Finset.disjoint_left]; intro x h1 h2
  rw [mem_keys3] at h1; rw [mem_tile] at h2; simp at h2; omega

theorem inv1 : Inv keys1 keys1_nonempty σ w (M1 σ) (L1 σ) (A1 σ w) := upd_first (tileEmb 0) σ w
theorem inv2 : Inv keys2 keys2_nonempty σ w (M2 σ) (L2 σ) (A2 σ w) := upd_next (tileEmb 1) disj2 (inv1 σ w)
theorem inv3 : Inv keys3 keys3_nonempty σ w (M3 σ) (L3 σ) (A3 σ w) := upd_next (tileEmb 2) disj3 (inv2 σ w)
theorem inv4 : Inv keys4 keys4_nonempty σ w (M4 σ) (L4 σ) (A4 σ w) := upd_next (tileEmb 3) disj4 (inv3 σ w)

/-- A description of the whole key set. -/
theorem inv_univ {S : Finset (Fin 2048)} {hS : S.Nonempty} (h : S = Finset.univ) {M L A : EReal}
    (inv : Inv S hS σ w M L A) : Inv Finset.univ Finset.univ_nonempty σ w M L A := by
  subst h; exact inv

/-- After the fourth tile the kept numbers are the row's largest score and its two sums. -/
theorem inv_all : Inv Finset.univ Finset.univ_nonempty σ w (M4 σ) (L4 σ) (A4 σ w) :=
  inv_univ σ w keys4_eq (inv4 σ w)

/-- The four-tile theorem: the quotient of the kept sums is the softmax-weighted sum of the values. -/
theorem four_tiles :
    Ideal.div (A4 σ w) (L4 σ)
      = ((∑ k : Fin 2048, Real.exp (σ k - Finset.univ.sup' Finset.univ_nonempty σ)
            / (∑ k' : Fin 2048, Real.exp (σ k' - Finset.univ.sup' Finset.univ_nonempty σ)) * w k : ℝ) : EReal) := by
  obtain ⟨_, hL, hA⟩ := inv_all σ w
  rw [hL, hA]
  exact div_eq_weighted Finset.univ_nonempty σ w _

/-- With the streaming program's scores and the value projection: the attention output entry. -/
theorem four_tiles_out (I : Cert.Spec.Inputs) (b : Fin 4) (q : Fin 2048) (f : Fin 1024) :
    Ideal.div (A4 (Cert.Spec.scoreK I b q) fun k => Cert.Spec.Vl I b k f) (L4 (Cert.Spec.scoreK I b q))
      = ((Cert.Spec.out I b q f : ℝ) : EReal) := by
  rw [four_tiles]
  have hs : Cert.Spec.scoreK I b q = Cert.Spec.score I b q := funext (Cert.Spec.scoreK_eq I b q)
  rw [hs]
  rfl

end Cert.KernelIdeal.HandValue

end
-- ==== Proof.LibHostRowMax.lean ====
/-
  The host's maximum over one axis, read at the ideal instance.

  A reference that normalises a row of scores first takes the row's largest entry with a host reduction whose
  body is the maximum and whose initial value is the f32 word of -∞.  At the ideal instance that word is the
  bottom of the extended reals, the body is the lattice's maximum, and the reduction over ONE axis, read at a
  reduced index j, is the supremum over that axis's coordinates k of the operand at "j with k put back"
  (Shape.Reduces.lift).  Stated for any shapes; a certificate instantiates it at its literal ones and rewrites
  the lifted index into coordinates.
-/
import Idealize.ShloMosaic.PureOps.Ideal.Laws
import Idealize.ShloMosaic.PureOps.Reduce

noncomputable section

open Idealize.ShloMosaic

namespace Cert.Lib.HostRowMax

/-- The f32 word 0xFF800000 denotes -∞, the bottom of the extended reals. -/
theorem ofBits_negInf : Ideal.ofBits .f32 0xFF800000#32 = (⊥ : EReal) := by
  simp [Ideal.ofBits, Ideal.ieee]

/-- Folding the maximum from the bottom over a finite set is the supremum over it. -/
theorem fold_max_bot {β : Type*} (T : Finset β) (f : β → EReal) : T.fold max (⊥ : EReal) f = T.sup f := by
  classical
  induction T using Finset.induction_on with
  | empty => simp
  | insert b T hb ih => rw [Finset.fold_insert hb, Finset.sup_insert, ih]

/-- From -∞ the host's reduction with a maximum body over one axis, at the reduced index j, is the supremum over
    that axis of the operand. -/
theorem hostReduce_max {s t u : Shape} {a : Fin s.rank} (x : FVec Ideal s .f32) (h' : s.ReducesTo [a] t)
    (h : s.Reduces [a] t) (hu : 0 < u.numel) (j : t.Idx) :
    Host.reduce FloatOps.maximumf x (constant u .f32 0xFF800000#32) h' hu j
      = Finset.univ.sup fun k : Fin (s.size a) => x (h.lift j k) := by
  rw [Host.reduce_eq_fold_single FloatOps.maximumf x _ h' h hu]
  have hi : (constant (F := Ideal) u .f32 0xFF800000#32) (Shape.Idx.first hu) = (⊥ : EReal) := ofBits_negInf
  rw [hi]
  exact fold_max_bot Finset.univ (x ∘ h.lift j)

end Cert.Lib.HostRowMax

end
-- ==== Proof.AttnTile.lean ====
/-
  One key tile of the streaming attention body, read at an index, at the ideal instance.

  For arbitrary extended-real blocks (nothing is assumed finite): the query block q [1, 1024, 1024], one key block k
  and one value block v [1, 512, 1024], the kept columns m0, l0 [1024, 1] and the kept rows a0 [1024, 1024].  With
      sc q k r j = Σ_d q (0, r, d) * k (0, j, d)
  the score of query row r against key row j of the tile (the product of q with the transpose of k into a zero
  accumulator is this bare sum), the step functions read, at row r and feature f,
      stepM q k m0 (r, 0)      = max (m0 (r, 0)) (sup_j sc q k r j),
      stepL q k m0 l0 (r, 0)   = exp (m0 (r, 0) - m') * l0 (r, 0) + Σ_j exp (sc q k r j - m'),
      stepA q k v m0 a0 (r, f) = exp (m0 (r, 0) - m') * a0 (r, f) + Σ_j exp (sc q k r j - m') * v (0, j, f),
  m' the new maximum of row r, and outO a l (0, r, f) = a (r, f) / l (r, 0); the initial arrays are -∞, 0 and 0.
  The right-hand sides are written with the one-tile update updM, updL, updA of the four-tile theorem.

  Each operation that is not pointwise is read at an index by one lemma: the two products (the sum over the
  contraction coordinate, the operand indices computed coordinate by coordinate), the lane maximum from the word of
  -∞ (a supremum) and the lane sum from the zero word (a sum), the vector [1024] viewed as a column, the column
  broadcast along lanes or features, the transpose, and the casts that drop or add the leading unit axis.  The
  narrowing of the exponentials to the product's operand format is the identity at this instance.
-/
import proofs.«152240_j4922032521509_2_alg».proof.Proof.AttnStepIdeal
import proofs.«152240_j4922032521509_2_alg».proof.Proof.AttnStream
import proofs.«152240_j4922032521509_2_alg».proof.Proof.LibHostRowMax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.ValueIdx

/-! ## The score block -/

/-- Lane j of the score block: the query row r against key row j of the tile. -/
def sc (q : Vec Ideal S1x1024x1024 .bf16) (k : Vec Ideal S1x512x1024 .bf16) (r : Fin 1024) (j : Fin 512) : EReal :=
  ∑ d : Fin 1024, q (ix3 0 r d) * k (ix3 0 j d)

theorem lhsA_0 (i : S1024x512.Idx) (c : dot_S1024x1024_S1024x512_S1024x512_1_0_0_1_n_n.contr.Idx) :
    (dot_S1024x1024_S1024x512_S1024x512_1_0_0_1_n_n.lhsIdx i c 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem lhsA_1 (i : S1024x512.Idx) (c : dot_S1024x1024_S1024x512_S1024x512_1_0_0_1_n_n.contr.Idx) :
    (dot_S1024x1024_S1024x512_S1024x512_1_0_0_1_n_n.lhsIdx i c 1).val = (c ⟨0, by decide⟩).val :=
  dot_S1024x1024_S1024x512_S1024x512_1_0_0_1_n_n.lhsIdx_val_of_single rfl i c
theorem rhsA_0 (i : S1024x512.Idx) (c : dot_S1024x1024_S1024x512_S1024x512_1_0_0_1_n_n.contr.Idx) :
    (dot_S1024x1024_S1024x512_S1024x512_1_0_0_1_n_n.rhsIdx i c 0).val = (c ⟨0, by decide⟩).val :=
  dot_S1024x1024_S1024x512_S1024x512_1_0_0_1_n_n.rhsIdx_val_of_single rfl i c
theorem rhsA_1 (i : S1024x512.Idx) (c : dot_S1024x1024_S1024x512_S1024x512_1_0_0_1_n_n.contr.Idx) :
    (dot_S1024x1024_S1024x512_S1024x512_1_0_0_1_n_n.rhsIdx i c 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The score block at (r, j). -/
theorem pay8_apply (q : Vec Ideal S1x1024x1024 .bf16) (k : Vec Ideal S1x512x1024 .bf16) (r : Fin 1024) (j : Fin 512) :
    k1_pay8 (F := Ideal) q k (ix2 r j) = sc q k r j := by
  unfold k1_pay8 sc
  refine (Ideal.matmul_constant_zero_apply dot_S1024x1024_S1024x512_S1024x512_1_0_0_1_n_n none _ _ (ix2 r j)).trans ?_
  rw [← Equiv.sum_comp (ValueIdx.contrEquiv1 dot_S1024x1024_S1024x512_S1024x512_1_0_0_1_n_n 1024 rfl rfl).symm]
  refine Finset.sum_congr rfl fun d _ => ?_
  have hd := ValueIdx.contrEquiv1_symm_val dot_S1024x1024_S1024x512_S1024x512_1_0_0_1_n_n 1024 rfl rfl d
  have el : dot_S1024x1024_S1024x512_S1024x512_1_0_0_1_n_n.lhsIdx (ix2 r j)
      ((ValueIdx.contrEquiv1 dot_S1024x1024_S1024x512_S1024x512_1_0_0_1_n_n 1024 rfl rfl).symm d) = ix2 r d :=
    funext fun a => Fin.ext (by
      match a with
      | ⟨0, _⟩ => exact lhsA_0 _ _
      | ⟨1, _⟩ => exact (lhsA_1 _ _).trans hd)
  have er : dot_S1024x1024_S1024x512_S1024x512_1_0_0_1_n_n.rhsIdx (ix2 r j)
      ((ValueIdx.contrEquiv1 dot_S1024x1024_S1024x512_S1024x512_1_0_0_1_n_n 1024 rfl rfl).symm d) = ix2 d j :=
    funext fun a => Fin.ext (by
      match a with
      | ⟨0, _⟩ => exact (rhsA_0 _ _).trans hd
      | ⟨1, _⟩ => exact rhsA_1 _ _)
  rw [el, er, shapeCast_1ab_ab_apply, transpose_ix2_apply, shapeCast_1ab_ab_apply]

/-! ## The non-pointwise operations of the body, read at an index -/

/-- The reduced index r with lane j put back is (r, j). -/
theorem lift_row (r : Fin 1024) (j : Fin 512) :
    (reduces_S1024x512_S1024 : S1024x512.Reduces [1] S1024).lift (ix1 r) j = ix2 r j :=
  funext fun a => Fin.ext (by
    match a with
    | ⟨0, _⟩ => rfl
    | ⟨1, _⟩ => rfl)

/-- A vector [1024] viewed as a column [1024, 1] reads, at (r, 0), the vector at r. -/
theorem col_apply {α : Type} (x : S1024.Idx → α) (r : Fin 1024) (u : Fin 1) :
    shapeCast S1024x1 x shapeCasts_S1024_S1024x1 (ix2 r u) = x (ix1 r) :=
  shapeCast_apply x _ _ _ (by
    have hu : u.val = 0 := by omega
    rw [Shape.rowMajor_val_one, Shape.rowMajor_val_two]
    show r.val = r.val * 1 + u.val
    omega)

/-- The lane maximum from the word of -∞, as a column: the supremum over the 512 lanes. -/
theorem rowMax_apply (x : FVec Ideal S1024x512 .f32) (r : Fin 1024) (u : Fin 1) :
    shapeCast S1024x1 (multiReduction (F := Ideal) .maximumf [1] S1024 x 0xFF800000#32 reduces_S1024x512_S1024 (.inl rfl) rfl)
        shapeCasts_S1024_S1024x1 (ix2 r u)
      = Finset.univ.sup fun j : Fin 512 => x (ix2 r j) := by
  rw [col_apply]
  refine (Ideal.multiReduction_maximumf_single x _ reduces_S1024x512_S1024 _ _ (ix1 r)).trans ?_
  have h0 : (FloatOps.ofBits (F := Ideal) .f32 0xFF800000#32) = (⊥ : EReal) := Cert.Lib.HostRowMax.ofBits_negInf
  rw [h0]
  refine (Cert.Lib.HostRowMax.fold_max_bot Finset.univ _).trans ?_
  exact Finset.sup_congr rfl fun j _ => congrArg x (lift_row r j)

/-- The lane sum from the zero word, as a column: the sum over the 512 lanes. -/
theorem rowSum_apply (x : FVec Ideal S1024x512 .f32) (r : Fin 1024) (u : Fin 1) :
    shapeCast S1024x1 (multiReduction (F := Ideal) .add [1] S1024 x 0x00000000#32 reduces_S1024x512_S1024 (.inl rfl) rfl)
        shapeCasts_S1024_S1024x1 (ix2 r u)
      = ∑ j : Fin 512, x (ix2 r j) := by
  rw [col_apply]
  refine (Ideal.multiReduction_add_single x _ reduces_S1024x512_S1024 _ _ (ix1 r)).trans ?_
  exact Finset.sum_congr rfl fun j _ => congrArg x (lift_row r j)

/-- A column broadcast along the 512 lanes. -/
theorem bcast512_apply {α : Type} (x : S1024x1.Idx → α) (r : Fin 1024) (j : Fin 512) :
    broadcastTo S1024x512 x broadcasts_S1024x1_S1024x512 (ix2 r j) = x (ix2 r 0) :=
  broadcastTo_apply x _ _ _ fun a => by
    match a with
    | ⟨0, _⟩ => rfl
    | ⟨1, _⟩ => rfl

/-- A column broadcast along the 1024 features. -/
theorem bcast1024_apply {α : Type} (x : S1024x1.Idx → α) (r : Fin 1024) (f : Fin 1024) :
    broadcastTo S1024x1024 x broadcasts_S1024x1_S1024x1024 (ix2 r f) = x (ix2 r 0) :=
  broadcastTo_apply x _ _ _ fun a => by
    match a with
    | ⟨0, _⟩ => rfl
    | ⟨1, _⟩ => rfl

/-! ## The product with the value block -/

theorem lhsB_0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem lhsB_1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem rhsB_0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem rhsB_1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of a [1024, 512] block with a [512, 1024] block into the zero accumulator, at (r, f): the sum over the
    512 lanes. -/
theorem matmulB_apply (x : FVec Ideal S1024x512 .bf16) (y : FVec Ideal S512x1024 .bf16) (r f : Fin 1024) :
    matmul (F := Ideal) dot_S1024x512_S512x1024_S1024x1024_1_0_0_1_n_n none x y (constant S1024x1024 .f32 0x00000000#32) (ix2 r f)
      = ∑ j : Fin 512, x (ix2 r j) * y (ix2 j f) := by
  refine (Ideal.matmul_constant_zero_apply dot_S1024x512_S512x1024_S1024x1024_1_0_0_1_n_n none _ _ (ix2 r f)).trans ?_
  rw [← Equiv.sum_comp (ValueIdx.contrEquiv1 dot_S1024x512_S512x1024_S1024x1024_1_0_0_1_n_n 512 rfl rfl).symm]
  refine Finset.sum_congr rfl fun j _ => ?_
  have hj := ValueIdx.contrEquiv1_symm_val dot_S1024x512_S512x1024_S1024x1024_1_0_0_1_n_n 512 rfl rfl j
  have el : dot_S1024x512_S512x1024_S1024x1024_1_0_0_1_n_n.lhsIdx (ix2 r f)
      ((ValueIdx.contrEquiv1 dot_S1024x512_S512x1024_S1024x1024_1_0_0_1_n_n 512 rfl rfl).symm j) = ix2 r j :=
    funext fun a => Fin.ext (by
      match a with
      | ⟨0, _⟩ => exact lhsB_0 _ _
      | ⟨1, _⟩ => exact (lhsB_1 _ _).trans hj)
  have er : dot_S1024x512_S512x1024_S1024x1024_1_0_0_1_n_n.rhsIdx (ix2 r f)
      ((ValueIdx.contrEquiv1 dot_S1024x512_S512x1024_S1024x1024_1_0_0_1_n_n 512 rfl rfl).symm j) = ix2 j f :=
    funext fun a => Fin.ext (by
      match a with
      | ⟨0, _⟩ => exact (rhsB_0 _ _).trans hj
      | ⟨1, _⟩ => exact rhsB_1 _ _)
  rw [el, er]

/-! ## The step functions at an index -/

variable (q : Vec Ideal S1x1024x1024 .bf16) (k v : Vec Ideal S1x512x1024 .bf16)
  (m0 l0 : Vec Ideal S1024x1 .f32) (a0 : Vec Ideal S1024x1024 .f32)

/-- The stored running maximum is the body's maximum: the closing cast is to the same shape. -/
theorem stepM_eq : stepM q k m0 = k1_pay9 (F := Ideal) q k m0 := by
  unfold stepM k1_pay2
  exact shapeCast_self _ _

/-- The new running maximum of row r. -/
theorem stepM_apply (r : Fin 1024) :
    stepM q k m0 (ix2 r 0) = updM (m0 (ix2 r 0)) (sc q k r) := by
  rw [stepM_eq]
  unfold k1_pay9 updM
  refine (maximumf_apply _ _ _).trans ?_
  refine congrArg (max (m0 (ix2 r 0))) ?_
  refine (rowMax_apply _ r 0).trans ?_
  exact Finset.sup_congr rfl fun j _ => pay8_apply q k r j

/-- The rescaling factor of row r: exp (old maximum - new maximum). -/
theorem pay10_apply (m1 : Vec Ideal S1024x1 .f32) (r : Fin 1024) :
    k1_pay10 (F := Ideal) q k m0 m1 (ix2 r 0) = Ideal.exp (m1 (ix2 r 0) - stepM q k m0 (ix2 r 0)) := by
  rw [stepM_eq]
  rfl

/-- The tile's exponentials: exp (score - new maximum). -/
theorem pay11_apply (r : Fin 1024) (j : Fin 512) :
    k1_pay11 (F := Ideal) q k m0 (ix2 r j) = Ideal.exp (sc q k r j - stepM q k m0 (ix2 r 0)) := by
  rw [stepM_eq]
  unfold k1_pay11
  show Ideal.exp (k1_pay8 (F := Ideal) q k (ix2 r j)
      - broadcastTo S1024x512 (k1_pay9 (F := Ideal) q k m0) broadcasts_S1024x1_S1024x512 (ix2 r j)) = _
  rw [pay8_apply, bcast512_apply]

/-- The new normaliser of row r. -/
theorem stepL_apply (r : Fin 1024) :
    stepL q k m0 l0 (ix2 r 0) = updL (m0 (ix2 r 0)) (l0 (ix2 r 0)) (sc q k r) := by
  unfold stepL k1_pay12 updL
  rw [shapeCast_self]
  refine (addf_apply _ _ _).trans ?_
  rw [← stepM_apply q k m0 r]
  refine congrArg₂ (· + ·) ?_ ?_
  · refine (mulf_apply _ _ _).trans ?_
    rw [pay10_apply]
  · refine (rowSum_apply _ r 0).trans ?_
    exact Finset.sum_congr rfl fun j _ => pay11_apply q k m0 r j

/-- The new unnormalised output entry (r, f). -/
theorem stepA_apply (r f : Fin 1024) :
    stepA q k v m0 a0 (ix2 r f)
      = updA (m0 (ix2 r 0)) (a0 (ix2 r f)) (sc q k r) (fun j => v (ix3 0 j f)) := by
  unfold stepA k1_pay1 updA
  rw [shapeCast_self]
  refine (addf_apply _ _ _).trans ?_
  rw [← stepM_apply q k m0 r]
  refine congrArg₂ (· + ·) ?_ ?_
  · refine (mulf_apply _ _ _).trans ?_
    unfold k1_pay13
    rw [bcast1024_apply, pay10_apply]
  · refine (matmulB_apply _ _ r f).trans ?_
    refine Finset.sum_congr rfl fun j _ => ?_
    refine congrArg₂ (· * ·) ?_ ?_
    · exact pay11_apply q k m0 r j
    · unfold k1_pay7
      exact shapeCast_1ab_ab_apply _ _ _ _

/-- The output block: the unnormalised rows divided by the normaliser. -/
theorem outO_apply (a : Vec Ideal S1024x1024 .f32) (l : Vec Ideal S1024x1 .f32) (u : Fin 1) (r f : Fin 1024) :
    outO a l (ix3 u r f) = Ideal.div (a (ix2 r f)) (l (ix2 r 0)) := by
  unfold outO k1_pay3
  rw [shapeCast_ab_1ab_apply]
  refine (divf_apply _ _ _).trans ?_
  rw [bcast1024_apply]

/-- The kept arrays before the first tile: -∞, 0, 0. -/
theorem initM_apply (i : S1024x1.Idx) : initM (F := Ideal) i = (⊥ : EReal) := by
  unfold initM k1_pay4
  rw [shapeCast_self]
  exact Cert.Lib.HostRowMax.ofBits_negInf

theorem initL_apply (i : S1024x1.Idx) : initL (F := Ideal) i = (0 : EReal) := by
  unfold initL k1_pay5
  rw [shapeCast_self]
  exact Ideal.ofBits_zero_f32

theorem initA_apply (i : S1024x1024.Idx) : initA (F := Ideal) i = (0 : EReal) := by
  unfold initA k1_pay6
  rw [shapeCast_self]
  exact Ideal.ofBits_zero_f32

end Cert.KernelIdeal.HandValue

end
-- ==== Proof.AttnStreamRun.lean ====
/-
  Four key tiles of the streaming attention body, composed: from the step functions to the attention output.

  The body's kept arrays after the key tiles 0, 0–1, 0–2, 0–3 are named by composing the step functions from the
  initial arrays, for the query block Q t the body reads at tile t (the same rows of the query projection at each of
  the four tiles, though nothing here needs that) and four key blocks K t and value blocks V t.  If, in query row r,
  the score of Q t against key row j of tile t is the real number σ (512 t + j), and the value block's entry (j, f) of tile t is
  the real number w (512 t + j), then the kept numbers of row r are those of the four-tile theorem, and the output
  block's entry (r, f), the quotient a / l after the fourth tile, is the softmax-weighted sum of w under the scores σ.
-/
import proofs.«152240_j4922032521509_2_alg».proof.Proof.AttnTile

noncomputable section

namespace Cert.KernelIdeal.HandValue

open Cert.KernelIdeal Cert.KernelIdeal.Gen Cert.KernelIdeal.Hand
open Idealize.ShloMosaic Idealize.ShloMosaic.ValueIdx

variable (Q : Fin 4 → Vec Ideal S1x1024x1024 .bf16) (K V : Fin 4 → Vec Ideal S1x512x1024 .bf16)

/-- The kept arrays after the tiles 0, 0–1, 0–2, 0–3. -/
def kM1 : Vec Ideal S1024x1 .f32 := stepM (Q 0) (K 0) initM
def kL1 : Vec Ideal S1024x1 .f32 := stepL (Q 0) (K 0) initM initL
def kA1 : Vec Ideal S1024x1024 .f32 := stepA (Q 0) (K 0) (V 0) initM initA
def kM2 : Vec Ideal S1024x1 .f32 := stepM (Q 1) (K 1) (kM1 Q K)
def kL2 : Vec Ideal S1024x1 .f32 := stepL (Q 1) (K 1) (kM1 Q K) (kL1 Q K)
def kA2 : Vec Ideal S1024x1024 .f32 := stepA (Q 1) (K 1) (V 1) (kM1 Q K) (kA1 Q K V)
def kM3 : Vec Ideal S1024x1 .f32 := stepM (Q 2) (K 2) (kM2 Q K)
def kL3 : Vec Ideal S1024x1 .f32 := stepL (Q 2) (K 2) (kM2 Q K) (kL2 Q K)
def kA3 : Vec Ideal S1024x1024 .f32 := stepA (Q 2) (K 2) (V 2) (kM2 Q K) (kA2 Q K V)
def kM4 : Vec Ideal S1024x1 .f32 := stepM (Q 3) (K 3) (kM3 Q K)
def kL4 : Vec Ideal S1024x1 .f32 := stepL (Q 3) (K 3) (kM3 Q K) (kL3 Q K)
def kA4 : Vec Ideal S1024x1024 .f32 := stepA (Q 3) (K 3) (V 3) (kM3 Q K) (kA3 Q K V)

/-- The output block written at the last tile. -/
def kOut : Vec Ideal S1x1024x1024 .f32 := outO (kA4 Q K V) (kL4 Q K)

variable {Q K V}
variable {σ w : Fin 2048 → ℝ} {r f : Fin 1024}

section
variable (hs : ∀ t j, sc (Q t) (K t) r j = (σ (tileEmb t j) : EReal))
include hs

theorem sc_tile (t : Fin 4) : sc (Q t) (K t) r = tileOf σ t := funext fun j => hs t j

theorem kM1_apply : kM1 Q K (ix2 r 0) = M1 σ := by
  unfold kM1 M1; rw [stepM_apply, initM_apply, sc_tile hs]
theorem kM2_apply : kM2 Q K (ix2 r 0) = M2 σ := by
  unfold kM2 M2; rw [stepM_apply, kM1_apply hs, sc_tile hs]
theorem kM3_apply : kM3 Q K (ix2 r 0) = M3 σ := by
  unfold kM3 M3; rw [stepM_apply, kM2_apply hs, sc_tile hs]
theorem kM4_apply : kM4 Q K (ix2 r 0) = M4 σ := by
  unfold kM4 M4; rw [stepM_apply, kM3_apply hs, sc_tile hs]

theorem kL1_apply : kL1 Q K (ix2 r 0) = L1 σ := by
  unfold kL1 L1; rw [stepL_apply, initM_apply, initL_apply, sc_tile hs]
theorem kL2_apply : kL2 Q K (ix2 r 0) = L2 σ := by
  unfold kL2 L2; rw [stepL_apply, kM1_apply hs, kL1_apply hs, sc_tile hs]
theorem kL3_apply : kL3 Q K (ix2 r 0) = L3 σ := by
  unfold kL3 L3; rw [stepL_apply, kM2_apply hs, kL2_apply hs, sc_tile hs]
theorem kL4_apply : kL4 Q K (ix2 r 0) = L4 σ := by
  unfold kL4 L4; rw [stepL_apply, kM3_apply hs, kL3_apply hs, sc_tile hs]

variable (hv : ∀ t j, V t (ix3 0 j f) = (w (tileEmb t j) : EReal))
include hv

theorem v_tile (t : Fin 4) : (fun j => V t (ix3 0 j f)) = tileOf w t := funext fun j => hv t j

theorem kA1_apply : kA1 Q K V (ix2 r f) = A1 σ w := by
  unfold kA1 A1; rw [stepA_apply, initM_apply, initA_apply, sc_tile hs, v_tile hs hv]
theorem kA2_apply : kA2 Q K V (ix2 r f) = A2 σ w := by
  unfold kA2 A2; rw [stepA_apply, kM1_apply hs, kA1_apply hs hv, sc_tile hs, v_tile hs hv]
theorem kA3_apply : kA3 Q K V (ix2 r f) = A3 σ w := by
  unfold kA3 A3; rw [stepA_apply, kM2_apply hs, kA2_apply hs hv, sc_tile hs, v_tile hs hv]
theorem kA4_apply : kA4 Q K V (ix2 r f) = A4 σ w := by
  unfold kA4 A4; rw [stepA_apply, kM3_apply hs, kA3_apply hs hv, sc_tile hs, v_tile hs hv]

/-- The output block's entry (r, f) is the softmax-weighted sum of the values. -/
theorem kOut_apply (u : Fin 1) :
    kOut Q K V (ix3 u r f)
      = ((∑ k : Fin 2048, Real.exp (σ k - Finset.univ.sup' Finset.univ_nonempty σ)
            / (∑ k' : Fin 2048, Real.exp (σ k' - Finset.univ.sup' Finset.univ_nonempty σ)) * w k : ℝ) : EReal) := by
  unfold kOut
  rw [outO_apply, kA4_apply hs hv, kL4_apply hs, four_tiles]

end

/-- With the streaming program's scores and the value projection: the attention output entry. -/
theorem kOut_apply_out (I : Cert.Spec.Inputs) (b : Fin 4) (qr : Fin 2048) (u : Fin 1)
    (hs : ∀ t j, sc (Q t) (K t) r j = ((Cert.Spec.scoreK I b qr (tileEmb t j) : ℝ) : EReal))
    (hv : ∀ t j, V t (ix3 0 j f) = ((Cert.Spec.Vl I b (tileEmb t j) f : ℝ) : EReal)) :
    kOut Q K V (ix3 u r f) = ((Cert.Spec.out I b qr f : ℝ) : EReal) := by
  unfold kOut
  rw [outO_apply, kA4_apply (σ := Cert.Spec.scoreK I b qr) (w := fun k => Cert.Spec.Vl I b k f) hs hv,
    kL4_apply hs, four_tiles_out]

end Cert.KernelIdeal.HandValue

end
-- ==== Proof.AttnTileReal.lean ====
/-
  The score of real-valued blocks.

  If row r of the query block holds the real numbers a d and row j of the key block the real numbers b d (as extended
  reals), the score of the two rows is the real number Σ_d a d * b d: a finite sum of products of reals stays real.
  With the scaled query projection and the key projection of the specification it is the streaming program's score.
-/
import proofs.«152240_j4922032521509_2_alg».proof.Proof.AttnTile

noncomputable section

namespace Cert.KernelIdeal.HandValue

open Cert.KernelIdeal Cert.KernelIdeal.Gen Cert.KernelIdeal.Hand
open Idealize.ShloMosaic Idealize.ShloMosaic.ValueIdx

/-- The score of two real rows is the real sum of products. -/
theorem sc_coe (q : Vec Ideal S1x1024x1024 .bf16) (k : Vec Ideal S1x512x1024 .bf16) (r : Fin 1024) (j : Fin 512)
    (a b : Fin 1024 → ℝ) (hq : ∀ d, q (ix3 0 r d) = ((a d : ℝ) : EReal)) (hk : ∀ d, k (ix3 0 j d) = ((b d : ℝ) : EReal)) :
    sc q k r j = ((∑ d, a d * b d : ℝ) : EReal) := by
  unfold sc
  rw [Cert.Lib.OnlineSoftmax.coe_sum]
  exact Finset.sum_congr rfl fun d _ => by rw [hq d, hk d, EReal.coe_mul]

/-- With the scaled query projection in row r and the key projection in row j: the streaming program's score. -/
theorem sc_scoreK (I : Cert.Spec.Inputs) (b : Fin 4) (qr kr : Fin 2048)
    (q : Vec Ideal S1x1024x1024 .bf16) (k : Vec Ideal S1x512x1024 .bf16) (r : Fin 1024) (j : Fin 512)
    (hq : ∀ d, q (ix3 0 r d) = ((Cert.Spec.Qs I b qr d : ℝ) : EReal))
    (hk : ∀ d, k (ix3 0 j d) = ((Cert.Spec.K I b kr d : ℝ) : EReal)) :
    sc q k r j = ((Cert.Spec.scoreK I b qr kr : ℝ) : EReal) :=
  sc_coe q k r j _ _ hq hk

end Cert.KernelIdeal.HandValue

end
-- ==== Proof.AttnOutput.lean ====
/-
  From the attention region's blocks to its result array, at the ideal instance.

  The region's grid has 32 points.  Point t works on batch (t / 4) / 2, on the query rows 1024·((t / 4) % 2) … of
  that batch and on the key rows 512·(t % 4) … : the four points 4g, …, 4g + 3 stream the four key tiles past one
  block of 1024 query rows, and only the last of them writes the output block back.  What the kept arrays hold at
  that last point is therefore the four-tile composition of the step functions over the blocks read at the four
  points, and the block written back is its quotient.  If the three arrays the region reads are the scaled query
  projection, the key projection and the value projection of real inputs, then by the four-tile theorem every
  entry (r, f) of that block is the attention output at (batch, query row, f).  Batch b and query row s are covered
  by the point 8·b + 4·(s / 1024) + 3, so the result array after the region is the attention output everywhere.
-/
import proofs.«152240_j4922032521509_2_alg».proof.Proof.Region1Ideal
import proofs.«152240_j4922032521509_2_alg».proof.Proof.AttnStreamRun
import proofs.«152240_j4922032521509_2_alg».proof.Proof.AttnTileReal
import proofs.«152240_j4922032521509_2_alg».proof.Proof.AttentionSpec
import Idealize.ShloMosaic.Lib.Pipeline.Value
import Idealize.ShloMosaic.Lib.ValueIdx

set_option maxRecDepth 16384

noncomputable section

namespace Cert.KernelIdeal.HandValue1

open Cert.KernelIdeal Cert.KernelIdeal.Gen Cert.KernelIdeal.Hand Cert.KernelIdeal.HandValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: batch (t / 4) / 2 on the leading axis; the query and output windows take
    row block (t / 4) % 2, the key and value windows row block t % 4; the feature axis is one block. -/
theorem idx_facts1 : ∀ t : Fin cfg1.N,
    win1_0.index t (0 : Fin 3) = t.val / 4 / 2 ∧ win1_0.index t (1 : Fin 3) = t.val / 4 % 2 ∧ win1_0.index t (2 : Fin 3) = 0
    ∧ win1_1.index t (0 : Fin 3) = t.val / 4 / 2 ∧ win1_1.index t (1 : Fin 3) = t.val % 4 ∧ win1_1.index t (2 : Fin 3) = 0
    ∧ win1_2.index t (0 : Fin 3) = t.val / 4 / 2 ∧ win1_2.index t (1 : Fin 3) = t.val % 4 ∧ win1_2.index t (2 : Fin 3) = 0
    ∧ win1_3.index t (0 : Fin 3) = t.val / 4 / 2 ∧ win1_3.index t (1 : Fin 3) = t.val / 4 % 2 ∧ win1_3.index t (2 : Fin 3) = 0 :=
  (by decide +kernel : ∀ t : Fin grid1.N, _)

/-! ## The blocks read at a point, entry by entry -/

/-- Row r of the query block at point t is row 1024·((t / 4) % 2) + r of batch (t / 4) / 2. -/
theorem blkQ_at (c : Dev nD) (t : Fin cfg1.N) (r d : Fin 1024) (b : Fin 4) (s : Fin 2048)
    (hb : b.val = t.val / 4 / 2) (hs : s.val = 1024 * (t.val / 4 % 2) + r.val) :
    (blk1 V c 0 t : Vec Ideal S1x1024x1024 .bf16) (ix3 0 r d) = (V c main_v12 : S4x2048x1024.Idx → EReal) (ix3 b s d) := by
  obtain ⟨e00, e01, e02, -⟩ := idx_facts1 t
  show (V c main_v12 : S4x2048x1024.Idx → EReal) (((cfg1.win 0).blk t).view.emb (ix3 0 r d)) = _
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * r.val = s.val; omega
  | ⟨2, _⟩ => show win1_0.index t (2 : Fin 3) * 1024 + 1 * d.val = d.val; omega

/-- Row j of the key block at point t is row 512·(t % 4) + j of batch (t / 4) / 2. -/
theorem blkK_at (c : Dev nD) (t : Fin cfg1.N) (j : Fin 512) (d : Fin 1024) (b : Fin 4) (s : Fin 2048)
    (hb : b.val = t.val / 4 / 2) (hs : s.val = 512 * (t.val % 4) + j.val) :
    (blk1 V c 1 t : Vec Ideal S1x512x1024 .bf16) (ix3 0 j d) = (V c main_v13 : S4x2048x1024.Idx → EReal) (ix3 b s d) := by
  obtain ⟨-, -, -, e10, e11, e12, -⟩ := idx_facts1 t
  show (V c main_v13 : S4x2048x1024.Idx → EReal) (((cfg1.win 1).blk t).view.emb (ix3 0 j d)) = _
  refine congrArg _ (funext fun a => Fin.ext ?_)
  match a with
  | ⟨0, _⟩ => show win1_1.index t (0 : Fin 3) * 1 + 1 * 0 = b.val; omega
  | ⟨1, _⟩ => show win1_1.index t (1 : Fin 3) * 512 + 1 * j.val = s.val; omega
  | ⟨2, _⟩ => show win1_1.index t (2 : Fin 3) * 1024 + 1 * d.val = d.val; omega

/-- Row j of the value block at point t is row 512·(t % 4) + j of batch (t / 4) / 2. -/
theorem blkV_at (c : Dev nD) (t : Fin cfg1.N) (j : Fin 512) (d : Fin 1024) (b : Fin 4) (s : Fin 2048)
    (hb : b.val = t.val / 4 / 2) (hs : s.val = 512 * (t.val % 4) + j.val) :
    (blk1 V c 2 t : Vec Ideal S1x512x1024 .bf16) (ix3 0 j d) = (V c main_v14 : S4x2048x1024.Idx → EReal) (ix3 b s d) := by
  obtain ⟨-, -, -, -, -, -, e20, e21, e22, -⟩ := idx_facts1 t
  show (V c main_v14 : S4x2048x1024.Idx → EReal) (((cfg1.win 2).blk t).view.emb (ix3 0 j d)) = _
  refine congrArg _ (funext fun a => Fin.ext ?_)
  match a with
  | ⟨0, _⟩ => show win1_2.index t (0 : Fin 3) * 1 + 1 * 0 = b.val; omega
  | ⟨1, _⟩ => show win1_2.index t (1 : Fin 3) * 512 + 1 * j.val = s.val; omega
  | ⟨2, _⟩ => show win1_2.index t (2 : Fin 3) * 1024 + 1 * d.val = d.val; omega

/-! ## The kept arrays at the last point of a group -/

/-- One more key tile: at a point that is not a group's first the kept arrays are the update of what the point
    before left. -/
theorem keptAt_step (c : Dev nD) (n : ℕ) (hn : n + 1 < cfg1.N) (h : ¬(n + 1) % 4 = 0) :
    keptAt V c (n + 1) hn
      = (stepM (blk1 V c 0 ⟨n + 1, hn⟩) (blk1 V c 1 ⟨n + 1, hn⟩) (keptAt V c n (Nat.lt_of_succ_lt hn)).1,
         stepL (blk1 V c 0 ⟨n + 1, hn⟩) (blk1 V c 1 ⟨n + 1, hn⟩) (keptAt V c n (Nat.lt_of_succ_lt hn)).1 (keptAt V c n (Nat.lt_of_succ_lt hn)).2.1,
         stepA (blk1 V c 0 ⟨n + 1, hn⟩) (blk1 V c 1 ⟨n + 1, hn⟩) (blk1 V c 2 ⟨n + 1, hn⟩) (keptAt V c n (Nat.lt_of_succ_lt hn)).1 (keptAt V c n (Nat.lt_of_succ_lt hn)).2.2) :=
  (if_neg h).trans rfl

/-- The blocks the four points of the group starting at n read. -/
def grpQ (c : Dev nD) (n : ℕ) (h3 : n + 3 < cfg1.N) : Fin 4 → Vec Ideal S1x1024x1024 .bf16 :=
  fun j => blk1 V c 0 ⟨n + j.val, Nat.lt_of_le_of_lt (Nat.add_le_add_left (Nat.le_of_lt_succ j.isLt) n) h3⟩
def grpK (c : Dev nD) (n : ℕ) (h3 : n + 3 < cfg1.N) : Fin 4 → Vec Ideal S1x512x1024 .bf16 :=
  fun j => blk1 V c 1 ⟨n + j.val, Nat.lt_of_le_of_lt (Nat.add_le_add_left (Nat.le_of_lt_succ j.isLt) n) h3⟩
def grpV (c : Dev nD) (n : ℕ) (h3 : n + 3 < cfg1.N) : Fin 4 → Vec Ideal S1x512x1024 .bf16 :=
  fun j => blk1 V c 2 ⟨n + j.val, Nat.lt_of_le_of_lt (Nat.add_le_add_left (Nat.le_of_lt_succ j.isLt) n) h3⟩

/-- At the last point of the group starting at n (n a multiple of 4) the kept arrays are the four-tile composition
    of the step functions over the blocks read at the group's four points. -/
theorem keptAt_group (c : Dev nD) (n : ℕ) (h3 : n + 3 < cfg1.N) (h0 : n % 4 = 0) :
    keptAt V c (n + 3) h3
      = (kM4 (grpQ V c n h3) (grpK V c n h3), kL4 (grpQ V c n h3) (grpK V c n h3),
         kA4 (grpQ V c n h3) (grpK V c n h3) (grpV V c n h3)) := by
  have s3 : keptAt V c (n + 3) h3 = _ := keptAt_step V c (n + 2) h3 (by omega)
  have s2 : keptAt V c (n + 2) (Nat.lt_of_succ_lt h3) = _ := keptAt_step V c (n + 1) (Nat.lt_of_succ_lt h3) (by omega)
  have s1 : keptAt V c (n + 1) (Nat.lt_of_succ_lt (Nat.lt_of_succ_lt h3)) = _ :=
    keptAt_step V c n (Nat.lt_of_succ_lt (Nat.lt_of_succ_lt h3)) (by omega)
  have s0 : keptAt V c n (Nat.lt_of_succ_lt (Nat.lt_of_succ_lt (Nat.lt_of_succ_lt h3))) = _ :=
    keptAt_first V c ⟨n, Nat.lt_of_succ_lt (Nat.lt_of_succ_lt (Nat.lt_of_succ_lt h3))⟩ h0
  rw [s3, s2, s1, s0]
  rfl

/-! ## The block written back at the last point of a group -/

variable (I : Cert.Spec.Inputs)

/-- What a flushing point writes back is its block of the attention output, when the three arrays the region reads
    are the scaled query projection, the key projection and the value projection. -/
theorem flushed3_eq (c : Dev nD)
    (hQ : (V c main_v12 : S4x2048x1024.Idx → EReal) = Cert.Spec.arr3 (Cert.Spec.Qs I))
    (hK : (V c main_v13 : S4x2048x1024.Idx → EReal) = Cert.Spec.arr3 (Cert.Spec.K I))
    (hV : (V c main_v14 : S4x2048x1024.Idx → EReal) = Cert.Spec.arr3 (Cert.Spec.Vl I))
    (t : Fin cfg1.N) (hf : (cfg1.win 3).flush t = true) :
    (dat1 V c).flushed 3 t = ((cfg1.win 3).blk t).view.read (Elt Ideal) (Cert.Spec.G I) := by
  have ht3 : t.val % 4 = 3 := (flush1_3 t).mp hf
  obtain ⟨tv, htv⟩ := t
  obtain ⟨n, rfl⟩ : ∃ n, tv = n + 3 := ⟨tv - 3, by simp only at ht3; omega⟩
  have h0 : n % 4 = 0 := by simp only at ht3; omega
  have hN : n + 3 < 32 := lt_of_lt_of_eq htv (show cfg1.N = 32 from N_1)
  obtain ⟨-, -, -, -, -, -, -, -, -, e30, e31, e32⟩ := idx_facts1 ⟨n + 3, htv⟩
  show (cfg1.win 3).cut (grid1.coords ⟨n + 3, htv⟩) ((dat1 V c).after 3 ⟨n + 3, htv⟩) = _
  rw [after1_3]
  funext j
  obtain ⟨u, r, f, rfl⟩ : ∃ (u : Fin 1) (r f : Fin 1024), j = ix3 u r f := ⟨j 0, j 1, j 2, eq_ix3 j⟩
  show outO (keptAt V c (n + 3) htv).2.2 (keptAt V c (n + 3) htv).2.1 (ix3 u r f)
    = Cert.Spec.G I (((cfg1.win 3).blk ⟨n + 3, htv⟩).view.emb (ix3 u r f))
  rw [keptAt_group V c n htv h0]
  show kOut (grpQ V c n htv) (grpK V c n htv) (grpV V c n htv) (ix3 u r f) = _
  obtain ⟨b, hb⟩ : ∃ b : Fin 4, b.val = (n + 3) / 4 / 2 := ⟨⟨(n + 3) / 4 / 2, by omega⟩, rfl⟩
  obtain ⟨qr, hqr⟩ : ∃ qr : Fin 2048, qr.val = 1024 * ((n + 3) / 4 % 2) + r.val :=
    ⟨⟨1024 * ((n + 3) / 4 % 2) + r.val, by have := r.isLt; omega⟩, rfl⟩
  have hu : u.val = 0 := by have := u.isLt; omega
  have hemb : ((cfg1.win 3).blk ⟨n + 3, htv⟩).view.emb (ix3 u r f) = ix3 b qr f := by
    refine funext fun a => Fin.ext ?_
    match a with
    | ⟨0, _⟩ => show win1_3.index ⟨n + 3, htv⟩ (0 : Fin 3) * 1 + 1 * u.val = b.val; simp only at e30; omega
    | ⟨1, _⟩ => show win1_3.index ⟨n + 3, htv⟩ (1 : Fin 3) * 1024 + 1 * r.val = qr.val; simp only at e31; omega
    | ⟨2, _⟩ => show win1_3.index ⟨n + 3, htv⟩ (2 : Fin 3) * 1024 + 1 * f.val = f.val; omega
  rw [hemb]
  have hgrp : ∀ tt : Fin 4, (n + tt.val) / 4 / 2 = (n + 3) / 4 / 2 ∧ (n + tt.val) / 4 % 2 = (n + 3) / 4 % 2
      ∧ (n + tt.val) % 4 = tt.val := fun tt => by have := tt.isLt; omega
  refine (kOut_apply_out I b qr u (fun tt j => ?_) (fun tt j => ?_)).trans rfl
  · obtain ⟨g0, g1, g2⟩ := hgrp tt
    refine sc_scoreK I b qr (tileEmb tt j) _ _ r j (fun d => ?_) (fun d => ?_)
    · refine (blkQ_at V c _ r d b qr (by show b.val = (n + tt.val) / 4 / 2; omega)
        (by show qr.val = 1024 * ((n + tt.val) / 4 % 2) + r.val; omega)).trans ?_
      rw [hQ]; rfl
    · refine (blkK_at V c _ j d b (tileEmb tt j) (by show b.val = (n + tt.val) / 4 / 2; omega)
        (by show (tileEmb tt j).val = 512 * ((n + tt.val) % 4) + j.val; rw [tileEmb_val]; omega)).trans ?_
      rw [hK]; rfl
  · obtain ⟨g0, g1, g2⟩ := hgrp tt
    refine (blkV_at V c _ j f b (tileEmb tt j) (by show b.val = (n + tt.val) / 4 / 2; omega)
      (by show (tileEmb tt j).val = 512 * ((n + tt.val) % 4) + j.val; rw [tileEmb_val]; omega)).trans ?_
    rw [hV]; rfl

/-! ## The cover -/

/-- An index of the result array is in point t's block iff each coordinate is in the block's range on its axis. -/
theorem mem_blk3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v15).slice (win1_3.rect t)).set ↔ _
  rw [View.set_slice_whole, Rect.mem_set_unit]
  exact Iff.rfl

/-- Batch b, query row s is written by the point 8·b + 4·(s / 1024) + 3. -/
theorem cover3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : 8 * (i 0).val + 4 * ((i 1).val / 1024) + 3 < grid1.N := by rw [N_1]; omega
  obtain ⟨t, ht⟩ : ∃ t : Fin cfg1.N, t.val = 8 * (i 0).val + 4 * ((i 1).val / 1024) + 3 := ⟨⟨_, hN⟩, rfl⟩
  obtain ⟨-, -, -, -, -, -, -, -, -, e30, e31, e32⟩ := idx_facts1 t
  refine ⟨t, (flush1_3 t).mpr (by omega), ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- The result array after the region is the attention output. -/
theorem final3 (c : Dev nD)
    (hQ : (V c main_v12 : S4x2048x1024.Idx → EReal) = Cert.Spec.arr3 (Cert.Spec.Qs I))
    (hK : (V c main_v13 : S4x2048x1024.Idx → EReal) = Cert.Spec.arr3 (Cert.Spec.K I))
    (hV : (V c main_v14 : S4x2048x1024.Idx → EReal) = Cert.Spec.arr3 (Cert.Spec.Vl I)) :
    (dat1 V c).arrAt 3 cfg1.N = Cert.Spec.G I :=
  (dat1 V c).arrAt_eq_of_cover 3 (Cert.Spec.G I) (fun t hf => flushed3_eq V I c hQ hK hV t hf) cover3

end Cert.KernelIdeal.HandValue1

end
-- ==== Proof.AttentionRun.lean ====
/-
  The whole run of the streaming program at the ideal instance, for real inputs: its result array is the attention
  output.

  Between the two regions the host gives each of the projection region's three results [8192, 1024] its batch axis
  back, [4, 2048, 1024]: row s of batch b is row 2048·b + s of the flat array.  The projection region's results are,
  for real inputs, the scaled query projection, the key projection and the value projection of the specification at
  (row / 2048, row % 2048); so the three arrays the attention region reads are those projections at (b, s), and the
  array it leaves is the attention output.
-/
import proofs.«152240_j4922032521509_2_alg».proof.Proof.RunIdeal
import proofs.«152240_j4922032521509_2_alg».proof.Proof.Region0Value
import proofs.«152240_j4922032521509_2_alg».proof.Proof.AttnOutput
import Idealize.ShloMosaic.Lib.Pipeline.Value
import Idealize.ShloMosaic.Lib.ValueIdx
import Idealize.ShloMosaic.Lib.StableHlo.Run

set_option maxRecDepth 16384

noncomputable section

namespace Cert.KernelIdeal.HandGlue

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The flat array given its batch axis back, at (b, s, f): row 2048·b + s. -/
theorem unflat_at (x : S8192x1024.Idx → EReal) (b : Fin 4) (s : Fin 2048) (f : Fin 1024) (R : Fin 8192)
    (hR : R.val = 2048 * b.val + s.val) :
    shapeCast S4x2048x1024 x shapeCasts_S8192x1024_S4x2048x1024 (ix3 b s f) = x (ix2 R f) := by
  refine shapeCast_apply x shapeCasts_S8192x1024_S4x2048x1024 (ix3 b s f) _ ?_
  rw [Shape.rowMajor_val_two, Shape.rowMajor_val_three]
  show R.val * 1024 + f.val = (b.val * 2048 + s.val) * 1024 + f.val
  omega

/-- The arrays the attention region reads are the reshaped results of the projection region. -/
theorem V3_v12 (c : Dev nD) : (Hand.V3 m ρ c main_v12 : S4x2048x1024.Idx → EReal)
    = shapeCast S4x2048x1024 ((Hand.dat0 (Hand.V1 m ρ) c).arrAt 7 cfg0.N : S8192x1024.Idx → EReal) shapeCasts_S8192x1024_S4x2048x1024 := by
  rw [← Hand.W2_arr m ρ c 7]
  dsimp only [Hand.V3, Hand.W3, Gen.hostOps1]; after_results; try rfl

theorem V3_v13 (c : Dev nD) : (Hand.V3 m ρ c main_v13 : S4x2048x1024.Idx → EReal)
    = shapeCast S4x2048x1024 ((Hand.dat0 (Hand.V1 m ρ) c).arrAt 8 cfg0.N : S8192x1024.Idx → EReal) shapeCasts_S8192x1024_S4x2048x1024 := by
  rw [← Hand.W2_arr m ρ c 8]
  dsimp only [Hand.V3, Hand.W3, Gen.hostOps1]; after_results; try rfl

theorem V3_v14 (c : Dev nD) : (Hand.V3 m ρ c main_v14 : S4x2048x1024.Idx → EReal)
    = shapeCast S4x2048x1024 ((Hand.dat0 (Hand.V1 m ρ) c).arrAt 9 cfg0.N : S8192x1024.Idx → EReal) shapeCasts_S8192x1024_S4x2048x1024 := by
  rw [← Hand.W2_arr m ρ c 9]
  dsimp only [Hand.V3, Hand.W3, Gen.hostOps1]; after_results; try rfl

/-- The arrays the projection region finds, under their two names. -/
theorem V1_eq : Hand.V1 m ρ = HandValue0.V1 m := rfl

variable (I : Cert.Spec.Inputs)

/-- A projection at (row / 2048, row % 2048) of row 2048·b + s is the projection at (b, s). -/
theorem at_row (g : Fin 4 → Fin 2048 → Fin 1024 → ℝ) (b : Fin 4) (s : Fin 2048) (f : Fin 1024) (b' : Fin 4) (s' : Fin 2048)
    (hb : b' = b) (hs : s' = s) : ((g b' s' f : ℝ) : EReal) = Cert.Spec.arr3 g (ix3 b s f) := by
  rw [hb, hs]; rfl

section
variable (c : Dev nD)
  (hX : (m ((c : Thread nD τ).loc main_arg0) : S4x2048x1024.Idx → EReal) = Cert.Spec.arr3 I.X)
  (hWq : (m ((c : Thread nD τ).loc main_arg1) : S1024x1024.Idx → EReal) = Cert.Spec.arr2 I.Wq)
  (hbq : (m ((c : Thread nD τ).loc main_arg2) : S1024.Idx → EReal) = Cert.Spec.arr1 I.bq)
  (hWk : (m ((c : Thread nD τ).loc main_arg3) : S1024x1024.Idx → EReal) = Cert.Spec.arr2 I.Wk)
  (hbk : (m ((c : Thread nD τ).loc main_arg4) : S1024.Idx → EReal) = Cert.Spec.arr1 I.bk)
  (hWv : (m ((c : Thread nD τ).loc main_arg5) : S1024x1024.Idx → EReal) = Cert.Spec.arr2 I.Wv)
  (hbv : (m ((c : Thread nD τ).loc main_arg6) : S1024.Idx → EReal) = Cert.Spec.arr1 I.bv)
include hX

/-- The query array the attention region reads: the scaled query projection. -/
theorem V3_Qs (hWq : (m ((c : Thread nD τ).loc main_arg1) : S1024x1024.Idx → EReal) = Cert.Spec.arr2 I.Wq)
    (hbq : (m ((c : Thread nD τ).loc main_arg2) : S1024.Idx → EReal) = Cert.Spec.arr1 I.bq) :
    (Hand.V3 m ρ c main_v12 : S4x2048x1024.Idx → EReal) = Cert.Spec.arr3 (Cert.Spec.Qs I) := by
  rw [V3_v12, V1_eq]
  funext i
  obtain ⟨b, s, f, rfl⟩ : ∃ (b : Fin 4) (s : Fin 2048) (f : Fin 1024), i = ix3 b s f := ⟨i 0, i 1, i 2, eq_ix3 i⟩
  have hb := b.isLt
  have hs := s.isLt
  rw [unflat_at _ b s f ⟨2048 * b.val + s.val, by omega⟩ rfl, HandValue0.region0_Qs m I c hX hWq hbq]
  exact at_row (Cert.Spec.Qs I) b s f _ _ (Fin.ext (by show (2048 * b.val + s.val) / 2048 = b.val; omega))
    (Fin.ext (by show (2048 * b.val + s.val) % 2048 = s.val; omega))

/-- The key array the attention region reads: the key projection. -/
theorem V3_K (hWk : (m ((c : Thread nD τ).loc main_arg3) : S1024x1024.Idx → EReal) = Cert.Spec.arr2 I.Wk)
    (hbk : (m ((c : Thread nD τ).loc main_arg4) : S1024.Idx → EReal) = Cert.Spec.arr1 I.bk) :
    (Hand.V3 m ρ c main_v13 : S4x2048x1024.Idx → EReal) = Cert.Spec.arr3 (Cert.Spec.K I) := by
  rw [V3_v13, V1_eq]
  funext i
  obtain ⟨b, s, f, rfl⟩ : ∃ (b : Fin 4) (s : Fin 2048) (f : Fin 1024), i = ix3 b s f := ⟨i 0, i 1, i 2, eq_ix3 i⟩
  have hb := b.isLt
  have hs := s.isLt
  rw [unflat_at _ b s f ⟨2048 * b.val + s.val, by omega⟩ rfl, HandValue0.region0_K m I c hX hWk hbk]
  exact at_row (Cert.Spec.K I) b s f _ _ (Fin.ext (by show (2048 * b.val + s.val) / 2048 = b.val; omega))
    (Fin.ext (by show (2048 * b.val + s.val) % 2048 = s.val; omega))

/-- The value array the attention region reads: the value projection. -/
theorem V3_Vl (hWv : (m ((c : Thread nD τ).loc main_arg5) : S1024x1024.Idx → EReal) = Cert.Spec.arr2 I.Wv)
    (hbv : (m ((c : Thread nD τ).loc main_arg6) : S1024.Idx → EReal) = Cert.Spec.arr1 I.bv) :
    (Hand.V3 m ρ c main_v14 : S4x2048x1024.Idx → EReal) = Cert.Spec.arr3 (Cert.Spec.Vl I) := by
  rw [V3_v14, V1_eq]
  funext i
  obtain ⟨b, s, f, rfl⟩ : ∃ (b : Fin 4) (s : Fin 2048) (f : Fin 1024), i = ix3 b s f := ⟨i 0, i 1, i 2, eq_ix3 i⟩
  have hb := b.isLt
  have hs := s.isLt
  rw [unflat_at _ b s f ⟨2048 * b.val + s.val, by omega⟩ rfl, HandValue0.region0_Vl m I c hX hWv hbv]
  exact at_row (Cert.Spec.Vl I) b s f _ _ (Fin.ext (by show (2048 * b.val + s.val) / 2048 = b.val; omega))
    (Fin.ext (by show (2048 * b.val + s.val) % 2048 = s.val; omega))

include hWq hbq hWk hbk hWv hbv

/-- The attention region's result array for real inputs: the attention output. -/
theorem result_eq : (Hand.dat1 (Hand.V3 m ρ) c).arrAt 3 cfg1.N = Cert.Spec.G I :=
  HandValue1.final3 (Hand.V3 m ρ) I c (V3_Qs m ρ I c hX hWq hbq) (V3_K m ρ I c hX hWk hbk) (V3_Vl m ρ I c hX hWv hbv)

end

/-- The run for real inputs: every weakly fair execution terminates without fault, the result array is the attention
    output of the inputs, and the arguments end as launched. -/
theorem run_G (Iof : Dev nD → Cert.Spec.Inputs)
    (hI : ∀ c : Dev nD,
      m ((c.tc : Thread nD τ).loc main_arg0) = Cert.Spec.arr3 (Iof c).X
      ∧ m ((c.tc : Thread nD τ).loc main_arg1) = Cert.Spec.arr2 (Iof c).Wq
      ∧ m ((c.tc : Thread nD τ).loc main_arg2) = Cert.Spec.arr1 (Iof c).bq
      ∧ m ((c.tc : Thread nD τ).loc main_arg3) = Cert.Spec.arr2 (Iof c).Wk
      ∧ m ((c.tc : Thread nD τ).loc main_arg4) = Cert.Spec.arr1 (Iof c).bk
      ∧ m ((c.tc : Thread nD τ).loc main_arg5) = Cert.Spec.arr2 (Iof c).Wv
      ∧ m ((c.tc : Thread nD τ).loc main_arg6) = Cert.Spec.arr1 (Iof c).bv) :
    θ_run defs (onTc (τ := τ) (main (F := Ideal))) ⟨m, fun _ => 0, ρ⟩ (fun r => ∀ c : Dev nD,
      r.2.mem ((c.tc : Thread nD τ).loc main_v15) = Cert.Spec.G (Iof c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (by
      obtain ⟨i0, i1, i2, i3, i4, i5, i6⟩ := hI c
      exact result_eq m ρ (Iof c) c i0 i1 i2 i3 i4 i5 i6), (h c).2⟩)
    (Hand.run (F := Ideal) m ρ)

end Cert.KernelIdeal.HandGlue

end
-- ==== Proof.ReferenceValueProj.lean ====
/-
  The reference's three projections, read at explicit coordinates.

  Each of the stages %3, %7 and %11 is a contraction of the input with a weight matrix over the feature axis,
  plus the bias broadcast along batch and sequence.  Applied to arrays of coerced reals the result at (b, s, f)
  is the coerced real  (Σ_d X b s d * W d f) + bias f,  which is the specification's Q, K and Vl.
-/
import proofs.«152240_j4922032521509_2_alg».proof.Proof.Gen.ReferenceIdeal.Read
import proofs.«152240_j4922032521509_2_alg».proof.Proof.AttentionSpec
import proofs.«152240_j4922032521509_2_alg».proof.Proof.LibOnlineSoftmax

noncomputable section

open Idealize.ShloMosaic Idealize.ShloMosaic.ValueIdx

namespace Cert.RefValue

open Cert.ReferenceIdeal Cert.ReferenceIdeal.Read Cert.Spec

variable (I : Inputs)

/-- A sum of products of coerced reals plus a coerced real is the coercion of the real expression. -/
theorem coe_affine {n : Nat} (x w : Fin n → ℝ) (c : ℝ) :
    (∑ d, (x d : EReal) * (w d : EReal)) + (c : EReal) = (((∑ d, x d * w d) + c : ℝ) : EReal) := by
  rw [EReal.coe_add, Cert.Lib.OnlineSoftmax.coe_sum]
  exact congrArg (· + (c : EReal)) (Finset.sum_congr rfl fun d _ => (EReal.coe_mul _ _).symm)

/-- Stage %3 at (b, s, f) is the query projection. -/
theorem v3_at (b : Fin 4) (s : Fin 2048) (f : Fin 1024) :
    val_main_v3 (F := Ideal) (arr3 I.X) (arr2 I.Wq) (arr1 I.bq) (ix3 b s f) = ((Q I b s f : ℝ) : EReal) := by
  rw [val_main_v3_apply, val_main_v0_apply, val_main_v2_apply, val_main_v1_apply]
  exact coe_affine (fun d => I.X b s d) (fun d => I.Wq d f) (I.bq f)

/-- Stage %7 at (b, s, f) is the key projection. -/
theorem v7_at (b : Fin 4) (s : Fin 2048) (f : Fin 1024) :
    val_main_v7 (F := Ideal) (arr3 I.X) (arr2 I.Wk) (arr1 I.bk) (ix3 b s f) = ((K I b s f : ℝ) : EReal) := by
  rw [val_main_v7_apply, val_main_v4_apply, val_main_v6_apply, val_main_v5_apply]
  exact coe_affine (fun d => I.X b s d) (fun d => I.Wk d f) (I.bk f)

/-- Stage %11 at (b, s, f) is the value projection. -/
theorem v11_at (b : Fin 4) (s : Fin 2048) (f : Fin 1024) :
    val_main_v11 (F := Ideal) (arr3 I.X) (arr2 I.Wv) (arr1 I.bv) (ix3 b s f) = ((Vl I b s f : ℝ) : EReal) := by
  rw [val_main_v11_apply, val_main_v8_apply, val_main_v10_apply, val_main_v9_apply]
  exact coe_affine (fun d => I.X b s d) (fun d => I.Wv d f) (I.bv f)

end Cert.RefValue

end
-- ==== Proof.ReferenceValueScale.lean ====
/-
  The reference's scale constant, read at the ideal instance.

  Stages %cst, %12, %cst_0, %13 compute 1 / sqrt 1024 from the f32 words of 1024 and 1.  At the ideal instance the
  words denote the reals 1024 and 1, the square root is 32, and the quotient is the real 1/32.
-/
import proofs.«152240_j4922032521509_2_alg».proof.Proof.Gen.ReferenceIdeal.Read
import proofs.«152240_j4922032521509_2_alg».proof.Proof.AttentionSpec

noncomputable section

open Idealize.ShloMosaic Idealize.ShloMosaic.ValueIdx

namespace Cert.RefValue

open Cert.ReferenceIdeal Cert.ReferenceIdeal.Read Cert.Spec

/-- The f32 word 0x44800000 denotes the real 1024. -/
theorem ofBits_1024 : Ideal.ofBits .f32 0x44800000#32 = ((1024 : ℝ) : EReal) := by
  simp [Ideal.ofBits, Ideal.ieee, -EReal.coe_mul]; norm_num

/-- The f32 word 0x3F800000 denotes the real 1. -/
theorem ofBits_one : Ideal.ofBits .f32 0x3F800000#32 = ((1 : ℝ) : EReal) := by
  simp [Ideal.ofBits, Ideal.ieee, -EReal.coe_mul]; norm_num

/-- The square root of 1024 is 32. -/
theorem sqrt_1024 : Real.sqrt 1024 = 32 := by
  rw [show (1024 : ℝ) = 32 ^ 2 by norm_num]; exact Real.sqrt_sq (by norm_num)

/-- Stage %13 is the real 1/32. -/
theorem v13_at (i : S_.Idx) : val_main_v13 (F := Ideal) i = ((1 / 32 : ℝ) : EReal) := by
  rw [val_main_v13_apply, val_main_v12_apply, val_main_cst_apply, val_main_cst_0_apply]
  simp only [Ideal.ofBits_def, Ideal.hostUnary_sqrt_def, Ideal.hostDivf_def]
  rw [ofBits_1024, ofBits_one, Ideal.sqrt_coe, if_neg (by norm_num), sqrt_1024, Ideal.div_coe (by norm_num),
    ← EReal.coe_mul, one_mul]

/-- Stage %15, the scale broadcast over the score array, is 1/32 everywhere. -/
theorem v15_at (i : S4x2048x2048.Idx) : val_main_v15 (F := Ideal) i = ((1 / 32 : ℝ) : EReal) := by
  rw [val_main_v15_apply, v13_at]

end Cert.RefValue

end
-- ==== Proof.ReferenceValueScore.lean ====
/-
  The reference's scaled scores, read at explicit coordinates.

  Stage %14 contracts the query and key projections over the feature axis per batch; stage %16 multiplies by the
  scale 1/32.  At (b, q, k) the result is the coerced real  (Σ_f Q b q f * K b k f) * (1/32),  the specification's score.
-/
import proofs.«152240_j4922032521509_2_alg».proof.Proof.ReferenceValueProj
import proofs.«152240_j4922032521509_2_alg».proof.Proof.ReferenceValueScale

noncomputable section

open Idealize.ShloMosaic Idealize.ShloMosaic.ValueIdx

namespace Cert.RefValue

open Cert.ReferenceIdeal Cert.ReferenceIdeal.Read Cert.Spec

variable (I : Inputs)

/-- Stage %14 at (b, q, k) is the unscaled inner product of query row q and key row k. -/
theorem v14_at (b : Fin 4) (q k : Fin 2048) :
    val_main_v14 (F := Ideal) (arr3 I.X) (arr2 I.Wq) (arr1 I.bq) (arr2 I.Wk) (arr1 I.bk) (ix3 b q k)
      = ((∑ f, Q I b q f * K I b k f : ℝ) : EReal) := by
  rw [val_main_v14_apply, Cert.Lib.OnlineSoftmax.coe_sum]
  refine Finset.sum_congr rfl fun f _ => ?_
  have e1 : lidx_main_v14 (ix3 b q k) f = ix3 b q f := by
    funext a; match a with | ⟨0, _⟩ => rfl | ⟨1, _⟩ => rfl | ⟨2, _⟩ => rfl
  have e2 : ridx_main_v14 (ix3 b q k) f = ix3 b k f := by
    funext a; match a with | ⟨0, _⟩ => rfl | ⟨1, _⟩ => rfl | ⟨2, _⟩ => rfl
  rw [e1, e2, v3_at, v7_at, EReal.coe_mul]

/-- Stage %16 at (b, q, k) is the scaled score. -/
theorem v16_at (b : Fin 4) (q k : Fin 2048) :
    val_main_v16 (F := Ideal) (arr3 I.X) (arr2 I.Wq) (arr1 I.bq) (arr2 I.Wk) (arr1 I.bk) (ix3 b q k)
      = ((score I b q k : ℝ) : EReal) := by
  rw [val_main_v16_apply, v14_at, v15_at]
  exact (EReal.coe_mul _ _).symm

end Cert.RefValue

end
-- ==== Proof.ReferenceValueMax.lean ====
/-
  The reference's row maximum, read at explicit coordinates.

  Stage %17 reduces the scaled scores over the key axis with a maximum body from the word of -∞; at (b, q) it is the
  supremum over k of the score at (b, q, k), and for real scores that is the coerced largest score of the row.
  Stage %19 takes the maximum with -∞ again (no change), and stages %20, %21 broadcast the result back along the key axis.
-/
import proofs.«152240_j4922032521509_2_alg».proof.Proof.ReferenceValueScore
import proofs.«152240_j4922032521509_2_alg».proof.Proof.LibHostRowMax

noncomputable section

open Idealize.ShloMosaic Idealize.ShloMosaic.ValueIdx

namespace Cert.RefValue

open Cert.ReferenceIdeal Cert.ReferenceIdeal.Read Cert.Spec

open Cert.ReferenceIdeal.Gen

variable (I : Inputs)

/-- The index over (b, q) with coordinate k put back on the key axis is (b, q, k). -/
theorem lift_ix3 (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  match c with | ⟨0, _⟩ => rfl | ⟨1, _⟩ => rfl | ⟨2, _⟩ => rfl

/-- Stage %17 at (b, q) is the largest score of the row. -/
theorem v17_at (b : Fin 4) (q : Fin 2048) :
    val_main_v17 (F := Ideal) (arr3 I.X) (arr2 I.Wq) (arr1 I.bq) (arr2 I.Wk) (arr1 I.bk) (ix2 b q)
      = ((rowMax I b q : ℝ) : EReal) := by
  have h : S4x2048x2048.Reduces [2] S4x2048 := by decide
  have e := Cert.Lib.HostRowMax.hostReduce_max (u := S_)
    (val_main_v16 (F := Ideal) (arr3 I.X) (arr2 I.Wq) (arr1 I.bq) (arr2 I.Wk) (arr1 I.bk))
    reducesTo_S4x2048x2048_S4x2048_d2 h h_S_ (ix2 b q)
  refine e.trans ?_
  have hf : (fun k : Fin (S4x2048x2048.size 2) =>
      val_main_v16 (F := Ideal) (arr3 I.X) (arr2 I.Wq) (arr1 I.bq) (arr2 I.Wk) (arr1 I.bk) (h.lift (ix2 b q) k))
      = fun k : Fin 2048 => ((score I b q k : ℝ) : EReal) :=
    funext fun k => by rw [lift_ix3, v16_at]; rfl
  exact (congrArg (fun g : Fin 2048 → EReal => Finset.univ.sup g) hf).trans
    (Cert.Lib.OnlineSoftmax.sup_coe (score I b q))

/-- Stage %19 at (b, q): the maximum with -∞ leaves the largest score. -/
theorem v19_at (b : Fin 4) (q : Fin 2048) :
    val_main_v19 (F := Ideal) (arr3 I.X) (arr2 I.Wq) (arr1 I.bq) (arr2 I.Wk) (arr1 I.bk) (ix2 b q)
      = ((rowMax I b q : ℝ) : EReal) := by
  rw [val_main_v19_apply, val_main_v18_apply, val_main_cst_2_apply, v17_at]
  simp only [Ideal.maximumf_def, Ideal.ofBits_def]
  rw [Cert.Lib.HostRowMax.ofBits_negInf, max_eq_right bot_le]

/-- Stage %21 at (b, q, k): the row's largest score, broadcast along the key axis. -/
theorem v21_at (b : Fin 4) (q k : Fin 2048) :
    val_main_v21 (F := Ideal) (arr3 I.X) (arr2 I.Wq) (arr1 I.bq) (arr2 I.Wk) (arr1 I.bk) (ix3 b q k)
      = ((rowMax I b q : ℝ) : EReal) := by
  rw [val_main_v21_apply, val_main_v20_apply]
  have e : idx_main_v20 (idx_main_v21 (ix3 b q k)) = ix2 b q := by
    funext a; match a with | ⟨0, _⟩ => rfl | ⟨1, _⟩ => rfl
  rw [e, v19_at]

end Cert.RefValue

end
-- ==== Proof.ReferenceValueSoft.lean ====
/-
  The reference's softmax weights, read at explicit coordinates.

  Stage %23 is the exponential of the score minus the row's largest score; stage %24 sums it over the key axis from
  zero, giving the row's normaliser; stages %25, %26 broadcast the normaliser back along the key axis and stage %27
  divides.  At (b, q, k) the weight is  exp (score b q k - rowMax b q) / norm b q,  kept here in the ideal instance's
  own operations so that the closing contraction with the values can be summed in one step.
-/
import proofs.«152240_j4922032521509_2_alg».proof.Proof.ReferenceValueMax

noncomputable section

open Idealize.ShloMosaic Idealize.ShloMosaic.ValueIdx

namespace Cert.RefValue

open Cert.ReferenceIdeal Cert.ReferenceIdeal.Read Cert.Spec

open Cert.ReferenceIdeal.Gen

variable (I : Inputs)

/-- Stage %23 at (b, q, k) is the ideal exponential of score minus the row's largest score. -/
theorem v23_at (b : Fin 4) (q k : Fin 2048) :
    val_main_v23 (F := Ideal) (arr3 I.X) (arr2 I.Wq) (arr1 I.bq) (arr2 I.Wk) (arr1 I.bk) (ix3 b q k)
      = Ideal.exp (((score I b q k : ℝ) : EReal) - ((rowMax I b q : ℝ) : EReal)) := by
  rw [val_main_v23_apply, val_main_v22_apply, v16_at, v21_at]
  rfl

/-- Stage %24 at (b, q) is the row's normaliser. -/
theorem v24_at (b : Fin 4) (q : Fin 2048) :
    val_main_v24 (F := Ideal) (arr3 I.X) (arr2 I.Wq) (arr1 I.bq) (arr2 I.Wk) (arr1 I.bk) (ix2 b q)
      = ((Cert.Spec.norm I b q : ℝ) : EReal) := by
  rw [val_main_v24_apply, val_main_cst_3_apply, Ideal.ofBits_def, Ideal.ofBits_zero_f32, zero_add]
  unfold Cert.Spec.norm
  rw [Cert.Lib.OnlineSoftmax.coe_sum]
  refine Finset.sum_congr rfl fun k _ => ?_
  have e : idx_main_v24 (ix2 b q) k = ix3 b q k := by
    funext a; match a with | ⟨0, _⟩ => rfl | ⟨1, _⟩ => rfl | ⟨2, _⟩ => rfl
  rw [e, v23_at, Cert.Lib.OnlineSoftmax.exp_sub_coe]

/-- Stage %26 at (b, q, k): the row's normaliser, broadcast along the key axis. -/
theorem v26_at (b : Fin 4) (q k : Fin 2048) :
    val_main_v26 (F := Ideal) (arr3 I.X) (arr2 I.Wq) (arr1 I.bq) (arr2 I.Wk) (arr1 I.bk) (ix3 b q k)
      = ((Cert.Spec.norm I b q : ℝ) : EReal) := by
  rw [val_main_v26_apply, val_main_v25_apply]
  have e : idx_main_v25 (idx_main_v26 (ix3 b q k)) = ix2 b q := by
    funext a; match a with | ⟨0, _⟩ => rfl | ⟨1, _⟩ => rfl
  rw [e, v24_at]

/-- Stage %27 at (b, q, k) is the softmax weight of key k in row q. -/
theorem v27_at (b : Fin 4) (q k : Fin 2048) :
    val_main_v27 (F := Ideal) (arr3 I.X) (arr2 I.Wq) (arr1 I.bq) (arr2 I.Wk) (arr1 I.bk) (ix3 b q k)
      = Ideal.div (Ideal.exp (((score I b q k : ℝ) : EReal) - ((rowMax I b q : ℝ) : EReal)))
          ((Cert.Spec.norm I b q : ℝ) : EReal) := by
  rw [val_main_v27_apply, v23_at, v26_at]
  rfl

end Cert.RefValue

end
-- ==== Proof.ReferenceValue.lean ====
/-
  The reference program computes the specification's array.

  Its last stage contracts the softmax weights with the value projection over the key axis per batch.  At (b, q, f)
  that is the sum over k of  (exp (score b q k - rowMax b q) / norm b q) * Vl b k f  in the ideal instance's operations
  on coerced reals, which is the coerced real sum the specification calls out b q f (the whole-row form of the
  softmax-weighted sum, over all keys).
-/
import proofs.«152240_j4922032521509_2_alg».proof.Proof.Gen.ReferenceIdeal.Read
import proofs.«152240_j4922032521509_2_alg».proof.Proof.AttentionSpec
import proofs.«152240_j4922032521509_2_alg».proof.Proof.LibOnlineSoftmax
import proofs.«152240_j4922032521509_2_alg».proof.Proof.LibHostRowMax
import proofs.«152240_j4922032521509_2_alg».proof.Proof.ReferenceValueSoft

noncomputable section

open Idealize.ShloMosaic Idealize.ShloMosaic.ValueIdx

namespace Cert.RefValue

open Cert.ReferenceIdeal Cert.ReferenceIdeal.Read Cert.Spec

variable (I : Inputs)

/-- The reference's last stage at (b, q, f) is the attention output there. -/
theorem v28_at (b : Fin 4) (q : Fin 2048) (f : Fin 1024) :
    val_main_v28 (F := Ideal) (arr3 I.X) (arr2 I.Wq) (arr1 I.bq) (arr2 I.Wk) (arr1 I.bk) (arr2 I.Wv) (arr1 I.bv)
      (ix3 b q f) = ((out I b q f : ℝ) : EReal) := by
  rw [val_main_v28_apply]
  refine Eq.trans (Finset.sum_congr rfl fun k _ => ?_)
    (Cert.Lib.OnlineSoftmax.weighted_row (S := Finset.univ) Finset.univ_nonempty (score I b q)
      (fun k => Vl I b k f) (rowMax I b q))
  have e1 : lidx_main_v28 (ix3 b q f) k = ix3 b q k := by
    funext a; match a with | ⟨0, _⟩ => rfl | ⟨1, _⟩ => rfl | ⟨2, _⟩ => rfl
  have e2 : ridx_main_v28 (ix3 b q f) k = ix3 b k f := by
    funext a; match a with | ⟨0, _⟩ => rfl | ⟨1, _⟩ => rfl | ⟨2, _⟩ => rfl
  rw [e1, e2, v27_at, v11_at]
  rfl

/-- The reference's last stage, applied to real-valued arguments, is the specification's array. -/
theorem ref_eq_G (I : Cert.Spec.Inputs) : Cert.ReferenceIdeal.Read.val_main_v28 (F := Ideal) (Cert.Spec.arr3 I.X) (Cert.Spec.arr2 I.Wq) (Cert.Spec.arr1 I.bq) (Cert.Spec.arr2 I.Wk) (Cert.Spec.arr1 I.bk) (Cert.Spec.arr2 I.Wv) (Cert.Spec.arr1 I.bv) = Cert.Spec.G I := by
  funext i
  obtain ⟨b, q, f, rfl⟩ : ∃ (b : Fin 4) (q : Fin 2048) (f : Fin 1024), i = ix3 b q f := ⟨i 0, i 1, i 2, eq_ix3 i⟩
  exact v28_at I b q f

end Cert.RefValue

end
-- ==== Proof.FiniteInputs.lean ====
/-
  Finite inputs are real inputs.

  The precondition says, for each of the seven argument arrays, that every entry's absolute value is below +∞
  (the comparison of |x| with the f32 word of +∞, reduced by "and" over every axis from 1, and the seven results
  combined by "and", is 1).  At the ideal instance an extended real whose absolute value max x (-x) is below ⊤ is
  neither ⊤ nor ⊥, so it is a real number.  Choosing those reals entry by entry gives real-valued arrays whose
  coercions are the arguments.
-/
import proofs.«152240_j4922032521509_2_alg».proof.Defs
import proofs.«152240_j4922032521509_2_alg».proof.Proof.AttentionSpec
import Idealize.ShloMosaic.Lib.ReduceAll
import Idealize.ShloMosaic.Lib.Pipeline.Value

noncomputable section

open Idealize.ShloMosaic Idealize.ShloMosaic.ValueIdx Idealize.SL.Sem

namespace Cert.FiniteInputs

open Cert.Pre_finite_inputs

/-- The scalar shape has one index. -/
instance : Subsingleton S_.Idx := ⟨fun a b => funext fun d => d.elim0⟩

/-- The f32 word 0x7F800000 denotes +∞, the top of the extended reals. -/
theorem ofBits_posInf : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  have hlt : max x (-x) < ⊤ := by
    by_contra hn
    have : Ideal.cmp .olt (max x (-x)) (⊤ : EReal) = 0#1 := by
      unfold Ideal.cmp; simp [hn]
    rw [this] at h; exact absurd h (by decide)
  induction x using EReal.rec with
  | bot => exact absurd hlt (by simp)
  | coe r => exact ⟨r, rfl⟩
  | top => exact absurd hlt (by simp)

/-- One argument's test: if "every |x i| is below +∞", reduced over all axes, is 1, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, (x i : EReal) = (r : EReal) := by
  have hi := Host.reduce_andi_all _ _ hr hu ix0 e i
  have hc : broadcastInDim s ![] hb (constant (F := Ideal) S_ .f32 0x7F800000#32) i
      = Ideal.ofBits .f32 0x7F800000#32 :=
    broadcastInDim_apply _ hb _ i ix0 (fun a => a.elim0)
  refine real_of_abs_lt (x i) ?_
  rw [← hc]
  exact hi

variable [Facts]

/-- The precondition's function is all ones only if every entry of every argument is real. -/
theorem fn_real (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (h : fn (F := Ideal) a0 a1 a2 a3 a4 a5 a6 = fun _ => 1#1) :
    (∀ i, ∃ r : ℝ, (a0 i : EReal) = (r : EReal)) ∧ (∀ i, ∃ r : ℝ, (a1 i : EReal) = (r : EReal))
      ∧ (∀ i, ∃ r : ℝ, (a2 i : EReal) = (r : EReal)) ∧ (∀ i, ∃ r : ℝ, (a3 i : EReal) = (r : EReal))
      ∧ (∀ i, ∃ r : ℝ, (a4 i : EReal) = (r : EReal)) ∧ (∀ i, ∃ r : ℝ, (a5 i : EReal) = (r : EReal))
      ∧ (∀ i, ∃ r : ℝ, (a6 i : EReal) = (r : EReal)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6⟩

/-- Under the precondition every argument array is the coercion of a real-valued array. -/
theorem inputs_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ I : Cert.Spec.Inputs,
      m ((c.tc : Thread Cert.KernelIdeal.nD Cert.KernelIdeal.τ).loc Cert.KernelIdeal.main_arg0) = Cert.Spec.arr3 I.X
      ∧ m ((c.tc : Thread Cert.KernelIdeal.nD Cert.KernelIdeal.τ).loc Cert.KernelIdeal.main_arg1) = Cert.Spec.arr2 I.Wq
      ∧ m ((c.tc : Thread Cert.KernelIdeal.nD Cert.KernelIdeal.τ).loc Cert.KernelIdeal.main_arg2) = Cert.Spec.arr1 I.bq
      ∧ m ((c.tc : Thread Cert.KernelIdeal.nD Cert.KernelIdeal.τ).loc Cert.KernelIdeal.main_arg3) = Cert.Spec.arr2 I.Wk
      ∧ m ((c.tc : Thread Cert.KernelIdeal.nD Cert.KernelIdeal.τ).loc Cert.KernelIdeal.main_arg4) = Cert.Spec.arr1 I.bk
      ∧ m ((c.tc : Thread Cert.KernelIdeal.nD Cert.KernelIdeal.τ).loc Cert.KernelIdeal.main_arg5) = Cert.Spec.arr2 I.Wv
      ∧ m ((c.tc : Thread Cert.KernelIdeal.nD Cert.KernelIdeal.τ).loc Cert.KernelIdeal.main_arg6) = Cert.Spec.arr1 I.bv := by
  obtain ⟨r0, r1, r2, r3, r4, r5, r6⟩ := fn_real _ _ _ _ _ _ _ (h c)
  choose f0 hf0 using r0
  choose f1 hf1 using r1
  choose f2 hf2 using r2
  choose f3 hf3 using r3
  choose f4 hf4 using r4
  choose f5 hf5 using r5
  choose f6 hf6 using r6
  refine ⟨⟨fun b s d => f0 (ix3 b s d), fun a b => f1 (ix2 a b), fun a => f2 (ix1 a), fun a b => f3 (ix2 a b),
    fun a => f4 (ix1 a), fun a b => f5 (ix2 a b), fun a => f6 (ix1 a)⟩, ?_, ?_, ?_, ?_, ?_, ?_, ?_⟩
  · funext i; exact (hf0 i).trans (congrArg (fun j => ((f0 j : ℝ) : EReal)) (eq_ix3 i))
  · funext i; exact (hf1 i).trans (congrArg (fun j => ((f1 j : ℝ) : EReal)) (eq_ix2 i))
  · funext i; exact (hf2 i).trans (congrArg (fun j => ((f2 j : ℝ) : EReal)) (eq_ix1 i))
  · funext i; exact (hf3 i).trans (congrArg (fun j => ((f3 j : ℝ) : EReal)) (eq_ix2 i))
  · funext i; exact (hf4 i).trans (congrArg (fun j => ((f4 j : ℝ) : EReal)) (eq_ix1 i))
  · funext i; exact (hf5 i).trans (congrArg (fun j => ((f5 j : ℝ) : EReal)) (eq_ix2 i))
  · funext i; exact (hf6 i).trans (congrArg (fun j => ((f6 j : ℝ) : EReal)) (eq_ix1 i))

end Cert.FiniteInputs

end
-- ==== Proof.lean ====
/-
  The certificate's five claims for the streaming attention program against the plain softmax attention.

  Both programs take an input [4, 2048, 1024], three weight matrices and three bias vectors.  The reference forms the
  three projections, the scores scaled by 1/√1024 = 1/32, a softmax over the keys and the weighted sum of the value
  rows.  The streaming program folds the scale into the query weights and bias, forms the three projections in a
  first region, and in a second region streams the keys past each block of 1024 query rows in four tiles of 512,
  keeping per row the largest score so far, the normaliser and the unnormalised output, rescaled at each tile, and
  dividing at the last tile.  Over the reals the two are one function of the inputs: the scale moves out of the
  score's sums, and the rescaled running sums after the last tile are the whole-row sums (the four-tile theorem).
  The laws used (moving a factor through a sum, cancelling the exponential of a difference) hold for reals, not at
  infinities, so the equality is proved for finite inputs, which is the precondition.

  The frames: each program terminates on every weakly fair execution, without a fault, its arguments unchanged —
  for the two streaming programs by the run over the two regions and the host operations between them, for the
  reference by its run as a sequence of host operations.  The idealization ledger is empty.
-/
import proofs.«152240_j4922032521509_2_alg».proof.Defs
import proofs.«152240_j4922032521509_2_alg».proof.Proof.Gen.Kernel
import proofs.«152240_j4922032521509_2_alg».proof.Proof.Gen.KernelIdeal
import proofs.«152240_j4922032521509_2_alg».proof.Proof.Gen.ReferenceIdeal
import proofs.«152240_j4922032521509_2_alg».proof.Proof.Gen.Pre_finite_inputs
import proofs.«152240_j4922032521509_2_alg».proof.Proof.Gen.ReferenceIdeal.Run
import proofs.«152240_j4922032521509_2_alg».proof.Proof.Gen.ReferenceIdeal.Read
import proofs.«152240_j4922032521509_2_alg».proof.Proof.RunBits
import proofs.«152240_j4922032521509_2_alg».proof.Proof.RunIdeal
import proofs.«152240_j4922032521509_2_alg».proof.Proof.AttentionRun
import proofs.«152240_j4922032521509_2_alg».proof.Proof.ReferenceValue
import proofs.«152240_j4922032521509_2_alg».proof.Proof.FiniteInputs
import Idealize.ShloMosaic.Adequacy
import Idealize.ShloMosaic.Init

noncomputable section

namespace Cert.Proof

open Idealize.ShloMosaic Idealize.SL.Sem

/-- The word-level streaming program runs to the end and leaves its arguments unchanged. -/
theorem frame_k : Cert.frame_Kernel := fun m ρ _ => Cert.Kernel.Hand.frame m ρ

/-- So does the idealized streaming program. -/
theorem frame_ki : Cert.frame_KernelIdeal := fun m ρ _ => Cert.KernelIdeal.Hand.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- For finite inputs the two idealized programs end with the same array: the attention output of the inputs. -/
theorem algebraic : Cert.algebraic_KernelIdeal_ReferenceIdeal := by
  intro m ρ m' ρ' hpre hagree
  choose Iof hIof using fun c => Cert.FiniteInputs.inputs_real m hpre c
  refine ⟨fun c => Cert.Spec.G (Iof c), Cert.KernelIdeal.HandGlue.run_G m ρ Iof hIof, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  obtain ⟨i0, i1, i2, i3, i4, i5, i6⟩ := hIof c
  rw [Cert.ReferenceIdeal.Read.val_main_v28_eq, a0, a1, a2, a3, a4, a5, a6, i0, i1, i2, i3, i4, i5, i6]
  exact Cert.RefValue.ref_eq_G (Iof c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
